-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x64x512 : Shape := ⟨4, ![16, 64, 64, 512]⟩
abbrev S512x64 : Shape := ⟨2, ![512, 64]⟩
abbrev S64 : Shape := ⟨1, ![64]⟩
abbrev S512x256 : Shape := ⟨2, ![512, 256]⟩
abbrev S256 : Shape := ⟨1, ![256]⟩
abbrev S256x512 : Shape := ⟨2, ![256, 512]⟩
abbrev S512 : Shape := ⟨1, ![512]⟩
abbrev S1 : Shape := ⟨1, ![1]⟩
abbrev S_ : Shape := ⟨0, ![]⟩

class Facts : Prop where
  bcast_S_S16x64x64x512 : S_.BroadcastsInDim S16x64x64x512 (![] : Fin 0 → Fin S16x64x64x512.rank)
  reducesTo_S16x64x64x512_S_d0_1_2_3 : S16x64x64x512.ReducesTo [0, 1, 2, 3] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S256x512 .f32) (main_arg8 : FVec F S512 .f32) (main_arg9 : FVec F S1 .f32) (main_v33 : IVec S_ 1) : IVec S_ 1 :=
  let main_v34 : FVec F S256x512 .f32 := Host.absf main_arg7
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S64 .f32) (main_arg5 : FVec F S512x256 .f32) (main_arg6 : FVec F S256 .f32) (main_arg7 : FVec F S256x512 .f32) (main_arg8 : FVec F S512 .f32) (main_arg9 : FVec F S1 .f32) (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_v33

def fn {F : FTy → Type} [FloatOps F] (main_arg0 : FVec F S16x64x64x512 .f32) (main_arg1 : FVec F S512x64 .f32) (main_arg2 : FVec F S64 .f32) (main_arg3 : FVec F S512x64 .f32) (main_arg4 : FVec F S64 .f32) (main_arg5 : FVec F S512x256 .f32) (main_arg6 : FVec F S256 .f32) (main_arg7 : FVec F S256x512 .f32) (main_arg8 : FVec F S512 .f32) (main_arg9 : FVec F S1 .f32) : IVec S_ 1 :=
  let main_v0 : FVec F S16x64x64x512 .f32 := Host.absf main_arg0
  let main_cst : FVec F S_ .f32 := constant S_ .f32 0x7F800000#32
  let main_v1 : FVec F S16x64x64x512 .f32 := broadcastInDim S16x64x64x512 ![] bcast_S_S16x64x64x512 main_cst
  let main_v2 : IVec S16x64x64x512 1 := cmpf .olt main_v0 main_v1
  let main_c : IVec S_ 1 := constantI S_ 1 1#1
  let main_v3 : IVec S_ 1 := (fun x v => Host.reduce IntOp.andi x v reducesTo_S16x64x64x512_S_d0_1_2_3 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S512x64 .f32 := Host.absf main_arg3
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_arg4 main_arg5 main_arg6 main_arg7 main_arg8 main_arg9 main_v13 main_v16
-- ==== Kernel.lean ====
abbrev S16x64x64x512 : Shape := ⟨4, ![16, 64, 64, 512]⟩
abbrev S512x64 : Shape := ⟨2, ![512, 64]⟩
abbrev S64 : Shape := ⟨1, ![64]⟩
abbrev S512x256 : Shape := ⟨2, ![512, 256]⟩
abbrev S256 : Shape := ⟨1, ![256]⟩
abbrev S256x512 : Shape := ⟨2, ![256, 512]⟩
abbrev S512 : Shape := ⟨1, ![512]⟩
abbrev S1 : Shape := ⟨1, ![1]⟩
abbrev S512x384 : Shape := ⟨2, ![512, 384]⟩
abbrev S384 : Shape := ⟨1, ![384]⟩
abbrev S1x384 : Shape := ⟨2, ![1, 384]⟩
abbrev S1x512 : Shape := ⟨2, ![1, 512]⟩
abbrev S1x1 : Shape := ⟨2, ![1, 1]⟩
abbrev S1x64x64x512 : Shape := ⟨4, ![1, 64, 64, 512]⟩
abbrev S32x32x64 : Shape := ⟨3, ![32, 32, 64]⟩
abbrev S32x32x256 : Shape := ⟨3, ![32, 32, 256]⟩
abbrev S64x64x64 : Shape := ⟨3, ![64, 64, 64]⟩
abbrev S1x16x64x512 : Shape := ⟨4, ![1, 16, 64, 512]⟩
abbrev S16x64x512 : Shape := ⟨3, ![16, 64, 512]⟩
abbrev S1024x512 : Shape := ⟨2, ![1024, 512]⟩
abbrev S1024x384 : Shape := ⟨2, ![1024, 384]⟩
abbrev S1024x64 : Shape := ⟨2, ![1024, 64]⟩
abbrev S16x64x64 : Shape := ⟨3, ![16, 64, 64]⟩
abbrev S1024x256 : Shape := ⟨2, ![1024, 256]⟩
abbrev S16x64x256 : Shape := ⟨3, ![16, 64, 256]⟩
abbrev S8x2x32x2x64 : Shape := ⟨5, ![8, 2, 32, 2, 64]⟩
abbrev S8x2x32x64 : Shape := ⟨4, ![8, 2, 32, 64]⟩
abbrev S8x32x64 : Shape := ⟨3, ![8, 32, 64]⟩
abbrev S8x2x32x2x256 : Shape := ⟨5, ![8, 2, 32, 2, 256]⟩
abbrev S8x2x32x256 : Shape := ⟨4, ![8, 2, 32, 256]⟩
abbrev S8x32x256 : Shape := ⟨3, ![8, 32, 256]⟩
abbrev S1x4x64x512 : Shape := ⟨4, ![1, 4, 64, 512]⟩
abbrev S4x64x512 : Shape := ⟨3, ![4, 64, 512]⟩
abbrev S4x64x64 : Shape := ⟨3, ![4, 64, 64]⟩
abbrev S256x64 : Shape := ⟨2, ![256, 64]⟩
abbrev S256x1024 : Shape := ⟨2, ![256, 1024]⟩
abbrev S256x1 : Shape := ⟨2, ![256, 1]⟩
abbrev S256x256 : Shape := ⟨2, ![256, 256]⟩

abbrev nBuf : Space → Nat
  | .hbm => 16
  | .vmem => 12
  | .smem => 0
  | _ => 0

abbrev bufTy : (tb : Table) → Fin (tcTables nBuf tb) → BufTy
  | .hbm, ⟨0, _⟩ => ⟨S16x64x64x512, .f32⟩
  | .hbm, ⟨1, _⟩ => ⟨S512x64, .f32⟩
  | .hbm, ⟨2, _⟩ => ⟨S64, .f32⟩
  | .hbm, ⟨3, _⟩ => ⟨S512x64, .f32⟩
  | .hbm, ⟨4, _⟩ => ⟨S64, .f32⟩
  | .hbm, ⟨5, _⟩ => ⟨S512x256, .f32⟩
  | .hbm, ⟨6, _⟩ => ⟨S256, .f32⟩
  | .hbm, ⟨7, _⟩ => ⟨S256x512, .f32⟩
  | .hbm, ⟨8, _⟩ => ⟨S512, .f32⟩
  | .hbm, ⟨9, _⟩ => ⟨S1, .f32⟩
  | .hbm, ⟨10, _⟩ => ⟨S512x384, .f32⟩
  | .hbm, ⟨11, _⟩ => ⟨S384, .f32⟩
  | .hbm, ⟨12, _⟩ => ⟨S1x384, .f32⟩
  | .hbm, ⟨13, _⟩ => ⟨S1x512, .f32⟩
  | .hbm, ⟨14, _⟩ => ⟨S1x1, .f32⟩
  | .hbm, ⟨15, _⟩ => ⟨S16x64x64x512, .f32⟩
  | .local _ .vmem, ⟨0, _⟩ => ⟨S1x64x64x512, .f32⟩
  | .local _ .vmem, ⟨1, _⟩ => ⟨S1x64x64x512, .f32⟩
  | .local _ .vmem, ⟨2, _⟩ => ⟨S512x384, .f32⟩
  | .local _ .vmem, ⟨3, _⟩ => ⟨S1x384, .f32⟩
  | .local _ .vmem, ⟨4, _⟩ => ⟨S256x512, .f32⟩
  | .local _ .vmem, ⟨5, _⟩ => ⟨S1x512, .f32⟩
  | .local _ .vmem, ⟨6, _⟩ => ⟨S1x1, .f32⟩
  | .local _ .vmem, ⟨7, _⟩ => ⟨S1x64x64x512, .f32⟩
  | .local _ .vmem, ⟨8, _⟩ => ⟨S1x64x64x512, .f32⟩
  | .local _ .vmem, ⟨9, _⟩ => ⟨S32x32x64, .bf16⟩
  | .local _ .vmem, ⟨10, _⟩ => ⟨S32x32x256, .bf16⟩
  | .local _ .vmem, ⟨11, _⟩ => ⟨S64x64x64, .bf16⟩
  | _, _ => ⟨S16x64x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v11 : BitVec 32 := Scalar.addi c0_i32 c4_i32
  let c1_i32 : BitVec 32 := 1#32
  ⟨c0_i32, v11, c1_i32⟩
def k0_mult1 (k0_t1 : Fin k0_t1_loop.trips) : BitVec 32 :=
  let c0_i32_20 : BitVec 32 := 0#32
  let c0_i32 : BitVec 32 := 0#32
  let c1_i32 : BitVec 32 := 1#32
  let arg11 : BitVec 32 := Scf.iv c0_i32 c1_i32 k0_t1
  let c1_i32_19 : BitVec 32 := 1#32
  let v17 : BitVec 32 := Scalar.muli arg11 c1_i32_19
  let v18 : BitVec 32 := Scalar.addi c0_i32_20 v17
  let c16_i32_21 : BitVec 32 := 16#32
  let v19 : BitVec 32 := Scalar.muli v18 c16_i32_21
  v19
def k0_off1 (k0_t1 : Fin k0_t1_loop.trips) : Fin 4 → Nat :=
  let c0_22 : Index := 0#32
  let c0_i32_20 : BitVec 32 := 0#32
  let c0_i32 : BitVec 32 := 0#32
  let c1_i32 : BitVec 32 := 1#32
  let arg11 : BitVec 32 := Scf.iv c0_i32 c1_i32 k0_t1
  let c1_i32_19 : BitVec 32 := 1#32
  let v17 : BitVec 32 := Scalar.muli arg11 c1_i32_19
  let v18 : BitVec 32 := Scalar.addi c0_i32_20 v17
  let c16_i32_21 : BitVec 32 := 16#32
  let v19 : BitVec 32 := Scalar.muli v18 c16_i32_21
  let v20 : BitVec 32 := v19
  let v21 : Index := Scalar.indexCast v20
  let c0_23 : Index := 0#32
  let c0_24 : Index := 0#32
  ![0, v21.toNat, 0, 0]
def k0_mult2 (k0_t1 : Fin k0_t1_loop.trips) : BitVec 32 :=
  let c0_i32_20 : BitVec 32 := 0#32
  let c0_i32 : BitVec 32 := 0#32
  let c1_i32 : BitVec 32 := 1#32
  let arg11 : BitVec 32 := Scf.iv c0_i32 c1_i32 k0_t1
  let c1_i32_19 : BitVec 32 := 1#32
  let v17 : BitVec 32 := Scalar.muli arg11 c1_i32_19
  let v18 : BitVec 32 := Scalar.addi c0_i32_20 v17
  let c8_i32 : BitVec 32 := 8#32
  let v41 : BitVec 32 := Scalar.muli v18 c8_i32
  v41
def k0_off2 (k0_t1 : Fin k0_t1_loop.trips) : Fin 3 → Nat :=
  let c0_i32_20 : BitVec 32 := 0#32
  let c0_i32 : BitVec 32 := 0#32
  let c1_i32 : BitVec 32 := 1#32
  let arg11 : BitVec 32 := Scf.iv c0_i32 c1_i32 k0_t1
  let c1_i32_19 : BitVec 32 := 1#32
  let v17 : BitVec 32 := Scalar.muli arg11 c1_i32_19
  let v18 : BitVec 32 := Scalar.addi c0_i32_20 v17
  let c8_i32 : BitVec 32 := 8#32
  let v41 : BitVec 32 := Scalar.muli v18 c8_i32
  let v42 : BitVec 32 := v41
  let v44 : Index := Scalar.indexCast v42
  let c0_29 : Index := 0#32
  let c0_30 : Index := 0#32
  ![v44.toNat, 0, 0]
def k0_off3 (k0_t1 : Fin k0_t1_loop.trips) : Fin 3 → Nat :=
  let c0_i32_20 : BitVec 32 := 0#32
  let c0_i32 : BitVec 32 := 0#32
  let c1_i32 : BitVec 32 := 1#32
  let arg11 : BitVec 32 := Scf.iv c0_i32 c1_i32 k0_t1
  let c1_i32_19 : BitVec 32 := 1#32
  let v17 : BitVec 32 := Scalar.muli arg11 c1_i32_19
  let v18 : BitVec 32 := Scalar.addi c0_i32_20 v17
  let c8_i32 : BitVec 32 := 8#32
  let v41 : BitVec 32 := Scalar.muli v18 c8_i32
  let v42 : BitVec 32 := v41
  let v49 : Index := Scalar.indexCast v42
  let c0_31 : Index := 0#32
  let c0_32 : Index := 0#32
  ![v49.toNat, 0, 0]
def k0_off4 (k0_t1 : Fin k0_t1_loop.trips) : Fin 3 → Nat :=
  let c0_i32_20 : BitVec 32 := 0#32
  let c0_i32 : BitVec 32 := 0#32
  let c1_i32 : BitVec 32 := 1#32
  let arg11 : BitVec 32 := Scf.iv c0_i32 c1_i32 k0_t1
  let c1_i32_19 : BitVec 32 := 1#32
  let v17 : BitVec 32 := Scalar.muli arg11 c1_i32_19
  let v18 : BitVec 32 := Scalar.addi c0_i32_20 v17
  let c16_i32_21 : BitVec 32 := 16#32
  let v19 : BitVec 32 := Scalar.muli v18 c16_i32_21
  let v20 : BitVec 32 := v19
  let v54 : Index := Scalar.indexCast v20
  let c0_33 : Index := 0#32
  let c0_34 : Index := 0#32
  ![v54.toNat, 0, 0]
@[reducible] def k0_t2_loop : Scf.Loop 32 :=
  let c0_i32_16 : BitVec 32 := 0#32
  let c16_i32 : BitVec 32 := 16#32
  let v16 : BitVec 32 := Scalar.addi c0_i32_16 c16_i32
  let c1_i32_17 : BitVec 32 := 1#32
  ⟨c0_i32_16, v16, c1_i32_17⟩
def k0_mult3 (k0_t2 : Fin k0_t2_loop.trips) : BitVec 32 :=
  let c0_i32_20 : BitVec 32 := 0#32
  let c0_i32_16 : BitVec 32 := 0#32
  let c1_i32_17 : BitVec 32 := 1#32
  let arg11 : BitVec 32 := Scf.iv c0_i32_16 c1_i32_17 k0_t2
  let c1_i32_19 : BitVec 32 := 1#32
  let v17 : BitVec 32 := Scalar.muli arg11 c1_i32_19
  let v18 : BitVec 32 := Scalar.addi c0_i32_20 v17
  let c4_i32_21 : BitVec 32 := 4#32
  let v19 : BitVec 32 := Scalar.muli v18 c4_i32_21
  v19
def k0_off5 (k0_t2 : Fin k0_t2_loop.trips) : Fin 4 → Nat :=
  let c0_22 : Index := 0#32
  let c0_i32_20 : BitVec 32 := 0#32
  let c0_i32_16 : BitVec 32 := 0#32
  let c1_i32_17 : BitVec 32 := 1#32
  let arg11 : BitVec 32 := Scf.iv c0_i32_16 c1_i32_17 k0_t2
  let c1_i32_19 : BitVec 32 := 1#32
  let v17 : BitVec 32 := Scalar.muli arg11 c1_i32_19
  let v18 : BitVec 32 := Scalar.addi c0_i32_20 v17
  let c4_i32_21 : BitVec 32 := 4#32
  let v19 : BitVec 32 := Scalar.muli v18 c4_i32_21
  let v20 : BitVec 32 := v19
  let v21 : Index := Scalar.indexCast v20
  let c0_23 : Index := 0#32
  let c0_24 : Index := 0#32
  ![0, v21.toNat, 0, 0]
def k0_off6 (k0_t2 : Fin k0_t2_loop.trips) : Fin 3 → Nat :=
  let c0_i32_20 : BitVec 32 := 0#32
  let c0_i32_16 : BitVec 32 := 0#32
  let c1_i32_17 : BitVec 32 := 1#32
  let arg11 : BitVec 32 := Scf.iv c0_i32_16 c1_i32_17 k0_t2
  let c1_i32_19 : BitVec 32 := 1#32
  let v17 : BitVec 32 := Scalar.muli arg11 c1_i32_19
  let v18 : BitVec 32 := Scalar.addi c0_i32_20 v17
  let c4_i32_21 : BitVec 32 := 4#32
  let v19 : BitVec 32 := Scalar.muli v18 c4_i32_21
  let v20 : BitVec 32 := v19
  let v25 : Index := Scalar.indexCast v20
  let c0_25 : Index := 0#32
  let c0_26 : Index := 0#32
  ![v25.toNat, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x64x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S512x64_S512x64_S512x256_S512x384_d1 : Shape.Concatenates [S512x64, S512x64, S512x256] S512x384 1
  concatenates_S64_S64_S256_S384_d0 : Shape.Concatenates [S64, S64, S256] S384 0
  shapeCasts_S384_S1x384 : S384.ShapeCasts S1x384
  shapeCasts_S512_S1x512 : S512.ShapeCasts S1x512
  shapeCasts_S1_S1x1 : S1.ShapeCasts S1x1
  inb_S512x384_S512x384_0_0 : ∀ a, (![0, 0] : Fin 2 → Nat) a + S512x384.size a ≤ S512x384.size a
  h_S512x384 : 0 < S512x384.numel
  shapeCasts_S512x384_S512x384 : S512x384.ShapeCasts S512x384
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  h_S1x16x64x512 : 0 < S1x16x64x512.numel
  shapeCasts_S1x16x64x512_S16x64x512 : S1x16x64x512.ShapeCasts S16x64x512
  shapeCasts_S16x64x512_S1024x512 : S16x64x512.ShapeCasts S1024x512
  broadcasts_S1x384_S1024x384 : S1x384.Broadcasts S1024x384
  slices_S1024x384_o0_0_S1024x64 : S1024x384.Slices ![0, 0] S1024x64
  shapeCasts_S1024x64_S16x64x64 : S1024x64.ShapeCasts S16x64x64
  slices_S1024x384_o0_64_S1024x64 : S1024x384.Slices ![0, 64] S1024x64
  slices_S1024x384_o0_128_S1024x256 : S1024x384.Slices ![0, 128] S1024x256
  shapeCasts_S1024x256_S16x64x256 : S1024x256.ShapeCasts S16x64x256
  shapeCasts_S16x64x64_S8x2x32x2x64 : S16x64x64.ShapeCasts S8x2x32x2x64
  reduces_S8x2x32x2x64_S8x2x32x64 : S8x2x32x2x64.Reduces [3] S8x2x32x64
  reduces_S8x2x32x64_S8x32x64 : S8x2x32x64.Reduces [1] S8x32x64
  shapeCasts_S16x64x256_S8x2x32x2x256 : S16x64x256.ShapeCasts S8x2x32x2x256
  reduces_S8x2x32x2x256_S8x2x32x256 : S8x2x32x2x256.Reduces [3] S8x2x32x256
  reduces_S8x2x32x256_S8x32x256 : S8x2x32x256.Reduces [1] S8x32x256
  h_S8x32x64 : 0 < S8x32x64.numel
  shapeCasts_S8x32x64_S8x32x64 : S8x32x64.ShapeCasts S8x32x64
  h_S8x32x256 : 0 < S8x32x256.numel
  shapeCasts_S8x32x256_S8x32x256 : S8x32x256.ShapeCasts S8x32x256
  h_S16x64x64 : 0 < S16x64x64.numel
  shapeCasts_S16x64x64_S16x64x64 : S16x64x64.ShapeCasts S16x64x64
  inb_S32x32x64_S32x32x64_0_0_0 : ∀ a, (![0, 0, 0] : Fin 3 → Nat) a + S32x32x64.size a ≤ S32x32x64.size a
  h_S32x32x64 : 0 < S32x32x64.numel
  shapeCasts_S32x32x64_S1024x64 : S32x32x64.ShapeCasts S1024x64
  inb_S32x32x256_S32x32x256_0_0_0 : ∀ a, (![0, 0, 0] : Fin 3 → Nat) a + S32x32x256.size a ≤ S32x32x256.size a
  h_S32x32x256 : 0 < S32x32x256.numel
  shapeCasts_S32x32x256_S1024x256 : S32x32x256.ShapeCasts S1024x256
  h_S1x4x64x512 : 0 < S1x4x64x512.numel
  shapeCasts_S1x4x64x512_S4x64x512 : S1x4x64x512.ShapeCasts S4x64x512
  shapeCasts_S4x64x512_S256x512 : S4x64x512.ShapeCasts S256x512
  h_S4x64x64 : 0 < S4x64x64.numel
  shapeCasts_S4x64x64_S256x64 : S4x64x64.ShapeCasts S256x64
  reduces_S256x1024_S256 : S256x1024.Reduces [1] S256
  shapeCasts_S256_S256x1 : S256.ShapeCasts S256x1
  broadcasts_S256x1_S256x1024 : S256x1.Broadcasts S256x1024
  broadcasts_S1x512_S256x512 : S1x512.Broadcasts S256x512
  shapeCasts_S256x512_S4x64x512 : S256x512.ShapeCasts S4x64x512
  shapeCasts_S4x64x512_S1x4x64x512 : S4x64x512.ShapeCasts S1x4x64x512
  dot_S1024x512_S512x384_S1024x384_1_0_0_1_n_n_wf : DotDims.WF S1024x512 S512x384 S1024x384 [1] [0] [0] [1] [] []
  dot_S256x64_S1024x64_S256x1024_1_1_0_0_n_n_wf : DotDims.WF S256x64 S1024x64 S256x1024 [1] [1] [0] [0] [] []
  dot_S256x1024_S1024x256_S256x256_1_0_0_1_n_n_wf : DotDims.WF S256x1024 S1024x256 S256x256 [1] [0] [0] [1] [] []
  dot_S256x256_S256x512_S256x512_1_0_0_1_n_n_wf : DotDims.WF S256x256 S256x512 S256x512 [1] [0] [0] [1] [] []
  hrank0 : 0 < grid0.rank
  k0_t1_ok : k0_t1_loop.OK
  k0_mult1_dvd : ∀ k0_t1 : Fin k0_t1_loop.trips, 16 ∣ (k0_mult1 k0_t1).toNat
  k0_off1_inb : ∀ k0_t1 : Fin k0_t1_loop.trips, ∀ a, (k0_off1 k0_t1) a + S1x16x64x512.size a ≤ S1x64x64x512.size a
  k0_mult2_dvd : ∀ k0_t1 : Fin k0_t1_loop.trips, 8 ∣ (k0_mult2 k0_t1).toNat
  k0_off2_inb : ∀ k0_t1 : Fin k0_t1_loop.trips, ∀ a, (k0_off2 k0_t1) a + S8x32x64.size a ≤ S32x32x64.size a
  k0_off2_packedbf16 : ∀ k0_t1 : Fin k0_t1_loop.trips, (Rect.unit (s := S32x32x64) (k0_off2 k0_t1) S8x32x64.size (k0_off2_inb k0_t1)).PackedRows (EltTy.packing .bf16)
  k0_off3_inb : ∀ k0_t1 : Fin k0_t1_loop.trips, ∀ a, (k0_off3 k0_t1) a + S8x32x256.size a ≤ S32x32x256.size a
  k0_off3_packedbf16 : ∀ k0_t1 : Fin k0_t1_loop.trips, (Rect.unit (s := S32x32x256) (k0_off3 k0_t1) S8x32x256.size (k0_off3_inb k0_t1)).PackedRows (EltTy.packing .bf16)
  k0_off4_inb : ∀ k0_t1 : Fin k0_t1_loop.trips, ∀ a, (k0_off4 k0_t1) a + S16x64x64.size a ≤ S64x64x64.size a
  k0_off4_packedbf16 : ∀ k0_t1 : Fin k0_t1_loop.trips, (Rect.unit (s := S64x64x64) (k0_off4 k0_t1) S16x64x64.size (k0_off4_inb k0_t1)).PackedRows (EltTy.packing .bf16)
  k0_t2_ok : k0_t2_loop.OK
  k0_mult3_dvd : ∀ k0_t2 : Fin k0_t2_loop.trips, 4 ∣ (k0_mult3 k0_t2).toNat
  k0_off5_inb : ∀ k0_t2 : Fin k0_t2_loop.trips, ∀ a, (k0_off5 k0_t2) a + S1x4x64x512.size a ≤ S1x64x64x512.size a
  k0_off6_inb : ∀ k0_t2 : Fin k0_t2_loop.trips, ∀ a, (k0_off6 k0_t2) a + S4x64x64.size a ≤ S64x64x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x64x512.size a ≤ S16x64x64x512.size a
  hwx0_0 : ∀ i : grid0.Coords, EltTy.bits .f32 = 32 ∨ (Rect.block (s := S16x64x64x512) S1x64x64x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x384.size a ≤ S512x384.size a
  hwx0_1 : ∀ i : grid0.Coords, EltTy.bits .f32 = 32 ∨ (Rect.block (s := S512x384) S512x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .f32 = 32 ∨ (Rect.block (s := S256x512) S256x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x64x64x512.size a ≤ S16x64x64x512.size a
  hwx0_6 : ∀ i : grid0.Coords, EltTy.bits .f32 = 32 ∨ (Rect.block (s := S16x64x64x512) S1x64x64x512.size (cc0_transform_6 i) (hinb0_6 i)).WholeWords (EltTy.packing .f32)

variable [Facts₀]

def dot_S1024x512_S512x384_S1024x384_1_0_0_1_n_n : DotDims S1024x512 S512x384 S1024x384 where
  lhsContracting := [1]
  rhsContracting := [0]
  lhsNonContracting := [0]
  rhsNonContracting := [1]
  lhsBatch := []
  rhsBatch := []
  wf := dot_S1024x512_S512x384_S1024x384_1_0_0_1_n_n_wf
def dot_S256x64_S1024x64_S256x1024_1_1_0_0_n_n : DotDims S256x64 S1024x64 S256x1024 where
  lhsContracting := [1]
  rhsContracting := [1]
  lhsNonContracting := [0]
  rhsNonContracting := [0]
  lhsBatch := []
  rhsBatch := []
  wf := dot_S256x64_S1024x64_S256x1024_1_1_0_0_n_n_wf
def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf
def dot_S256x256_S256x512_S256x512_1_0_0_1_n_n : DotDims S256x256 S256x512 S256x512 where
  lhsContracting := [1]
  rhsContracting := [0]
  lhsNonContracting := [0]
  rhsNonContracting := [1]
  lhsBatch := []
  rhsBatch := []
  wf := dot_S256x256_S256x512_S256x512_1_0_0_1_n_n_wf

abbrev win0_0 : Pipeline.Window sig grid0 :=
  Pipeline.Window.ofSpec (Memref.whole main_arg0) S1x64x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x64x64x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x64x64x512 : Shape := ⟨4, ![16, 64, 64, 512]⟩
abbrev S512x64 : Shape := ⟨2, ![512, 64]⟩
abbrev S64 : Shape := ⟨1, ![64]⟩
abbrev S512x256 : Shape := ⟨2, ![512, 256]⟩
abbrev S256 : Shape := ⟨1, ![256]⟩
abbrev S256x512 : Shape := ⟨2, ![256, 512]⟩
abbrev S512 : Shape := ⟨1, ![512]⟩
abbrev S1 : Shape := ⟨1, ![1]⟩
abbrev S16x64x64x64 : Shape := ⟨4, ![16, 64, 64, 64]⟩
abbrev S1x1x1x64 : Shape := ⟨4, ![1, 1, 1, 64]⟩
abbrev S16x32x2x32x2x64 : Shape := ⟨6, ![16, 32, 2, 32, 2, 64]⟩
abbrev S_ : Shape := ⟨0, ![]⟩
abbrev S16x32x32x64 : Shape := ⟨4, ![16, 32, 32, 64]⟩
abbrev S16x1024x64 : Shape := ⟨3, ![16, 1024, 64]⟩
abbrev S16x4096x64 : Shape := ⟨3, ![16, 4096, 64]⟩
abbrev S16x64x64x256 : Shape := ⟨4, ![16, 64, 64, 256]⟩
abbrev S1x1x1x256 : Shape := ⟨4, ![1, 1, 1, 256]⟩
abbrev S16x32x2x32x2x256 : Shape := ⟨6, ![16, 32, 2, 32, 2, 256]⟩
abbrev S16x32x32x256 : Shape := ⟨4, ![16, 32, 32, 256]⟩
abbrev S16x1024x256 : Shape := ⟨3, ![16, 1024, 256]⟩
abbrev S16x4096x1024 : Shape := ⟨3, ![16, 4096, 1024]⟩
abbrev S16x4096 : Shape := ⟨2, ![16, 4096]⟩
abbrev S16x4096x1 : Shape := ⟨3, ![16, 4096, 1]⟩
abbrev S16x4096x256 : Shape := ⟨3, ![16, 4096, 256]⟩
abbrev S1x1x1x512 : Shape := ⟨4, ![1, 1, 1, 512]⟩
abbrev S1x1x1x1 : Shape := ⟨4, ![1, 1, 1, 1]⟩

abbrev nBuf : Space → Nat
  | .hbm => 56
  | .vmem => 0
  | .smem => 0
  | _ => 0

abbrev bufTy : (tb : Table) → Fin (tcTables nBuf tb) → BufTy
  | .hbm, ⟨0, _⟩ => ⟨S16x64x64x512, .f32⟩
  | .hbm, ⟨1, _⟩ => ⟨S512x64, .f32⟩
  | .hbm, ⟨2, _⟩ => ⟨S64, .f32⟩
  | .hbm, ⟨3, _⟩ => ⟨S512x64, .f32⟩
  | .hbm, ⟨4, _⟩ => ⟨S64, .f32⟩
  | .hbm, ⟨5, _⟩ => ⟨S512x256, .f32⟩
  | .hbm, ⟨6, _⟩ => ⟨S256, .f32⟩
  | .hbm, ⟨7, _⟩ => ⟨S256x512, .f32⟩
  | .hbm, ⟨8, _⟩ => ⟨S512, .f32⟩
  | .hbm, ⟨9, _⟩ => ⟨S1, .f32⟩
  | .hbm, ⟨10, _⟩ => ⟨S16x64x64x64, .f32⟩
  | .hbm, ⟨11, _⟩ => ⟨S1x1x1x64, .f32⟩
  | .hbm, ⟨12, _⟩ => ⟨S16x64x64x64, .f32⟩
  | .hbm, ⟨13, _⟩ => ⟨S16x64x64x64, .f32⟩
  | .hbm, ⟨14, _⟩ => ⟨S16x32x2x32x2x64, .f32⟩
  | .hbm, ⟨15, _⟩ => ⟨S_, .f32⟩
  | .hbm, ⟨16, _⟩ => ⟨S16x32x32x64, .f32⟩
  | .hbm, ⟨17, _⟩ => ⟨S16x1024x64, .f32⟩
  | .hbm, ⟨18, _⟩ => ⟨S16x64x64x64, .f32⟩
  | .hbm, ⟨19, _⟩ => ⟨S1x1x1x64, .f32⟩
  | .hbm, ⟨20, _⟩ => ⟨S16x64x64x64, .f32⟩
  | .hbm, ⟨21, _⟩ => ⟨S16x64x64x64, .f32⟩
  | .hbm, ⟨22, _⟩ => ⟨S16x4096x64, .f32⟩
  | .hbm, ⟨23, _⟩ => ⟨S16x64x64x256, .f32⟩
  | .hbm, ⟨24, _⟩ => ⟨S1x1x1x256, .f32⟩
  | .hbm, ⟨25, _⟩ => ⟨S16x64x64x256, .f32⟩
  | .hbm, ⟨26, _⟩ => ⟨S16x64x64x256, .f32⟩
  | .hbm, ⟨27, _⟩ => ⟨S16x32x2x32x2x256, .f32⟩
  | .hbm, ⟨28, _⟩ => ⟨S_, .f32⟩
  | .hbm, ⟨29, _⟩ => ⟨S16x32x32x256, .f32⟩
  | .hbm, ⟨30, _⟩ => ⟨S16x1024x256, .f32⟩
  | .hbm, ⟨31, _⟩ => ⟨S16x4096x1024, .f32⟩
  | .hbm, ⟨32, _⟩ => ⟨S_, .f32⟩
  | .hbm, ⟨33, _⟩ => ⟨S16x4096, .f32⟩
  | .hbm, ⟨34, _⟩ => ⟨S_, .f32⟩
  | .hbm, ⟨35, _⟩ => ⟨S16x4096, .f32⟩
  | .hbm, ⟨36, _⟩ => ⟨S16x4096, .f32⟩
  | .hbm, ⟨37, _⟩ => ⟨S16x4096x1, .f32⟩
  | .hbm, ⟨38, _⟩ => ⟨S16x4096x1024, .f32⟩
  | .hbm, ⟨39, _⟩ => ⟨S16x4096x1024, .f32⟩
  | .hbm, ⟨40, _⟩ => ⟨S16x4096x1024, .f32⟩
  | .hbm, ⟨41, _⟩ => ⟨S_, .f32⟩
  | .hbm, ⟨42, _⟩ => ⟨S16x4096, .f32⟩
  | .hbm, ⟨43, _⟩ => ⟨S16x4096x1, .f32⟩
  | .hbm, ⟨44, _⟩ => ⟨S16x4096x1024, .f32⟩
  | .hbm, ⟨45, _⟩ => ⟨S16x4096x1024, .f32⟩
  | .hbm, ⟨46, _⟩ => ⟨S16x4096x256, .f32⟩
  | .hbm, ⟨47, _⟩ => ⟨S16x64x64x256, .f32⟩
  | .hbm, ⟨48, _⟩ => ⟨S16x64x64x512, .f32⟩
  | .hbm, ⟨49, _⟩ => ⟨S1x1x1x512, .f32⟩
  | .hbm, ⟨50, _⟩ => ⟨S16x64x64x512, .f32⟩
  | .hbm, ⟨51, _⟩ => ⟨S16x64x64x512, .f32⟩
  | .hbm, ⟨52, _⟩ => ⟨S1x1x1x1, .f32⟩
  | .hbm, ⟨53, _⟩ => ⟨S16x64x64x512, .f32⟩
  | .hbm, ⟨54, _⟩ => ⟨S16x64x64x512, .f32⟩
  | .hbm, ⟨55, _⟩ => ⟨S16x64x64x512, .f32⟩
  | _, _ => ⟨S16x64x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]

class Facts₀ : Prop where
  bcast_S64_S1x1x1x64_3 : S64.BroadcastsInDim S1x1x1x64 (![3] : Fin 1 → Fin S1x1x1x64.rank)
  bcast_S1x1x1x64_S16x64x64x64_0_1_2_3 : S1x1x1x64.BroadcastsInDim S16x64x64x64 (![0, 1, 2, 3] : Fin 4 → Fin S16x64x64x64.rank)
  shapeCasts_S16x64x64x64_S16x32x2x32x2x64 : S16x64x64x64.ShapeCasts S16x32x2x32x2x64
  reducesTo_S16x32x2x32x2x64_S16x32x32x64_d2_4 : S16x32x2x32x2x64.ReducesTo [2, 4] S16x32x32x64
  h_S_ : 0 < S_.numel
  shapeCasts_S16x32x32x64_S16x1024x64 : S16x32x32x64.ShapeCasts S16x1024x64
  shapeCasts_S16x64x64x64_S16x4096x64 : S16x64x64x64.ShapeCasts S16x4096x64
  bcast_S256_S1x1x1x256_3 : S256.BroadcastsInDim S1x1x1x256 (![3] : Fin 1 → Fin S1x1x1x256.rank)
  bcast_S1x1x1x256_S16x64x64x256_0_1_2_3 : S1x1x1x256.BroadcastsInDim S16x64x64x256 (![0, 1, 2, 3] : Fin 4 → Fin S16x64x64x256.rank)
  shapeCasts_S16x64x64x256_S16x32x2x32x2x256 : S16x64x64x256.ShapeCasts S16x32x2x32x2x256
  reducesTo_S16x32x2x32x2x256_S16x32x32x256_d2_4 : S16x32x2x32x2x256.ReducesTo [2, 4] S16x32x32x256
  shapeCasts_S16x32x32x256_S16x1024x256 : S16x32x32x256.ShapeCasts S16x1024x256
  reducesTo_S16x4096x1024_S16x4096_d2 : S16x4096x1024.ReducesTo [2] S16x4096
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  bcast_S16x4096x1_S16x4096x1024_0_1_2 : S16x4096x1.BroadcastsInDim S16x4096x1024 (![0, 1, 2] : Fin 3 → Fin S16x4096x1024.rank)
  shapeCasts_S16x4096x256_S16x64x64x256 : S16x4096x256.ShapeCasts S16x64x64x256
  bcast_S512_S1x1x1x512_3 : S512.BroadcastsInDim S1x1x1x512 (![3] : Fin 1 → Fin S1x1x1x512.rank)
  bcast_S1x1x1x512_S16x64x64x512_0_1_2_3 : S1x1x1x512.BroadcastsInDim S16x64x64x512 (![0, 1, 2, 3] : Fin 4 → Fin S16x64x64x512.rank)
  bcast_S1_S1x1x1x1_3 : S1.BroadcastsInDim S1x1x1x1 (![3] : Fin 1 → Fin S1x1x1x1.rank)
  bcast_S1x1x1x1_S16x64x64x512_0_1_2_3 : S1x1x1x1.BroadcastsInDim S16x64x64x512 (![0, 1, 2, 3] : Fin 4 → Fin S16x64x64x512.rank)
  dot_S16x64x64x512_S512x64_S16x64x64x64_3_0_012_1_n_n_wf : DotDims.WF S16x64x64x512 S512x64 S16x64x64x64 [3] [0] [0, 1, 2] [1] [] []
  dot_S16x64x64x512_S512x256_S16x64x64x256_3_0_012_1_n_n_wf : DotDims.WF S16x64x64x512 S512x256 S16x64x64x256 [3] [0] [0, 1, 2] [1] [] []
  dot_S16x4096x64_S16x1024x64_S16x4096x1024_2_2_1_1_0_0_wf : DotDims.WF S16x4096x64 S16x1024x64 S16x4096x1024 [2] [2] [1] [1] [0] [0]
  dot_S16x4096x1024_S16x1024x256_S16x4096x256_2_1_1_2_0_0_wf : DotDims.WF S16x4096x1024 S16x1024x256 S16x4096x256 [2] [1] [1] [2] [0] [0]
  dot_S16x64x64x256_S256x512_S16x64x64x512_3_0_012_1_n_n_wf : DotDims.WF S16x64x64x256 S256x512 S16x64x64x512 [3] [0] [0, 1, 2] [1] [] []

variable [Facts₀]

def dot_S16x64x64x512_S512x64_S16x64x64x64_3_0_012_1_n_n : DotDims S16x64x64x512 S512x64 S16x64x64x64 where
  lhsContracting := [3]
  rhsContracting := [0]
  lhsNonContracting := [0, 1, 2]
  rhsNonContracting := [1]
  lhsBatch := []
  rhsBatch := []
  wf := dot_S16x64x64x512_S512x64_S16x64x64x64_3_0_012_1_n_n_wf
def dot_S16x64x64x512_S512x256_S16x64x64x256_3_0_012_1_n_n : DotDims S16x64x64x512 S512x256 S16x64x64x256 where
  lhsContracting := [3]
  rhsContracting := [0]
  lhsNonContracting := [0, 1, 2]
  rhsNonContracting := [1]
  lhsBatch := []
  rhsBatch := []
  wf := dot_S16x64x64x512_S512x256_S16x64x64x256_3_0_012_1_n_n_wf
def dot_S16x4096x64_S16x1024x64_S16x4096x1024_2_2_1_1_0_0 : DotDims S16x4096x64 S16x1024x64 S16x4096x1024 where
  lhsContracting := [2]
  rhsContracting := [2]
  lhsNonContracting := [1]
  rhsNonContracting := [1]
  lhsBatch := [0]
  rhsBatch := [0]
  wf := dot_S16x4096x64_S16x1024x64_S16x4096x1024_2_2_1_1_0_0_wf
def dot_S16x4096x1024_S16x1024x256_S16x4096x256_2_1_1_2_0_0 : DotDims S16x4096x1024 S16x1024x256 S16x4096x256 where
  lhsContracting := [2]
  rhsContracting := [1]
  lhsNonContracting := [1]
  rhsNonContracting := [2]
  lhsBatch := [0]
  rhsBatch := [0]
  wf := dot_S16x4096x1024_S16x1024x256_S16x4096x256_2_1_1_2_0_0_wf
def dot_S16x64x64x256_S256x512_S16x64x64x512_3_0_012_1_n_n : DotDims S16x64x64x256 S256x512 S16x64x64x512 where
  lhsContracting := [3]
  rhsContracting := [0]
  lhsNonContracting := [0, 1, 2]
  rhsNonContracting := [1]
  lhsBatch := []
  rhsBatch := []
  wf := dot_S16x64x64x256_S256x512_S16x64x64x512_3_0_012_1_n_n_wf

class Facts : Prop extends Facts₀ where

variable [Facts]
-- ==== Proof.BitsEntry.lean ====
/-
  The program `Kernel` up to its one pallas_call. @main first builds, on the host, the fused projection
  weights `[Wf | Wg | Wh]` (512 x 384, a concatenation along the columns), the fused bias `[bf ; bg ; bh]`
  (384 entries, then viewed as one row), and views the output bias and gamma as 1 x 512 and 1 x 1; only then does it
  launch the call over the 16 batch elements. Here: the contents `V` of every buffer when the call is
  entered (the launch contents with those five host results written), that no host line touches an
  argument array, each window's block at a grid point read off `V`, that every input window's staging buffer
  holds exactly that block at every point, and that a run ending in the launch theorem's post leaves all ten
  argument arrays as they were launched.
-/
import proofs.«110549_j51281909514278_2_alg».proof.Proof.Gen.Kernel.Launch
import proofs.«110549_j51281909514278_2_alg».proof.Proof.Gen.Kernel.Skeleton
import proofs.«110549_j51281909514278_2_alg».proof.Proof.Gen.Kernel.Points
import proofs.«110549_j51281909514278_2_alg».proof.Proof.Gen.Kernel.Loops
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the call is entered -/

/-- Core `c`'s buffers after the five host lines (two concatenations, three reshapes). -/
abbrev V (c : Dev nD) (b : Ref sig .tc) : Buf (Elt F) ((c : Thread nD τ).loc b) :=
  StableHlo.after (hostOps0 (F := F)) (fun b => m (c, b)) b

/-- The host lines allocate nothing. -/
theorem hostOps0_fresh : (hostOps0 : List (HloOp τ sig (Elt F))).Forall fun op => op.fresh = ∅ := by
  simp only [List.Forall]; repeat' constructor

/-- @main is those host lines followed by the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host line before the call writes argument 0: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.reshape_writes, Finset.mem_singleton]
    repeat' apply And.intro
    all_goals exact StableHlo.devRef_ne_of_ne (by decide)))
/-- No host line before the call writes argument 1: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.reshape_writes, Finset.mem_singleton]
    repeat' apply And.intro
    all_goals exact StableHlo.devRef_ne_of_ne (by decide)))
/-- No host line before the call writes argument 2: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.reshape_writes, Finset.mem_singleton]
    repeat' apply And.intro
    all_goals exact StableHlo.devRef_ne_of_ne (by decide)))
/-- No host line before the call writes argument 3: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.reshape_writes, Finset.mem_singleton]
    repeat' apply And.intro
    all_goals exact StableHlo.devRef_ne_of_ne (by decide)))
/-- No host line before the call writes argument 4: the call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.reshape_writes, Finset.mem_singleton]
    repeat' apply And.intro
    all_goals exact StableHlo.devRef_ne_of_ne (by decide)))
/-- No host line before the call writes argument 5: the call finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.reshape_writes, Finset.mem_singleton]
    repeat' apply And.intro
    all_goals exact StableHlo.devRef_ne_of_ne (by decide)))
/-- No host line before the call writes argument 6: the call finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.reshape_writes, Finset.mem_singleton]
    repeat' apply And.intro
    all_goals exact StableHlo.devRef_ne_of_ne (by decide)))
/-- No host line before the call writes argument 7: the call finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.reshape_writes, Finset.mem_singleton]
    repeat' apply And.intro
    all_goals exact StableHlo.devRef_ne_of_ne (by decide)))
/-- No host line before the call writes argument 8: the call finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.reshape_writes, Finset.mem_singleton]
    repeat' apply And.intro
    all_goals exact StableHlo.devRef_ne_of_ne (by decide)))
/-- No host line before the call writes argument 9: the call finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.reshape_writes, Finset.mem_singleton]
    repeat' apply And.intro
    all_goals exact StableHlo.devRef_ne_of_ne (by decide)))

/-! ## The windows' blocks -/

/-- Window `w`'s block at grid point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point — the image block is fetched at every
    point, the five parameter windows once, their index never moving — for any proof data whose arrays are `V`'s and
    whose body leaves the inputs in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## All ten arguments end as launched -/

/-- From a run ending in the launch theorem's post: the image and `Wo` are input windows' arrays, which the pipeline
    only reads; the other eight arguments bypass the call and no host line wrote them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 0).trans (((dats 0 c).arrAt_in 0 rfl _).trans ((hA c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).1 3).trans (((dats 0 c).arrAt_in 3 rfl _).trans ((hA c 3).trans (V_main_arg7 m c))),
    ((h c).2 main_arg8 (Pipeline.mem_restRefs_of main_arg8 (by decide) (by decide))).trans (V_main_arg8 m c),
    ((h c).2 main_arg9 (Pipeline.mem_restRefs_of main_arg9 (by decide) (by decide))).trans (V_main_arg9 m c)⟩) h

end Cert.Kernel.Hand

end
-- ==== Proof.BitsBody.lean ====
/-
  The body of `Kernel`'s one kernel at a grid point, run once, whole. On its staging buffers — the image block of one
  batch element, the fused weights and bias, `Wo`, the output bias row and gamma at their contents, the output block and
  the three scratch buffers (pooled keys 32 x 32 x 64, pooled values 32 x 32 x 256, queries 64 x 64 x 64) at whatever
  they hold — it first fills the three scratches in 4 trips of 16 image rows each, then reads the pooled scratches whole
  and writes the output block in 16 trips of 4 image rows (256 pixels) each, and returns every input as it was. What
  the output block then holds is the list of the 16 stored pieces, last first, which the run finds.
-/
import proofs.«110549_j51281909514278_2_alg».proof.Proof.BitsEntry

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the 16 trips of the second loop store into the output block (last first), and the run: from the inputs
    at their contents, the output at anything and the scratches at `d8 d9 d10`, to the inputs unchanged, the output
    with those pieces written, the scratches at something. -/
noncomputable def kernelRun (c : Dev nD) (i : grid0.Coords) (arg1 : Memref sig .tc .vmem S1x64x64x512 .f32) (harg1 : arg1.IsWhole) (arg2 : Memref sig .tc .vmem S512x384 .f32) (harg2 : arg2.IsWhole) (arg3 : Memref sig .tc .vmem S1x384 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x64x64x512 .f32) (harg7 : arg7.IsWhole) (arg8 : Memref sig .tc .vmem S32x32x64 .bf16) (harg8 : arg8.IsWhole) (arg9 : Memref sig .tc .vmem S32x32x256 .bf16) (harg9 : arg9.IsWhole) (arg10 : Memref sig .tc .vmem S64x64x64 .bf16) (harg10 : arg10.IsWhole)
    (x0 : Vec F S1x64x64x512 .f32) (x1 : Vec F S512x384 .f32) (x2 : Vec F S1x384 .f32) (x3 : Vec F S256x512 .f32) (x4 : Vec F S1x512 .f32) (x5 : Vec F S1x1 .f32) (d8 : Vec F S32x32x64 .bf16) (d9 : Vec F S32x32x256 .bf16) (d10 : Vec F S64x64x64 .bf16) :
    { L7 : List (View.Piece (Elt F) S1x64x64x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare d8 ∗ owns (c : Thread nD τ) arg9 fullShare d9 ∗ owns (c : Thread nD τ) arg10 fullShare d10
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L7)
                ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f)) -∗ K ⟨⟩))
          ⊢ wp frame (wpE (defs₀ (F := F)) Variants.none c none) E (cc0_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc0_kernel_eq_skeleton]; unfold cc0_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg8.eq_unread hf8; obtain rfl := harg9.eq_unread hf9; obtain rfl := harg10.eq_unread hf10
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexact H7
    isplitl [H8]
    · iexists _; iexact H8
    isplitl [H9]
    · iexists _; iexact H9
    iexists _; iexact H10

end Cert.Kernel.Hand

end
-- ==== Proof.BitsPieces.lean ====
/-
  What one grid point of `Kernel`'s kernel leaves in its output block, in closed form.

  The first loop's trip `k` (of 4) loads image rows [16k, 16k + 16) and stores three pieces: the pooled key features of
  those rows into pooled rows [8k, 8k + 8) of the first scratch, the pooled value features into the same rows of the
  second, and the un-pooled query features into rows [16k, 16k + 16) of the third. None of the three depends on what
  the scratches held. Four such pieces tile each scratch, so after the loop each scratch reads as the overlay of its four
  pieces, whatever it held before. The second loop's trip `k` (of 16) loads image rows [4k, 4k + 4) and the same rows of
  the query scratch and stores one piece — the attention output of those 256 pixels against the two pooled scratches read
  whole — into rows [4k, 4k + 4) of the output block; sixteen such pieces tile the block. So the block ends as the
  overlay `outBlk` of those sixteen pieces, a function of the six input blocks alone.
-/
import proofs.«110549_j51281909514278_2_alg».proof.Proof.BitsBody
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable [∀ e, Nonempty (Elt F e)]

/-! ## The rectangles -/

/-- Image rows [16k, 16k + 16). -/
abbrev rImg16 (k : Fin k0_t1_loop.trips) : Rect S1x64x64x512 := Rect.unit (s := S1x64x64x512) (k0_off1 k) S1x16x64x512.size (k0_off1_inb k)
/-- Pooled rows [8k, 8k + 8) of the pooled-key scratch. -/
abbrev rKey (k : Fin k0_t1_loop.trips) : Rect S32x32x64 := Rect.unit (s := S32x32x64) (k0_off2 k) S8x32x64.size (k0_off2_inb k)
/-- Pooled rows [8k, 8k + 8) of the pooled-value scratch. -/
abbrev rVal (k : Fin k0_t1_loop.trips) : Rect S32x32x256 := Rect.unit (s := S32x32x256) (k0_off3 k) S8x32x256.size (k0_off3_inb k)
/-- Rows [16k, 16k + 16) of the query scratch. -/
abbrev rQry16 (k : Fin k0_t1_loop.trips) : Rect S64x64x64 := Rect.unit (s := S64x64x64) (k0_off4 k) S16x64x64.size (k0_off4_inb k)
/-- Image (and output) rows [4k, 4k + 4). -/
abbrev rImg4 (k : Fin k0_t2_loop.trips) : Rect S1x64x64x512 := Rect.unit (s := S1x64x64x512) (k0_off5 k) S1x4x64x512.size (k0_off5_inb k)
/-- Rows [4k, 4k + 4) of the query scratch. -/
abbrev rQry4 (k : Fin k0_t2_loop.trips) : Rect S64x64x64 := Rect.unit (s := S64x64x64) (k0_off6 k) S4x64x64.size (k0_off6_inb k)

/-! ## One trip's pieces, explicitly -/

/-- Trip `k` of the first loop: its three pieces, from the fused weights `v0`, the fused bias row `v5` and the image
    block `x0`. -/
def keyPiece (v0 : Vec F S512x384 .f32) (v5 : Vec F S1x384 .f32) (x0 : Vec F S1x64x64x512 .f32) (k : Fin k0_t1_loop.trips) :
    View.Piece (Elt F) S32x32x64 .bf16 := ⟨rKey k, k0_pay6 (k0_pay1 v0) (k0_pay2 v5) (View.ld x0 (rImg16 k))⟩
def valPiece (v0 : Vec F S512x384 .f32) (v5 : Vec F S1x384 .f32) (x0 : Vec F S1x64x64x512 .f32) (k : Fin k0_t1_loop.trips) :
    View.Piece (Elt F) S32x32x256 .bf16 := ⟨rVal k, k0_pay7 (k0_pay1 v0) (k0_pay2 v5) (View.ld x0 (rImg16 k))⟩
def qryPiece (v0 : Vec F S512x384 .f32) (v5 : Vec F S1x384 .f32) (x0 : Vec F S1x64x64x512 .f32) (k : Fin k0_t1_loop.trips) :
    View.Piece (Elt F) S64x64x64 .bf16 := ⟨rQry16 k, k0_pay3 (k0_pay8 (k0_pay1 v0) (k0_pay2 v5) (View.ld x0 (rImg16 k)))⟩

/-- The trip's found pieces are these, whatever the scratches hold when it starts. -/
theorem tripL1_eq (𝒱 : Variants) (c : Dev nD) (bd : Option 𝒱.V) (i : grid0.Coords) (arg1 : Memref sig .tc .vmem S1x64x64x512 .f32) (harg1 : arg1.IsWhole) (arg2 : Memref sig .tc .vmem S512x384 .f32) (harg2 : arg2.IsWhole) (arg3 : Memref sig .tc .vmem S1x384 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x64x64x512 .f32) (harg7 : arg7.IsWhole) (arg8 : Memref sig .tc .vmem S32x32x64 .bf16) (harg8 : arg8.IsWhole) (arg9 : Memref sig .tc .vmem S32x32x256 .bf16) (harg9 : arg9.IsWhole) (arg10 : Memref sig .tc .vmem S64x64x64 .bf16) (harg10 : arg10.IsWhole) (v0 : Vec F S512x384 .f32) (v5 : Vec F S1x384 .f32) (x0 : Vec F S1x64x64x512 .f32)
    (k : Fin k0_t1_loop.trips) (f8 : BufTy.Contents (Elt F) arg8.view.ty) (f9 : BufTy.Contents (Elt F) arg9.view.ty) (f10 : BufTy.Contents (Elt F) arg10.view.ty) :
    tripL_k0_t1 (F := F) 𝒱 c bd i arg1 harg1 arg2 harg2 arg3 harg3 arg4 harg4 arg5 harg5 arg6 harg6 arg7 harg7 arg8 harg8 arg9 harg9 arg10 harg10 v0 v5 (harg1.unread x0) k f8 f9 f10
      = ([keyPiece v0 v5 x0 k], [valPiece v0 v5 x0 k], [qryPiece v0 v5 x0 k]) := by
  unfold tripL_k0_t1 trip_k0_t1
  dsimp only
  sl_unfold_words
  unfold keyPiece valPiece qryPiece
  simp only [View.readAt_eq_ld, harg1.read_unread]
  rfl

/-- Trip `k` of the second loop: its one piece, from `Wo` (`v3`), the output bias row (`v7`), gamma (`v9`), the two pooled
    scratches read whole (`v12`, `v14`), the image block `x0` and the query scratch's contents `g`. -/
def outPiece (v3 : Vec F S256x512 .f32) (v7 : Vec F S1x512 .f32) (v9 : Vec F S1x1 .f32) (v12 : Vec F S32x32x64 .bf16) (v14 : Vec F S32x32x256 .bf16)
    (x0 : Vec F S1x64x64x512 .f32) (g : Vec F S64x64x64 .bf16) (k : Fin k0_t2_loop.trips) : View.Piece (Elt F) S1x64x64x512 .f32 :=
  ⟨rImg4 k, k0_pay4 v3 v7 v9 v12 v14 (View.ld x0 (rImg4 k)) (View.ld g (rQry4 k))⟩

theorem tripL2_eq (𝒱 : Variants) (c : Dev nD) (bd : Option 𝒱.V) (i : grid0.Coords) (arg1 : Memref sig .tc .vmem S1x64x64x512 .f32) (harg1 : arg1.IsWhole) (arg2 : Memref sig .tc .vmem S512x384 .f32) (harg2 : arg2.IsWhole) (arg3 : Memref sig .tc .vmem S1x384 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x64x64x512 .f32) (harg7 : arg7.IsWhole) (arg8 : Memref sig .tc .vmem S32x32x64 .bf16) (harg8 : arg8.IsWhole) (arg9 : Memref sig .tc .vmem S32x32x256 .bf16) (harg9 : arg9.IsWhole) (arg10 : Memref sig .tc .vmem S64x64x64 .bf16) (harg10 : arg10.IsWhole) (v3 : Vec F S256x512 .f32) (v7 : Vec F S1x512 .f32) (v9 : Vec F S1x1 .f32) (v12 : Vec F S32x32x64 .bf16) (v14 : Vec F S32x32x256 .bf16)
    (x0 : Vec F S1x64x64x512 .f32) (X10 : BufTy.Contents (Elt F) arg10.view.ty) (k : Fin k0_t2_loop.trips) :
    tripL_k0_t2 (F := F) 𝒱 c bd i arg1 harg1 arg2 harg2 arg3 harg3 arg4 harg4 arg5 harg5 arg6 harg6 arg7 harg7 arg8 harg8 arg9 harg9 arg10 harg10 v3 v7 v9 v12 v14 (harg1.unread x0) X10 k
      = [outPiece v3 v7 v9 v12 v14 x0 (arg10.view.read (Elt F) X10) k] := by
  unfold tripL_k0_t2 trip_k0_t2
  dsimp only
  unfold outPiece
  simp only [View.readAt_eq_ld, harg1.read_unread]

/-! ## The pieces of the trips before `n` -/

/-- The first loop's pieces before trip `n`, last first, per scratch. -/
def pcs1 (v0 : Vec F S512x384 .f32) (v5 : Vec F S1x384 .f32) (x0 : Vec F S1x64x64x512 .f32) :
    ℕ → List (View.Piece (Elt F) S32x32x64 .bf16) × List (View.Piece (Elt F) S32x32x256 .bf16) × List (View.Piece (Elt F) S64x64x64 .bf16)
  | 0 => ([], [], [])
  | n + 1 => if h : n < k0_t1_loop.trips then
      (keyPiece v0 v5 x0 ⟨n, h⟩ :: (pcs1 v0 v5 x0 n).1, valPiece v0 v5 x0 ⟨n, h⟩ :: (pcs1 v0 v5 x0 n).2.1, qryPiece v0 v5 x0 ⟨n, h⟩ :: (pcs1 v0 v5 x0 n).2.2)
    else pcs1 v0 v5 x0 n

theorem pb1_eq (𝒱 : Variants) (c : Dev nD) (bd : Option 𝒱.V) (i : grid0.Coords) (arg1 : Memref sig .tc .vmem S1x64x64x512 .f32) (harg1 : arg1.IsWhole) (arg2 : Memref sig .tc .vmem S512x384 .f32) (harg2 : arg2.IsWhole) (arg3 : Memref sig .tc .vmem S1x384 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x64x64x512 .f32) (harg7 : arg7.IsWhole) (arg8 : Memref sig .tc .vmem S32x32x64 .bf16) (harg8 : arg8.IsWhole) (arg9 : Memref sig .tc .vmem S32x32x256 .bf16) (harg9 : arg9.IsWhole) (arg10 : Memref sig .tc .vmem S64x64x64 .bf16) (harg10 : arg10.IsWhole) (v0 : Vec F S512x384 .f32) (v5 : Vec F S1x384 .f32) (x0 : Vec F S1x64x64x512 .f32)
    (G8 : BufTy.Contents (Elt F) arg8.view.ty) (G9 : BufTy.Contents (Elt F) arg9.view.ty) (G10 : BufTy.Contents (Elt F) arg10.view.ty) (n : ℕ) :
    pb_k0_t1 (F := F) 𝒱 c bd i arg1 harg1 arg2 harg2 arg3 harg3 arg4 harg4 arg5 harg5 arg6 harg6 arg7 harg7 arg8 harg8 arg9 harg9 arg10 harg10 v0 v5 (harg1.unread x0) G8 G9 G10 n = pcs1 v0 v5 x0 n := by
  induction n with
  | zero => rfl
  | succ n ih =>
    rw [pb_k0_t1.eq_2]; unfold pb_k0_t1Step; rw [ih, pcs1]
    by_cases h : n < k0_t1_loop.trips
    · rw [dif_pos h, dif_pos h, tripL1_eq]; rfl
    · rw [dif_neg h, dif_neg h]

/-- The second loop's pieces before trip `n`, last first. -/
def pcs2 (v3 : Vec F S256x512 .f32) (v7 : Vec F S1x512 .f32) (v9 : Vec F S1x1 .f32) (v12 : Vec F S32x32x64 .bf16) (v14 : Vec F S32x32x256 .bf16)
    (x0 : Vec F S1x64x64x512 .f32) (g : Vec F S64x64x64 .bf16) : ℕ → List (View.Piece (Elt F) S1x64x64x512 .f32)
  | 0 => []
  | n + 1 => if h : n < k0_t2_loop.trips then outPiece v3 v7 v9 v12 v14 x0 g ⟨n, h⟩ :: pcs2 v3 v7 v9 v12 v14 x0 g n
    else pcs2 v3 v7 v9 v12 v14 x0 g n

theorem pb2_eq (𝒱 : Variants) (c : Dev nD) (bd : Option 𝒱.V) (i : grid0.Coords) (arg1 : Memref sig .tc .vmem S1x64x64x512 .f32) (harg1 : arg1.IsWhole) (arg2 : Memref sig .tc .vmem S512x384 .f32) (harg2 : arg2.IsWhole) (arg3 : Memref sig .tc .vmem S1x384 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x64x64x512 .f32) (harg7 : arg7.IsWhole) (arg8 : Memref sig .tc .vmem S32x32x64 .bf16) (harg8 : arg8.IsWhole) (arg9 : Memref sig .tc .vmem S32x32x256 .bf16) (harg9 : arg9.IsWhole) (arg10 : Memref sig .tc .vmem S64x64x64 .bf16) (harg10 : arg10.IsWhole) (v3 : Vec F S256x512 .f32) (v7 : Vec F S1x512 .f32) (v9 : Vec F S1x1 .f32) (v12 : Vec F S32x32x64 .bf16) (v14 : Vec F S32x32x256 .bf16)
    (x0 : Vec F S1x64x64x512 .f32) (X10 : BufTy.Contents (Elt F) arg10.view.ty) (n : ℕ) :
    pb_k0_t2 (F := F) 𝒱 c bd i arg1 harg1 arg2 harg2 arg3 harg3 arg4 harg4 arg5 harg5 arg6 harg6 arg7 harg7 arg8 harg8 arg9 harg9 arg10 harg10 v3 v7 v9 v12 v14 (harg1.unread x0) X10 n = pcs2 v3 v7 v9 v12 v14 x0 (arg10.view.read (Elt F) X10) n := by
  induction n with
  | zero => rfl
  | succ n ih =>
    rw [pb_k0_t2.eq_2]; unfold pb_k0_t2Step; rw [ih, pcs2]
    by_cases h : n < k0_t2_loop.trips
    · rw [dif_pos h, dif_pos h, tripL2_eq]; rfl
    · rw [dif_neg h, dif_neg h]

/-! ## Four pieces tile each scratch, sixteen the output block -/

theorem coverKey (v0 : Vec F S512x384 .f32) (v5 : Vec F S1x384 .f32) (x0 : Vec F S1x64x64x512 .f32) (y : S32x32x64.Idx) :
    ∃ pc ∈ (pcs1 v0 v5 x0 k0_t1_loop.trips).1, y ∈ pc.1.set :=
  View.cover_of_tiledL (pcs1 v0 v5 x0 k0_t1_loop.trips).1 S8x32x64.size (by sl_kernel_rfl) y
theorem coverVal (v0 : Vec F S512x384 .f32) (v5 : Vec F S1x384 .f32) (x0 : Vec F S1x64x64x512 .f32) (y : S32x32x256.Idx) :
    ∃ pc ∈ (pcs1 v0 v5 x0 k0_t1_loop.trips).2.1, y ∈ pc.1.set :=
  View.cover_of_tiledL (pcs1 v0 v5 x0 k0_t1_loop.trips).2.1 S8x32x256.size (by sl_kernel_rfl) y
theorem coverQry (v0 : Vec F S512x384 .f32) (v5 : Vec F S1x384 .f32) (x0 : Vec F S1x64x64x512 .f32) (y : S64x64x64.Idx) :
    ∃ pc ∈ (pcs1 v0 v5 x0 k0_t1_loop.trips).2.2, y ∈ pc.1.set :=
  View.cover_of_tiledL (pcs1 v0 v5 x0 k0_t1_loop.trips).2.2 S16x64x64.size (by sl_kernel_rfl) y
theorem coverOut (v3 : Vec F S256x512 .f32) (v7 : Vec F S1x512 .f32) (v9 : Vec F S1x1 .f32) (v12 : Vec F S32x32x64 .bf16) (v14 : Vec F S32x32x256 .bf16)
    (x0 : Vec F S1x64x64x512 .f32) (g : Vec F S64x64x64 .bf16) (y : S1x64x64x512.Idx) :
    ∃ pc ∈ pcs2 v3 v7 v9 v12 v14 x0 g k0_t2_loop.trips, y ∈ pc.1.set :=
  View.cover_of_tiledL (pcs2 v3 v7 v9 v12 v14 x0 g k0_t2_loop.trips) S1x4x64x512.size (by sl_kernel_rfl) y

/-! ## What a point leaves -/

/-- The three scratches after the first loop, from the fused weights, the fused bias row and the image block. -/
def keyScr (x1 : Vec F S512x384 .f32) (x2 : Vec F S1x384 .f32) (x0 : Vec F S1x64x64x512 .f32) : Vec F S32x32x64 .bf16 :=
  View.canon (pcs1 x1 x2 x0 k0_t1_loop.trips).1
def valScr (x1 : Vec F S512x384 .f32) (x2 : Vec F S1x384 .f32) (x0 : Vec F S1x64x64x512 .f32) : Vec F S32x32x256 .bf16 :=
  View.canon (pcs1 x1 x2 x0 k0_t1_loop.trips).2.1
def qryScr (x1 : Vec F S512x384 .f32) (x2 : Vec F S1x384 .f32) (x0 : Vec F S1x64x64x512 .f32) : Vec F S64x64x64 .bf16 :=
  View.canon (pcs1 x1 x2 x0 k0_t1_loop.trips).2.2

/-- The output block after the point, from the six input blocks. -/
def outBlk (x0 : Vec F S1x64x64x512 .f32) (x1 : Vec F S512x384 .f32) (x2 : Vec F S1x384 .f32) (x3 : Vec F S256x512 .f32) (x4 : Vec F S1x512 .f32) (x5 : Vec F S1x1 .f32) : Vec F S1x64x64x512 .f32 :=
  View.canon (pcs2 x3 x4 x5 (keyScr x1 x2 x0) (valScr x1 x2 x0) x0 (qryScr x1 x2 x0) k0_t2_loop.trips)

theorem hz2 : (![0, 0] : Fin 2 → ℕ) = fun _ => 0 := by funext a; fin_cases a <;> rfl
theorem hz3 : (![0, 0, 0] : Fin 3 → ℕ) = fun _ => 0 := by funext a; fin_cases a <;> rfl

end Cert.Kernel.Hand

end
-- ==== Proof.BitsBlock.lean ====
/-
  The run's own pieces for the output block of `Kernel`'s kernel are the sixteen explicit ones: the body's first loads
  read the parameter blocks whole, the first loop's found pieces are the explicit ones and tile the three scratches, so
  the scratches read back as their overlays whatever they held, and the second loop's found pieces are the explicit ones
  over those overlays and tile the block.
-/
import proofs.«110549_j51281909514278_2_alg».proof.Proof.BitsPieces

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable [∀ e, Nonempty (Elt F e)]

set_option maxHeartbeats 2000000 in
/-- Whatever the output block and the scratches held, the run's pieces written over the block read back as `outBlk`. -/
theorem out_eq (c : Dev nD) (i : grid0.Coords) (arg1 : Memref sig .tc .vmem S1x64x64x512 .f32) (harg1 : arg1.IsWhole) (arg2 : Memref sig .tc .vmem S512x384 .f32) (harg2 : arg2.IsWhole) (arg3 : Memref sig .tc .vmem S1x384 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x64x64x512 .f32) (harg7 : arg7.IsWhole) (arg8 : Memref sig .tc .vmem S32x32x64 .bf16) (harg8 : arg8.IsWhole) (arg9 : Memref sig .tc .vmem S32x32x256 .bf16) (harg9 : arg9.IsWhole) (arg10 : Memref sig .tc .vmem S64x64x64 .bf16) (harg10 : arg10.IsWhole) (x0 : Vec F S1x64x64x512 .f32) (x1 : Vec F S512x384 .f32) (x2 : Vec F S1x384 .f32) (x3 : Vec F S256x512 .f32) (x4 : Vec F S1x512 .f32) (x5 : Vec F S1x1 .f32) (d8 : Vec F S32x32x64 .bf16) (d9 : Vec F S32x32x256 .bf16) (d10 : Vec F S64x64x64 .bf16) (f : BufTy.Contents (Elt F) arg7.view.ty) :
    arg7.view.read (Elt F) (arg7.view.writes (Elt F) f (kernelRun c i arg1 harg1 arg2 harg2 arg3 harg3 arg4 harg4 arg5 harg5 arg6 harg6 arg7 harg7 arg8 harg8 arg9 harg9 arg10 harg10 x0 x1 x2 x3 x4 x5 d8 d9 d10).1)
      = outBlk x0 x1 x2 x3 x4 x5 := by
  unfold kernelRun
  dsimp only
  sl_unfold_words
  simp only [View.readAt_eq_ld, harg2.read_unread, harg3.read_unread, harg4.read_unread, harg5.read_unread, harg6.read_unread,
    View.ld_unit_zero (S := S512x384) hz2, View.ld_unit_zero (S := S1x384) hz2, View.ld_unit_zero (S := S256x512) hz2,
    View.ld_unit_zero (S := S1x512) hz2, View.ld_unit_zero (S := S1x1) hz2]
  rw [pb2_eq]
  simp only [pb1_eq]
  rw [View.read_writes_eq_canon _ _ _ (coverKey x1 x2 x0), View.read_writes_eq_canon _ _ _ (coverVal x1 x2 x0),
    View.read_writes_eq_canon _ _ _ (coverQry x1 x2 x0)]
  simp only [View.ld_unit_zero (S := S32x32x64) hz3, View.ld_unit_zero (S := S32x32x256) hz3]
  exact View.read_writes_eq_canon _ _ _ (coverOut _ _ _ _ _ _ _)

end Cert.Kernel.Hand

end
-- ==== Proof.BitsFrame.lean ====
/-
  The launch of `Kernel`'s kernel over the 16 batch elements. The proof data: every array as the call finds it; after the
  body at batch element `t` each of the six input windows' staging buffers still holds its block, and the output window's
  holds `outBlk` of those six blocks; between points nothing is kept (the three scratches are refilled at every point
  before they are read, so the invariant only says they exist). With the body's run this gives: every weakly fair
  execution of @main terminates without a fault, the output array ends as the blocks the 16 points wrote back, and all
  ten argument arrays end as launched.
-/
import proofs.«110549_j51281909514278_2_alg».proof.Proof.BitsBlock

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable [∀ e, Nonempty (Elt F e)]
variable (m : (ℓ : Loc nD τ sig) → Buf (Elt F) ℓ) (ρ : Dev nD → PrngReg)

/-! ## The staging memrefs at a point, and the scratches -/
abbrev ms0 (t : Fin cfg0.N) : Memref sig .tc .vmem S1x64x64x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x384 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x384 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x64x64x512 .f32 := win0_6.stage (cfg0.slots t 6)
abbrev hs6 (t : Fin cfg0.N) : (ms6 t).IsWhole := hstage0_6 ((cfg0.slots t 6).cast nbuf0_6)
abbrev scKey : Memref sig .tc .vmem S32x32x64 .bf16 := Memref.whole cc0_scratch0
abbrev scVal : Memref sig .tc .vmem S32x32x256 .bf16 := Memref.whole cc0_scratch1
abbrev scQry : Memref sig .tc .vmem S64x64x64 .bf16 := Memref.whole cc0_scratch2

/-- What the launch hands the body besides the windows: the three scratches at some contents, and the generator register. -/
theorem PhiA_eq (c : Dev nD) :
    (Pipeline.ΦA spec0 c : sProp 𝕄)
      = iprop(iprop((∃ d, owns (c : Thread nD τ) scKey fullShare d) ∗ (∃ d, owns (c : Thread nD τ) scVal fullShare d) ∗ (∃ d, owns (c : Thread nD τ) scQry fullShare d)) ∗ (∃ r, prngReg c r)) := by
  unfold Pipeline.ΦA; rw [scopedRest0_eq]; simp only [scKey, scVal, scQry, owns_whole]; try rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = outBlk (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 2000000 in
/-- At any batch element: the input buffers hold their blocks, so the body's run applies; the scratches and the register
    pass through at whatever they hold; the output buffer ends at `outBlk` of the blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  rw [show (dats m 0 c).Φ t.castSucc = Pipeline.ΦA spec0 c from rfl, PhiA_eq]
  iintro ⟨⟨⟨⟨%d8, HS8⟩, ⟨%d9, HS9⟩, ⟨%d10, HS10⟩⟩, Hg⟩, Ho, ⟨%e0, H0⟩, ⟨%e1, H1⟩, ⟨%e2, H2⟩, ⟨%e3, H3⟩, ⟨%e4, H4⟩, ⟨%e5, H5⟩, ⟨%e6, H6⟩⟩
  iapply ((kernelRun c (grid0.coords t) (ms0 t) (hs0 t) (ms1 t) (hs1 t) (ms2 t) (hs2 t) (ms3 t) (hs3 t) (ms4 t) (hs4 t) (ms5 t) (hs5 t) (ms6 t) (hs6 t)
    scKey (Memref.isWhole_whole _) scVal (Memref.isWhole_whole _) scQry (Memref.isWhole_whole _)
    (iblk m c 0 t) (iblk m c 1 t) (iblk m c 2 t) (iblk m c 3 t) (iblk m c 4 t) (iblk m c 5 t) d8 d9 d10).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS8]; · iexact HS8
  isplitl [HS9]; · iexact HS9
  isplitl [HS10]; · iexact HS10
  iintro ⟨H0, H1, H2, H3, H4, H5, ⟨%g6, H6⟩, ⟨%g8, HS8⟩, ⟨%g9, HS9⟩, ⟨%g10, HS10⟩⟩
  isplitl [HS8 HS9 HS10 Hg]
  · isplitl [HS8 HS9 HS10]
    · isplitl [HS8]
      · iexists (scKey.view.read (Elt F) g8); unfold owns; iexists g8; isplitr; · ipureintro; rfl
        iexact HS8
      isplitl [HS9]
      · iexists (scVal.view.read (Elt F) g9); unfold owns; iexists g9; isplitr; · ipureintro; rfl
        iexact HS9
      iexists (scQry.view.read (Elt F) g10); unfold owns; iexists g10; isplitr; · ipureintro; rfl
      iexact HS10
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact out_eq c _ _ _ _ _ _ _ _ _ _ _ _ _ _ _ _ _ _ _ _ _ _ _ _ _ _ _ _ _ _ _

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates without a fault; the output array ends at what the proof data says
    the 16 write-backs left, every other unscoped buffer as the call found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- All ten argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.Kernel.Hand

end
-- ==== Proof.IdealEntry.lean ====
/-
  The program `KernelIdeal` up to its one pallas_call. @main first builds, on the host, the fused projection
  weights `[Wf | Wg | Wh]` (512 x 384, a concatenation along the columns), the fused bias `[bf ; bg ; bh]`
  (384 entries, then viewed as one row), and views the output bias and gamma as 1 x 512 and 1 x 1; only then does it
  launch the call over the 16 batch elements. Here: the contents `V` of every buffer when the call is
  entered (the launch contents with those five host results written), that no host line touches an
  argument array, each window's block at a grid point read off `V`, that every input window's staging buffer
  holds exactly that block at every point, and that a run ending in the launch theorem's post leaves all ten
  argument arrays as they were launched.
-/
import proofs.«110549_j51281909514278_2_alg».proof.Proof.Gen.KernelIdeal.Launch
import proofs.«110549_j51281909514278_2_alg».proof.Proof.Gen.KernelIdeal.Skeleton
import proofs.«110549_j51281909514278_2_alg».proof.Proof.Gen.KernelIdeal.Points
import proofs.«110549_j51281909514278_2_alg».proof.Proof.Gen.KernelIdeal.Loops
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the call is entered -/

/-- Core `c`'s buffers after the five host lines (two concatenations, three reshapes). -/
abbrev V (c : Dev nD) (b : Ref sig .tc) : Buf (Elt F) ((c : Thread nD τ).loc b) :=
  StableHlo.after (hostOps0 (F := F)) (fun b => m (c, b)) b

/-- The host lines allocate nothing. -/
theorem hostOps0_fresh : (hostOps0 : List (HloOp τ sig (Elt F))).Forall fun op => op.fresh = ∅ := by
  simp only [List.Forall]; repeat' constructor

/-- @main is those host lines followed by the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host line before the call writes argument 0: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.reshape_writes, Finset.mem_singleton]
    repeat' apply And.intro
    all_goals exact StableHlo.devRef_ne_of_ne (by decide)))
/-- No host line before the call writes argument 1: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.reshape_writes, Finset.mem_singleton]
    repeat' apply And.intro
    all_goals exact StableHlo.devRef_ne_of_ne (by decide)))
/-- No host line before the call writes argument 2: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.reshape_writes, Finset.mem_singleton]
    repeat' apply And.intro
    all_goals exact StableHlo.devRef_ne_of_ne (by decide)))
/-- No host line before the call writes argument 3: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.reshape_writes, Finset.mem_singleton]
    repeat' apply And.intro
    all_goals exact StableHlo.devRef_ne_of_ne (by decide)))
/-- No host line before the call writes argument 4: the call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.reshape_writes, Finset.mem_singleton]
    repeat' apply And.intro
    all_goals exact StableHlo.devRef_ne_of_ne (by decide)))
/-- No host line before the call writes argument 5: the call finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.reshape_writes, Finset.mem_singleton]
    repeat' apply And.intro
    all_goals exact StableHlo.devRef_ne_of_ne (by decide)))
/-- No host line before the call writes argument 6: the call finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.reshape_writes, Finset.mem_singleton]
    repeat' apply And.intro
    all_goals exact StableHlo.devRef_ne_of_ne (by decide)))
/-- No host line before the call writes argument 7: the call finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.reshape_writes, Finset.mem_singleton]
    repeat' apply And.intro
    all_goals exact StableHlo.devRef_ne_of_ne (by decide)))
/-- No host line before the call writes argument 8: the call finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.reshape_writes, Finset.mem_singleton]
    repeat' apply And.intro
    all_goals exact StableHlo.devRef_ne_of_ne (by decide)))
/-- No host line before the call writes argument 9: the call finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.reshape_writes, Finset.mem_singleton]
    repeat' apply And.intro
    all_goals exact StableHlo.devRef_ne_of_ne (by decide)))

/-! ## The windows' blocks -/

/-- Window `w`'s block at grid point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point — the image block is fetched at every
    point, the five parameter windows once, their index never moving — for any proof data whose arrays are `V`'s and
    whose body leaves the inputs in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## All ten arguments end as launched -/

/-- From a run ending in the launch theorem's post: the image and `Wo` are input windows' arrays, which the pipeline
    only reads; the other eight arguments bypass the call and no host line wrote them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 0).trans (((dats 0 c).arrAt_in 0 rfl _).trans ((hA c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).1 3).trans (((dats 0 c).arrAt_in 3 rfl _).trans ((hA c 3).trans (V_main_arg7 m c))),
    ((h c).2 main_arg8 (Pipeline.mem_restRefs_of main_arg8 (by decide) (by decide))).trans (V_main_arg8 m c),
    ((h c).2 main_arg9 (Pipeline.mem_restRefs_of main_arg9 (by decide) (by decide))).trans (V_main_arg9 m c)⟩) h

end Cert.KernelIdeal.Hand

end
-- ==== Proof.IdealBody.lean ====
/-
  The body of `KernelIdeal`'s one kernel at a grid point, run once, whole. On its staging buffers — the image block of one
  batch element, the fused weights and bias, `Wo`, the output bias row and gamma at their contents, the output block and
  the three scratch buffers (pooled keys 32 x 32 x 64, pooled values 32 x 32 x 256, queries 64 x 64 x 64) at whatever
  they hold — it first fills the three scratches in 4 trips of 16 image rows each, then reads the pooled scratches whole
  and writes the output block in 16 trips of 4 image rows (256 pixels) each, and returns every input as it was. What
  the output block then holds is the list of the 16 stored pieces, last first, which the run finds.
-/
import proofs.«110549_j51281909514278_2_alg».proof.Proof.IdealEntry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the 16 trips of the second loop store into the output block (last first), and the run: from the inputs
    at their contents, the output at anything and the scratches at `d8 d9 d10`, to the inputs unchanged, the output
    with those pieces written, the scratches at something. -/
noncomputable def kernelRun (c : Dev nD) (i : grid0.Coords) (arg1 : Memref sig .tc .vmem S1x64x64x512 .f32) (harg1 : arg1.IsWhole) (arg2 : Memref sig .tc .vmem S512x384 .f32) (harg2 : arg2.IsWhole) (arg3 : Memref sig .tc .vmem S1x384 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x64x64x512 .f32) (harg7 : arg7.IsWhole) (arg8 : Memref sig .tc .vmem S32x32x64 .bf16) (harg8 : arg8.IsWhole) (arg9 : Memref sig .tc .vmem S32x32x256 .bf16) (harg9 : arg9.IsWhole) (arg10 : Memref sig .tc .vmem S64x64x64 .bf16) (harg10 : arg10.IsWhole)
    (x0 : Vec F S1x64x64x512 .f32) (x1 : Vec F S512x384 .f32) (x2 : Vec F S1x384 .f32) (x3 : Vec F S256x512 .f32) (x4 : Vec F S1x512 .f32) (x5 : Vec F S1x1 .f32) (d8 : Vec F S32x32x64 .bf16) (d9 : Vec F S32x32x256 .bf16) (d10 : Vec F S64x64x64 .bf16) :
    { L7 : List (View.Piece (Elt F) S1x64x64x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare d8 ∗ owns (c : Thread nD τ) arg9 fullShare d9 ∗ owns (c : Thread nD τ) arg10 fullShare d10
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L7)
                ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f)) -∗ K ⟨⟩))
          ⊢ wp frame (wpE (defs₀ (F := F)) Variants.none c none) E (cc0_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc0_kernel_eq_skeleton]; unfold cc0_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg8.eq_unread hf8; obtain rfl := harg9.eq_unread hf9; obtain rfl := harg10.eq_unread hf10
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexact H7
    isplitl [H8]
    · iexists _; iexact H8
    isplitl [H9]
    · iexists _; iexact H9
    iexists _; iexact H10

end Cert.KernelIdeal.Hand

end
-- ==== Proof.IdealPieces.lean ====
/-
  What one grid point of `KernelIdeal`'s kernel leaves in its output block, in closed form.

  The first loop's trip `k` (of 4) loads image rows [16k, 16k + 16) and stores three pieces: the pooled key features of
  those rows into pooled rows [8k, 8k + 8) of the first scratch, the pooled value features into the same rows of the
  second, and the un-pooled query features into rows [16k, 16k + 16) of the third. None of the three depends on what
  the scratches held. Four such pieces tile each scratch, so after the loop each scratch reads as the overlay of its four
  pieces, whatever it held before. The second loop's trip `k` (of 16) loads image rows [4k, 4k + 4) and the same rows of
  the query scratch and stores one piece — the attention output of those 256 pixels against the two pooled scratches read
  whole — into rows [4k, 4k + 4) of the output block; sixteen such pieces tile the block. So the block ends as the
  overlay `outBlk` of those sixteen pieces, a function of the six input blocks alone.
-/
import proofs.«110549_j51281909514278_2_alg».proof.Proof.IdealBody
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable [∀ e, Nonempty (Elt F e)]

/-! ## The rectangles -/

/-- Image rows [16k, 16k + 16). -/
abbrev rImg16 (k : Fin k0_t1_loop.trips) : Rect S1x64x64x512 := Rect.unit (s := S1x64x64x512) (k0_off1 k) S1x16x64x512.size (k0_off1_inb k)
/-- Pooled rows [8k, 8k + 8) of the pooled-key scratch. -/
abbrev rKey (k : Fin k0_t1_loop.trips) : Rect S32x32x64 := Rect.unit (s := S32x32x64) (k0_off2 k) S8x32x64.size (k0_off2_inb k)
/-- Pooled rows [8k, 8k + 8) of the pooled-value scratch. -/
abbrev rVal (k : Fin k0_t1_loop.trips) : Rect S32x32x256 := Rect.unit (s := S32x32x256) (k0_off3 k) S8x32x256.size (k0_off3_inb k)
/-- Rows [16k, 16k + 16) of the query scratch. -/
abbrev rQry16 (k : Fin k0_t1_loop.trips) : Rect S64x64x64 := Rect.unit (s := S64x64x64) (k0_off4 k) S16x64x64.size (k0_off4_inb k)
/-- Image (and output) rows [4k, 4k + 4). -/
abbrev rImg4 (k : Fin k0_t2_loop.trips) : Rect S1x64x64x512 := Rect.unit (s := S1x64x64x512) (k0_off5 k) S1x4x64x512.size (k0_off5_inb k)
/-- Rows [4k, 4k + 4) of the query scratch. -/
abbrev rQry4 (k : Fin k0_t2_loop.trips) : Rect S64x64x64 := Rect.unit (s := S64x64x64) (k0_off6 k) S4x64x64.size (k0_off6_inb k)

/-! ## One trip's pieces, explicitly -/

/-- Trip `k` of the first loop: its three pieces, from the fused weights `v0`, the fused bias row `v5` and the image
    block `x0`. -/
def keyPiece (v0 : Vec F S512x384 .f32) (v5 : Vec F S1x384 .f32) (x0 : Vec F S1x64x64x512 .f32) (k : Fin k0_t1_loop.trips) :
    View.Piece (Elt F) S32x32x64 .bf16 := ⟨rKey k, k0_pay6 (k0_pay1 v0) (k0_pay2 v5) (View.ld x0 (rImg16 k))⟩
def valPiece (v0 : Vec F S512x384 .f32) (v5 : Vec F S1x384 .f32) (x0 : Vec F S1x64x64x512 .f32) (k : Fin k0_t1_loop.trips) :
    View.Piece (Elt F) S32x32x256 .bf16 := ⟨rVal k, k0_pay7 (k0_pay1 v0) (k0_pay2 v5) (View.ld x0 (rImg16 k))⟩
def qryPiece (v0 : Vec F S512x384 .f32) (v5 : Vec F S1x384 .f32) (x0 : Vec F S1x64x64x512 .f32) (k : Fin k0_t1_loop.trips) :
    View.Piece (Elt F) S64x64x64 .bf16 := ⟨rQry16 k, k0_pay3 (k0_pay8 (k0_pay1 v0) (k0_pay2 v5) (View.ld x0 (rImg16 k)))⟩

/-- The trip's found pieces are these, whatever the scratches hold when it starts. -/
theorem tripL1_eq (𝒱 : Variants) (c : Dev nD) (bd : Option 𝒱.V) (i : grid0.Coords) (arg1 : Memref sig .tc .vmem S1x64x64x512 .f32) (harg1 : arg1.IsWhole) (arg2 : Memref sig .tc .vmem S512x384 .f32) (harg2 : arg2.IsWhole) (arg3 : Memref sig .tc .vmem S1x384 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x64x64x512 .f32) (harg7 : arg7.IsWhole) (arg8 : Memref sig .tc .vmem S32x32x64 .bf16) (harg8 : arg8.IsWhole) (arg9 : Memref sig .tc .vmem S32x32x256 .bf16) (harg9 : arg9.IsWhole) (arg10 : Memref sig .tc .vmem S64x64x64 .bf16) (harg10 : arg10.IsWhole) (v0 : Vec F S512x384 .f32) (v5 : Vec F S1x384 .f32) (x0 : Vec F S1x64x64x512 .f32)
    (k : Fin k0_t1_loop.trips) (f8 : BufTy.Contents (Elt F) arg8.view.ty) (f9 : BufTy.Contents (Elt F) arg9.view.ty) (f10 : BufTy.Contents (Elt F) arg10.view.ty) :
    tripL_k0_t1 (F := F) 𝒱 c bd i arg1 harg1 arg2 harg2 arg3 harg3 arg4 harg4 arg5 harg5 arg6 harg6 arg7 harg7 arg8 harg8 arg9 harg9 arg10 harg10 v0 v5 (harg1.unread x0) k f8 f9 f10
      = ([keyPiece v0 v5 x0 k], [valPiece v0 v5 x0 k], [qryPiece v0 v5 x0 k]) := by
  unfold tripL_k0_t1 trip_k0_t1
  dsimp only
  sl_unfold_words
  unfold keyPiece valPiece qryPiece
  simp only [View.readAt_eq_ld, harg1.read_unread]
  rfl

/-- Trip `k` of the second loop: its one piece, from `Wo` (`v3`), the output bias row (`v7`), gamma (`v9`), the two pooled
    scratches read whole (`v12`, `v14`), the image block `x0` and the query scratch's contents `g`. -/
def outPiece (v3 : Vec F S256x512 .f32) (v7 : Vec F S1x512 .f32) (v9 : Vec F S1x1 .f32) (v12 : Vec F S32x32x64 .bf16) (v14 : Vec F S32x32x256 .bf16)
    (x0 : Vec F S1x64x64x512 .f32) (g : Vec F S64x64x64 .bf16) (k : Fin k0_t2_loop.trips) : View.Piece (Elt F) S1x64x64x512 .f32 :=
  ⟨rImg4 k, k0_pay4 v3 v7 v9 v12 v14 (View.ld x0 (rImg4 k)) (View.ld g (rQry4 k))⟩

theorem tripL2_eq (𝒱 : Variants) (c : Dev nD) (bd : Option 𝒱.V) (i : grid0.Coords) (arg1 : Memref sig .tc .vmem S1x64x64x512 .f32) (harg1 : arg1.IsWhole) (arg2 : Memref sig .tc .vmem S512x384 .f32) (harg2 : arg2.IsWhole) (arg3 : Memref sig .tc .vmem S1x384 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x64x64x512 .f32) (harg7 : arg7.IsWhole) (arg8 : Memref sig .tc .vmem S32x32x64 .bf16) (harg8 : arg8.IsWhole) (arg9 : Memref sig .tc .vmem S32x32x256 .bf16) (harg9 : arg9.IsWhole) (arg10 : Memref sig .tc .vmem S64x64x64 .bf16) (harg10 : arg10.IsWhole) (v3 : Vec F S256x512 .f32) (v7 : Vec F S1x512 .f32) (v9 : Vec F S1x1 .f32) (v12 : Vec F S32x32x64 .bf16) (v14 : Vec F S32x32x256 .bf16)
    (x0 : Vec F S1x64x64x512 .f32) (X10 : BufTy.Contents (Elt F) arg10.view.ty) (k : Fin k0_t2_loop.trips) :
    tripL_k0_t2 (F := F) 𝒱 c bd i arg1 harg1 arg2 harg2 arg3 harg3 arg4 harg4 arg5 harg5 arg6 harg6 arg7 harg7 arg8 harg8 arg9 harg9 arg10 harg10 v3 v7 v9 v12 v14 (harg1.unread x0) X10 k
      = [outPiece v3 v7 v9 v12 v14 x0 (arg10.view.read (Elt F) X10) k] := by
  unfold tripL_k0_t2 trip_k0_t2
  dsimp only
  unfold outPiece
  simp only [View.readAt_eq_ld, harg1.read_unread]

/-! ## The pieces of the trips before `n` -/

/-- The first loop's pieces before trip `n`, last first, per scratch. -/
def pcs1 (v0 : Vec F S512x384 .f32) (v5 : Vec F S1x384 .f32) (x0 : Vec F S1x64x64x512 .f32) :
    ℕ → List (View.Piece (Elt F) S32x32x64 .bf16) × List (View.Piece (Elt F) S32x32x256 .bf16) × List (View.Piece (Elt F) S64x64x64 .bf16)
  | 0 => ([], [], [])
  | n + 1 => if h : n < k0_t1_loop.trips then
      (keyPiece v0 v5 x0 ⟨n, h⟩ :: (pcs1 v0 v5 x0 n).1, valPiece v0 v5 x0 ⟨n, h⟩ :: (pcs1 v0 v5 x0 n).2.1, qryPiece v0 v5 x0 ⟨n, h⟩ :: (pcs1 v0 v5 x0 n).2.2)
    else pcs1 v0 v5 x0 n

theorem pb1_eq (𝒱 : Variants) (c : Dev nD) (bd : Option 𝒱.V) (i : grid0.Coords) (arg1 : Memref sig .tc .vmem S1x64x64x512 .f32) (harg1 : arg1.IsWhole) (arg2 : Memref sig .tc .vmem S512x384 .f32) (harg2 : arg2.IsWhole) (arg3 : Memref sig .tc .vmem S1x384 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x64x64x512 .f32) (harg7 : arg7.IsWhole) (arg8 : Memref sig .tc .vmem S32x32x64 .bf16) (harg8 : arg8.IsWhole) (arg9 : Memref sig .tc .vmem S32x32x256 .bf16) (harg9 : arg9.IsWhole) (arg10 : Memref sig .tc .vmem S64x64x64 .bf16) (harg10 : arg10.IsWhole) (v0 : Vec F S512x384 .f32) (v5 : Vec F S1x384 .f32) (x0 : Vec F S1x64x64x512 .f32)
    (G8 : BufTy.Contents (Elt F) arg8.view.ty) (G9 : BufTy.Contents (Elt F) arg9.view.ty) (G10 : BufTy.Contents (Elt F) arg10.view.ty) (n : ℕ) :
    pb_k0_t1 (F := F) 𝒱 c bd i arg1 harg1 arg2 harg2 arg3 harg3 arg4 harg4 arg5 harg5 arg6 harg6 arg7 harg7 arg8 harg8 arg9 harg9 arg10 harg10 v0 v5 (harg1.unread x0) G8 G9 G10 n = pcs1 v0 v5 x0 n := by
  induction n with
  | zero => rfl
  | succ n ih =>
    rw [pb_k0_t1.eq_2]; unfold pb_k0_t1Step; rw [ih, pcs1]
    by_cases h : n < k0_t1_loop.trips
    · rw [dif_pos h, dif_pos h, tripL1_eq]; rfl
    · rw [dif_neg h, dif_neg h]

/-- The second loop's pieces before trip `n`, last first. -/
def pcs2 (v3 : Vec F S256x512 .f32) (v7 : Vec F S1x512 .f32) (v9 : Vec F S1x1 .f32) (v12 : Vec F S32x32x64 .bf16) (v14 : Vec F S32x32x256 .bf16)
    (x0 : Vec F S1x64x64x512 .f32) (g : Vec F S64x64x64 .bf16) : ℕ → List (View.Piece (Elt F) S1x64x64x512 .f32)
  | 0 => []
  | n + 1 => if h : n < k0_t2_loop.trips then outPiece v3 v7 v9 v12 v14 x0 g ⟨n, h⟩ :: pcs2 v3 v7 v9 v12 v14 x0 g n
    else pcs2 v3 v7 v9 v12 v14 x0 g n

theorem pb2_eq (𝒱 : Variants) (c : Dev nD) (bd : Option 𝒱.V) (i : grid0.Coords) (arg1 : Memref sig .tc .vmem S1x64x64x512 .f32) (harg1 : arg1.IsWhole) (arg2 : Memref sig .tc .vmem S512x384 .f32) (harg2 : arg2.IsWhole) (arg3 : Memref sig .tc .vmem S1x384 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x64x64x512 .f32) (harg7 : arg7.IsWhole) (arg8 : Memref sig .tc .vmem S32x32x64 .bf16) (harg8 : arg8.IsWhole) (arg9 : Memref sig .tc .vmem S32x32x256 .bf16) (harg9 : arg9.IsWhole) (arg10 : Memref sig .tc .vmem S64x64x64 .bf16) (harg10 : arg10.IsWhole) (v3 : Vec F S256x512 .f32) (v7 : Vec F S1x512 .f32) (v9 : Vec F S1x1 .f32) (v12 : Vec F S32x32x64 .bf16) (v14 : Vec F S32x32x256 .bf16)
    (x0 : Vec F S1x64x64x512 .f32) (X10 : BufTy.Contents (Elt F) arg10.view.ty) (n : ℕ) :
    pb_k0_t2 (F := F) 𝒱 c bd i arg1 harg1 arg2 harg2 arg3 harg3 arg4 harg4 arg5 harg5 arg6 harg6 arg7 harg7 arg8 harg8 arg9 harg9 arg10 harg10 v3 v7 v9 v12 v14 (harg1.unread x0) X10 n = pcs2 v3 v7 v9 v12 v14 x0 (arg10.view.read (Elt F) X10) n := by
  induction n with
  | zero => rfl
  | succ n ih =>
    rw [pb_k0_t2.eq_2]; unfold pb_k0_t2Step; rw [ih, pcs2]
    by_cases h : n < k0_t2_loop.trips
    · rw [dif_pos h, dif_pos h, tripL2_eq]; rfl
    · rw [dif_neg h, dif_neg h]

/-! ## Four pieces tile each scratch, sixteen the output block -/

theorem coverKey (v0 : Vec F S512x384 .f32) (v5 : Vec F S1x384 .f32) (x0 : Vec F S1x64x64x512 .f32) (y : S32x32x64.Idx) :
    ∃ pc ∈ (pcs1 v0 v5 x0 k0_t1_loop.trips).1, y ∈ pc.1.set :=
  View.cover_of_tiledL (pcs1 v0 v5 x0 k0_t1_loop.trips).1 S8x32x64.size (by sl_kernel_rfl) y
theorem coverVal (v0 : Vec F S512x384 .f32) (v5 : Vec F S1x384 .f32) (x0 : Vec F S1x64x64x512 .f32) (y : S32x32x256.Idx) :
    ∃ pc ∈ (pcs1 v0 v5 x0 k0_t1_loop.trips).2.1, y ∈ pc.1.set :=
  View.cover_of_tiledL (pcs1 v0 v5 x0 k0_t1_loop.trips).2.1 S8x32x256.size (by sl_kernel_rfl) y
theorem coverQry (v0 : Vec F S512x384 .f32) (v5 : Vec F S1x384 .f32) (x0 : Vec F S1x64x64x512 .f32) (y : S64x64x64.Idx) :
    ∃ pc ∈ (pcs1 v0 v5 x0 k0_t1_loop.trips).2.2, y ∈ pc.1.set :=
  View.cover_of_tiledL (pcs1 v0 v5 x0 k0_t1_loop.trips).2.2 S16x64x64.size (by sl_kernel_rfl) y
theorem coverOut (v3 : Vec F S256x512 .f32) (v7 : Vec F S1x512 .f32) (v9 : Vec F S1x1 .f32) (v12 : Vec F S32x32x64 .bf16) (v14 : Vec F S32x32x256 .bf16)
    (x0 : Vec F S1x64x64x512 .f32) (g : Vec F S64x64x64 .bf16) (y : S1x64x64x512.Idx) :
    ∃ pc ∈ pcs2 v3 v7 v9 v12 v14 x0 g k0_t2_loop.trips, y ∈ pc.1.set :=
  View.cover_of_tiledL (pcs2 v3 v7 v9 v12 v14 x0 g k0_t2_loop.trips) S1x4x64x512.size (by sl_kernel_rfl) y

/-! ## What a point leaves -/

/-- The three scratches after the first loop, from the fused weights, the fused bias row and the image block. -/
def keyScr (x1 : Vec F S512x384 .f32) (x2 : Vec F S1x384 .f32) (x0 : Vec F S1x64x64x512 .f32) : Vec F S32x32x64 .bf16 :=
  View.canon (pcs1 x1 x2 x0 k0_t1_loop.trips).1
def valScr (x1 : Vec F S512x384 .f32) (x2 : Vec F S1x384 .f32) (x0 : Vec F S1x64x64x512 .f32) : Vec F S32x32x256 .bf16 :=
  View.canon (pcs1 x1 x2 x0 k0_t1_loop.trips).2.1
def qryScr (x1 : Vec F S512x384 .f32) (x2 : Vec F S1x384 .f32) (x0 : Vec F S1x64x64x512 .f32) : Vec F S64x64x64 .bf16 :=
  View.canon (pcs1 x1 x2 x0 k0_t1_loop.trips).2.2

/-- The output block after the point, from the six input blocks. -/
def outBlk (x0 : Vec F S1x64x64x512 .f32) (x1 : Vec F S512x384 .f32) (x2 : Vec F S1x384 .f32) (x3 : Vec F S256x512 .f32) (x4 : Vec F S1x512 .f32) (x5 : Vec F S1x1 .f32) : Vec F S1x64x64x512 .f32 :=
  View.canon (pcs2 x3 x4 x5 (keyScr x1 x2 x0) (valScr x1 x2 x0) x0 (qryScr x1 x2 x0) k0_t2_loop.trips)

theorem hz2 : (![0, 0] : Fin 2 → ℕ) = fun _ => 0 := by funext a; fin_cases a <;> rfl
theorem hz3 : (![0, 0, 0] : Fin 3 → ℕ) = fun _ => 0 := by funext a; fin_cases a <;> rfl

end Cert.KernelIdeal.Hand

end
-- ==== Proof.IdealBlock.lean ====
/-
  The run's own pieces for the output block of `KernelIdeal`'s kernel are the sixteen explicit ones: the body's first loads
  read the parameter blocks whole, the first loop's found pieces are the explicit ones and tile the three scratches, so
  the scratches read back as their overlays whatever they held, and the second loop's found pieces are the explicit ones
  over those overlays and tile the block.
-/
import proofs.«110549_j51281909514278_2_alg».proof.Proof.IdealPieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable [∀ e, Nonempty (Elt F e)]

set_option maxHeartbeats 2000000 in
/-- Whatever the output block and the scratches held, the run's pieces written over the block read back as `outBlk`. -/
theorem out_eq (c : Dev nD) (i : grid0.Coords) (arg1 : Memref sig .tc .vmem S1x64x64x512 .f32) (harg1 : arg1.IsWhole) (arg2 : Memref sig .tc .vmem S512x384 .f32) (harg2 : arg2.IsWhole) (arg3 : Memref sig .tc .vmem S1x384 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x64x64x512 .f32) (harg7 : arg7.IsWhole) (arg8 : Memref sig .tc .vmem S32x32x64 .bf16) (harg8 : arg8.IsWhole) (arg9 : Memref sig .tc .vmem S32x32x256 .bf16) (harg9 : arg9.IsWhole) (arg10 : Memref sig .tc .vmem S64x64x64 .bf16) (harg10 : arg10.IsWhole) (x0 : Vec F S1x64x64x512 .f32) (x1 : Vec F S512x384 .f32) (x2 : Vec F S1x384 .f32) (x3 : Vec F S256x512 .f32) (x4 : Vec F S1x512 .f32) (x5 : Vec F S1x1 .f32) (d8 : Vec F S32x32x64 .bf16) (d9 : Vec F S32x32x256 .bf16) (d10 : Vec F S64x64x64 .bf16) (f : BufTy.Contents (Elt F) arg7.view.ty) :
    arg7.view.read (Elt F) (arg7.view.writes (Elt F) f (kernelRun c i arg1 harg1 arg2 harg2 arg3 harg3 arg4 harg4 arg5 harg5 arg6 harg6 arg7 harg7 arg8 harg8 arg9 harg9 arg10 harg10 x0 x1 x2 x3 x4 x5 d8 d9 d10).1)
      = outBlk x0 x1 x2 x3 x4 x5 := by
  unfold kernelRun
  dsimp only
  sl_unfold_words
  simp only [View.readAt_eq_ld, harg2.read_unread, harg3.read_unread, harg4.read_unread, harg5.read_unread, harg6.read_unread,
    View.ld_unit_zero (S := S512x384) hz2, View.ld_unit_zero (S := S1x384) hz2, View.ld_unit_zero (S := S256x512) hz2,
    View.ld_unit_zero (S := S1x512) hz2, View.ld_unit_zero (S := S1x1) hz2]
  rw [pb2_eq]
  simp only [pb1_eq]
  rw [View.read_writes_eq_canon _ _ _ (coverKey x1 x2 x0), View.read_writes_eq_canon _ _ _ (coverVal x1 x2 x0),
    View.read_writes_eq_canon _ _ _ (coverQry x1 x2 x0)]
  simp only [View.ld_unit_zero (S := S32x32x64) hz3, View.ld_unit_zero (S := S32x32x256) hz3]
  exact View.read_writes_eq_canon _ _ _ (coverOut _ _ _ _ _ _ _)

end Cert.KernelIdeal.Hand

end
-- ==== Proof.IdealFrame.lean ====
/-
  The launch of `KernelIdeal`'s kernel over the 16 batch elements. The proof data: every array as the call finds it; after the
  body at batch element `t` each of the six input windows' staging buffers still holds its block, and the output window's
  holds `outBlk` of those six blocks; between points nothing is kept (the three scratches are refilled at every point
  before they are read, so the invariant only says they exist). With the body's run this gives: every weakly fair
  execution of @main terminates without a fault, the output array ends as the blocks the 16 points wrote back, and all
  ten argument arrays end as launched.
-/
import proofs.«110549_j51281909514278_2_alg».proof.Proof.IdealBlock

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable [∀ e, Nonempty (Elt F e)]
variable (m : (ℓ : Loc nD τ sig) → Buf (Elt F) ℓ) (ρ : Dev nD → PrngReg)

/-! ## The staging memrefs at a point, and the scratches -/
abbrev ms0 (t : Fin cfg0.N) : Memref sig .tc .vmem S1x64x64x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x384 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x384 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x64x64x512 .f32 := win0_6.stage (cfg0.slots t 6)
abbrev hs6 (t : Fin cfg0.N) : (ms6 t).IsWhole := hstage0_6 ((cfg0.slots t 6).cast nbuf0_6)
abbrev scKey : Memref sig .tc .vmem S32x32x64 .bf16 := Memref.whole cc0_scratch0
abbrev scVal : Memref sig .tc .vmem S32x32x256 .bf16 := Memref.whole cc0_scratch1
abbrev scQry : Memref sig .tc .vmem S64x64x64 .bf16 := Memref.whole cc0_scratch2

/-- What the launch hands the body besides the windows: the three scratches at some contents, and the generator register. -/
theorem PhiA_eq (c : Dev nD) :
    (Pipeline.ΦA spec0 c : sProp 𝕄)
      = iprop(iprop((∃ d, owns (c : Thread nD τ) scKey fullShare d) ∗ (∃ d, owns (c : Thread nD τ) scVal fullShare d) ∗ (∃ d, owns (c : Thread nD τ) scQry fullShare d)) ∗ (∃ r, prngReg c r)) := by
  unfold Pipeline.ΦA; rw [scopedRest0_eq]; simp only [scKey, scVal, scQry, owns_whole]; try rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = outBlk (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 2000000 in
/-- At any batch element: the input buffers hold their blocks, so the body's run applies; the scratches and the register
    pass through at whatever they hold; the output buffer ends at `outBlk` of the blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  rw [show (dats m 0 c).Φ t.castSucc = Pipeline.ΦA spec0 c from rfl, PhiA_eq]
  iintro ⟨⟨⟨⟨%d8, HS8⟩, ⟨%d9, HS9⟩, ⟨%d10, HS10⟩⟩, Hg⟩, Ho, ⟨%e0, H0⟩, ⟨%e1, H1⟩, ⟨%e2, H2⟩, ⟨%e3, H3⟩, ⟨%e4, H4⟩, ⟨%e5, H5⟩, ⟨%e6, H6⟩⟩
  iapply ((kernelRun c (grid0.coords t) (ms0 t) (hs0 t) (ms1 t) (hs1 t) (ms2 t) (hs2 t) (ms3 t) (hs3 t) (ms4 t) (hs4 t) (ms5 t) (hs5 t) (ms6 t) (hs6 t)
    scKey (Memref.isWhole_whole _) scVal (Memref.isWhole_whole _) scQry (Memref.isWhole_whole _)
    (iblk m c 0 t) (iblk m c 1 t) (iblk m c 2 t) (iblk m c 3 t) (iblk m c 4 t) (iblk m c 5 t) d8 d9 d10).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS8]; · iexact HS8
  isplitl [HS9]; · iexact HS9
  isplitl [HS10]; · iexact HS10
  iintro ⟨H0, H1, H2, H3, H4, H5, ⟨%g6, H6⟩, ⟨%g8, HS8⟩, ⟨%g9, HS9⟩, ⟨%g10, HS10⟩⟩
  isplitl [HS8 HS9 HS10 Hg]
  · isplitl [HS8 HS9 HS10]
    · isplitl [HS8]
      · iexists (scKey.view.read (Elt F) g8); unfold owns; iexists g8; isplitr; · ipureintro; rfl
        iexact HS8
      isplitl [HS9]
      · iexists (scVal.view.read (Elt F) g9); unfold owns; iexists g9; isplitr; · ipureintro; rfl
        iexact HS9
      iexists (scQry.view.read (Elt F) g10); unfold owns; iexists g10; isplitr; · ipureintro; rfl
      iexact HS10
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact out_eq c _ _ _ _ _ _ _ _ _ _ _ _ _ _ _ _ _ _ _ _ _ _ _ _ _ _ _ _ _ _ _

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates without a fault; the output array ends at what the proof data says
    the 16 write-backs left, every other unscoped buffer as the call found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- All ten argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.Hand

end
-- ==== Proof.LibCanon.lean ====
/-
  The overlay of a list of stored pieces read where exactly one piece reaches.

  `View.canon L` is what a list of stores `L` (last first) leaves, as a function of the pieces alone: at an index the
  payload of the first piece whose rectangle holds it. When the pieces' rectangles are pairwise disjoint — the tiles
  of a loop that fills a buffer slab by slab — an index inside piece `p` is reached by no other piece, so the overlay
  there is `p`'s payload at the index's position inside `p`, wherever `p` sits in the list.
-/
import Idealize.ShloMosaic.Lib.Pipeline.FrameBody

noncomputable section

namespace Idealize.ShloMosaic.View

variable {s : Shape} {e : EltTy} {Val : EltTy → Type} [∀ e, Nonempty (Val e)]

/-- In a list of pieces, at an element that only the piece `p` of the list covers, the overlay is `p`'s payload. -/
theorem canon_of_unique (p : Piece Val s e) (x : p.1.shape.Idx) :
    ∀ L : List (Piece Val s e), p ∈ L → (∀ q ∈ L, p.1.emb x ∈ q.1.set → q = p) → canon L (p.1.emb x) = p.2 x
  | [], hp, _ => absurd hp List.not_mem_nil
  | q :: L, hp, hu => by
    by_cases hq : p.1.emb x ∈ q.1.set
    · obtain rfl := hu q List.mem_cons_self hq
      obtain ⟨r, w⟩ := q
      exact canon_cons_emb r w L x
    · have hp' : p ∈ L := by
        rcases List.mem_cons.mp hp with rfl | h
        · exact absurd (by rw [← Rect.map_emb_univ]; exact Finset.mem_map_of_mem _ (Finset.mem_univ x)) hq
        · exact h
      rw [canon_cons_of_not_mem q L hq]
      exact canon_of_unique p x L hp' fun q' hq' => hu q' (List.mem_cons_of_mem _ hq')

end Idealize.ShloMosaic.View

end
-- ==== Proof.IdealReads.lean ====
/-
  The three scratches after the first loop, and the output block after the second, read inside one trip's slab.

  The four pieces of a scratch sit at pooled rows [8k, 8k + 8) (rows [16k, 16k + 16) for the queries), the sixteen pieces
  of the output block at image rows [4k, 4k + 4): slabs along one axis, pairwise disjoint. So at an index inside trip
  `k`'s slab the overlay is trip `k`'s payload at the index's position inside the slab.
-/
import proofs.«110549_j51281909514278_2_alg».proof.Proof.IdealPieces
import proofs.«110549_j51281909514278_2_alg».proof.Proof.LibCanon
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable [∀ e, Nonempty (Elt F e)]

/-! ## The slabs' offsets in closed form -/

theorem off1_eq : ∀ k : Fin k0_t1_loop.trips, k0_off1 k = ![0, 16 * k.val, 0, 0] := by decide +kernel
theorem off2_eq : ∀ k : Fin k0_t1_loop.trips, k0_off2 k = ![8 * k.val, 0, 0] := by decide +kernel
theorem off3_eq : ∀ k : Fin k0_t1_loop.trips, k0_off3 k = ![8 * k.val, 0, 0] := by decide +kernel
theorem off4_eq : ∀ k : Fin k0_t1_loop.trips, k0_off4 k = ![16 * k.val, 0, 0] := by decide +kernel
theorem off5_eq : ∀ k : Fin k0_t2_loop.trips, k0_off5 k = ![0, 4 * k.val, 0, 0] := by decide +kernel
theorem off6_eq : ∀ k : Fin k0_t2_loop.trips, k0_off6 k = ![4 * k.val, 0, 0] := by decide +kernel
theorem trips1 : k0_t1_loop.trips = 4 := by decide
theorem trips2 : k0_t2_loop.trips = 16 := by decide

/-! ## Which pieces the lists hold -/

section
variable (v0 : Vec F S512x384 .f32) (v5 : Vec F S1x384 .f32) (x0 : Vec F S1x64x64x512 .f32)

theorem pieces1_mem (k : Fin k0_t1_loop.trips) : ∀ n, k.val < n →
    keyPiece v0 v5 x0 k ∈ (pcs1 v0 v5 x0 n).1 ∧ valPiece v0 v5 x0 k ∈ (pcs1 v0 v5 x0 n).2.1 ∧ qryPiece v0 v5 x0 k ∈ (pcs1 v0 v5 x0 n).2.2
  | 0, h => absurd h (Nat.not_lt_zero _)
  | n + 1, h => by
    rw [pcs1]
    by_cases hn : n < k0_t1_loop.trips
    · rw [dif_pos hn]
      by_cases hk : k.val = n
      · obtain rfl : k = ⟨n, hn⟩ := Fin.ext hk
        exact ⟨List.mem_cons_self, List.mem_cons_self, List.mem_cons_self⟩
      · obtain ⟨a, b, c'⟩ := pieces1_mem k n (by omega)
        exact ⟨List.mem_cons_of_mem _ a, List.mem_cons_of_mem _ b, List.mem_cons_of_mem _ c'⟩
    · rw [dif_neg hn]; exact pieces1_mem k n (by have := k.isLt; omega)

theorem of_mem_key : ∀ n p, p ∈ (pcs1 v0 v5 x0 n).1 → ∃ k, p = keyPiece v0 v5 x0 k
  | 0, p, h => absurd h List.not_mem_nil
  | n + 1, p, h => by
    rw [pcs1] at h
    by_cases hn : n < k0_t1_loop.trips
    · rw [dif_pos hn] at h
      rcases List.mem_cons.mp h with rfl | h'
      · exact ⟨_, rfl⟩
      · exact of_mem_key n p h'
    · rw [dif_neg hn] at h; exact of_mem_key n p h
theorem of_mem_val : ∀ n p, p ∈ (pcs1 v0 v5 x0 n).2.1 → ∃ k, p = valPiece v0 v5 x0 k
  | 0, p, h => absurd h List.not_mem_nil
  | n + 1, p, h => by
    rw [pcs1] at h
    by_cases hn : n < k0_t1_loop.trips
    · rw [dif_pos hn] at h
      rcases List.mem_cons.mp h with rfl | h'
      · exact ⟨_, rfl⟩
      · exact of_mem_val n p h'
    · rw [dif_neg hn] at h; exact of_mem_val n p h
theorem of_mem_qry : ∀ n p, p ∈ (pcs1 v0 v5 x0 n).2.2 → ∃ k, p = qryPiece v0 v5 x0 k
  | 0, p, h => absurd h List.not_mem_nil
  | n + 1, p, h => by
    rw [pcs1] at h
    by_cases hn : n < k0_t1_loop.trips
    · rw [dif_pos hn] at h
      rcases List.mem_cons.mp h with rfl | h'
      · exact ⟨_, rfl⟩
      · exact of_mem_qry n p h'
    · rw [dif_neg hn] at h; exact of_mem_qry n p h
end

section
variable (v3 : Vec F S256x512 .f32) (v7 : Vec F S1x512 .f32) (v9 : Vec F S1x1 .f32) (v12 : Vec F S32x32x64 .bf16) (v14 : Vec F S32x32x256 .bf16)
  (x0 : Vec F S1x64x64x512 .f32) (g : Vec F S64x64x64 .bf16)

theorem piece2_mem (k : Fin k0_t2_loop.trips) : ∀ n, k.val < n → outPiece v3 v7 v9 v12 v14 x0 g k ∈ pcs2 v3 v7 v9 v12 v14 x0 g n
  | 0, h => absurd h (Nat.not_lt_zero _)
  | n + 1, h => by
    rw [pcs2]
    by_cases hn : n < k0_t2_loop.trips
    · rw [dif_pos hn]
      by_cases hk : k.val = n
      · obtain rfl : k = ⟨n, hn⟩ := Fin.ext hk
        exact List.mem_cons_self
      · exact List.mem_cons_of_mem _ (piece2_mem k n (by omega))
    · rw [dif_neg hn]; exact piece2_mem k n (by have := k.isLt; omega)

theorem of_mem_out : ∀ n p, p ∈ pcs2 v3 v7 v9 v12 v14 x0 g n → ∃ k, p = outPiece v3 v7 v9 v12 v14 x0 g k
  | 0, p, h => absurd h List.not_mem_nil
  | n + 1, p, h => by
    rw [pcs2] at h
    by_cases hn : n < k0_t2_loop.trips
    · rw [dif_pos hn] at h
      rcases List.mem_cons.mp h with rfl | h'
      · exact ⟨_, rfl⟩
      · exact of_mem_out n p h'
    · rw [dif_neg hn] at h; exact of_mem_out n p h
end

/-! ## Reading inside a slab -/

section
variable (x1 : Vec F S512x384 .f32) (x2 : Vec F S1x384 .f32) (x0 : Vec F S1x64x64x512 .f32)

/-- The pooled-key scratch inside trip `k`'s slab. -/
theorem keyScr_emb (k : Fin k0_t1_loop.trips) (x : S8x32x64.Idx) :
    keyScr x1 x2 x0 ((rKey k).emb x) = k0_pay6 (k0_pay1 x1) (k0_pay2 x2) (View.ld x0 (rImg16 k)) x := by
  unfold keyScr
  refine View.canon_of_unique (keyPiece x1 x2 x0 k) x _ (pieces1_mem x1 x2 x0 k _ k.isLt).1 ?_
  intro q hq hmem
  obtain ⟨k', rfl⟩ := of_mem_key x1 x2 x0 _ _ hq
  have hmem' : (rKey k).emb x ∈ (rKey k').set := hmem
  have h0 := (Rect.mem_set_unit.mp hmem') 0
  have a0 : k0_off2 k' 0 = 8 * k'.val := by rw [off2_eq k']; rfl
  have a1 : k0_off2 k 0 = 8 * k.val := by rw [off2_eq k]; rfl
  have hx : (x 0).val < 8 := (x 0).isLt
  have hv : ((rKey k).emb x 0).val = k0_off2 k 0 + 1 * (x 0).val := rfl
  have lo : k0_off2 k' 0 ≤ ((rKey k).emb x 0).val := h0.1
  have hi : ((rKey k).emb x 0).val < k0_off2 k' 0 + 8 := h0.2
  have : k' = k := Fin.ext (by omega)
  rw [this]

/-- The pooled-value scratch inside trip `k`'s slab. -/
theorem valScr_emb (k : Fin k0_t1_loop.trips) (x : S8x32x256.Idx) :
    valScr x1 x2 x0 ((rVal k).emb x) = k0_pay7 (k0_pay1 x1) (k0_pay2 x2) (View.ld x0 (rImg16 k)) x := by
  unfold valScr
  refine View.canon_of_unique (valPiece x1 x2 x0 k) x _ (pieces1_mem x1 x2 x0 k _ k.isLt).2.1 ?_
  intro q hq hmem
  obtain ⟨k', rfl⟩ := of_mem_val x1 x2 x0 _ _ hq
  have hmem' : (rVal k).emb x ∈ (rVal k').set := hmem
  have h0 := (Rect.mem_set_unit.mp hmem') 0
  have a0 : k0_off3 k' 0 = 8 * k'.val := by rw [off3_eq k']; rfl
  have a1 : k0_off3 k 0 = 8 * k.val := by rw [off3_eq k]; rfl
  have hx : (x 0).val < 8 := (x 0).isLt
  have hv : ((rVal k).emb x 0).val = k0_off3 k 0 + 1 * (x 0).val := rfl
  have lo : k0_off3 k' 0 ≤ ((rVal k).emb x 0).val := h0.1
  have hi : ((rVal k).emb x 0).val < k0_off3 k' 0 + 8 := h0.2
  have : k' = k := Fin.ext (by omega)
  rw [this]

/-- The query scratch inside trip `k`'s slab. -/
theorem qryScr_emb (k : Fin k0_t1_loop.trips) (x : S16x64x64.Idx) :
    qryScr x1 x2 x0 ((rQry16 k).emb x) = k0_pay3 (k0_pay8 (k0_pay1 x1) (k0_pay2 x2) (View.ld x0 (rImg16 k))) x := by
  unfold qryScr
  refine View.canon_of_unique (qryPiece x1 x2 x0 k) x _ (pieces1_mem x1 x2 x0 k _ k.isLt).2.2 ?_
  intro q hq hmem
  obtain ⟨k', rfl⟩ := of_mem_qry x1 x2 x0 _ _ hq
  have hmem' : (rQry16 k).emb x ∈ (rQry16 k').set := hmem
  have h0 := (Rect.mem_set_unit.mp hmem') 0
  have a0 : k0_off4 k' 0 = 16 * k'.val := by rw [off4_eq k']; rfl
  have a1 : k0_off4 k 0 = 16 * k.val := by rw [off4_eq k]; rfl
  have hx : (x 0).val < 16 := (x 0).isLt
  have hv : ((rQry16 k).emb x 0).val = k0_off4 k 0 + 1 * (x 0).val := rfl
  have lo : k0_off4 k' 0 ≤ ((rQry16 k).emb x 0).val := h0.1
  have hi : ((rQry16 k).emb x 0).val < k0_off4 k' 0 + 16 := h0.2
  have : k' = k := Fin.ext (by omega)
  rw [this]
end

/-- The output block inside trip `k`'s slab: the attention payload of those four image rows. -/
theorem outBlk_emb (x0 : Vec F S1x64x64x512 .f32) (x1 : Vec F S512x384 .f32) (x2 : Vec F S1x384 .f32) (x3 : Vec F S256x512 .f32) (x4 : Vec F S1x512 .f32) (x5 : Vec F S1x1 .f32) (k : Fin k0_t2_loop.trips) (x : S1x4x64x512.Idx) :
    outBlk x0 x1 x2 x3 x4 x5 ((rImg4 k).emb x)
      = k0_pay4 x3 x4 x5 (keyScr x1 x2 x0) (valScr x1 x2 x0) (View.ld x0 (rImg4 k)) (View.ld (qryScr x1 x2 x0) (rQry4 k)) x := by
  unfold outBlk
  refine View.canon_of_unique (outPiece x3 x4 x5 (keyScr x1 x2 x0) (valScr x1 x2 x0) x0 (qryScr x1 x2 x0) k) x _
    (piece2_mem _ _ _ _ _ _ _ k _ k.isLt) ?_
  intro q hq hmem
  obtain ⟨k', rfl⟩ := of_mem_out _ _ _ _ _ _ _ _ _ hq
  have hmem' : (rImg4 k).emb x ∈ (rImg4 k').set := hmem
  have h0 := (Rect.mem_set_unit.mp hmem') 1
  have a0 : k0_off5 k' 1 = 4 * k'.val := by rw [off5_eq k']; rfl
  have a1 : k0_off5 k 1 = 4 * k.val := by rw [off5_eq k]; rfl
  have hx : (x 1).val < 4 := (x 1).isLt
  have hv : ((rImg4 k).emb x 1).val = k0_off5 k 1 + 1 * (x 1).val := rfl
  have lo : k0_off5 k' 1 ≤ ((rImg4 k).emb x 1).val := h0.1
  have hi : ((rImg4 k).emb x 1).val < k0_off5 k' 1 + 4 := h0.2
  have : k' = k := Fin.ext (by omega)
  rw [this]

end Cert.KernelIdeal.Hand

end
-- ==== Proof.Spec.lean ====
/-
  The mathematics both programs compute, as ONE function of the ten argument arrays over the extended reals.

  For a batch element `b` and a pixel (r, w) of the 64 x 64 image, with x the 512 input channels of that pixel:
    * three per-pixel affine maps of the channels (`affine`: `(Σ_k x_k · W_{k,d}) + B_d`): the "key" map (Wf, bf, 64
      features), the "query" map (Wg, bg, 64 features) and the "value" map (Wh, bh, 256 features) — `proj`;
    * the key and value maps are max-pooled over 2 x 2 pixel squares (`pool4`: the supremum over the four pixels
      (2p + a, 2q + e)) — `pool` —, leaving 32 x 32 = 1024 pooled positions, numbered row-major `m = 32 p + q`;
    * `attend`: the score of a pixel against pooled position m is the inner product of its query with the pooled key; the
      weights are the softmax of the scores over m, written as jax writes it, `exp (s - max s) / Σ exp (s - max s)`; the
      pooled values are mixed by the weights, mapped back to 512 channels through (Wo, bo), scaled by gamma, and the
      pixel's own channels are added back.
  No rounding is left at the extended reals, so fusing the three maps into one matrix product over the concatenated
  weights, pooling axis by axis, or tiling the pixels changes nothing: both programs are `G`.
-/
import Idealize.ShloMosaic.PureOps.Ideal
import Idealize.ShloMosaic.Lib.ValueIdx

noncomputable section

open scoped BigOperators

namespace Cert.Spec

open Idealize.ShloMosaic Idealize.ShloMosaic.ValueIdx

/-! ## The three building blocks, free of any array layout -/

/-- An affine form of 512 channels: `(Σ_k x_k · w_k) + bias`. -/
def affine (x w : Fin 512 → EReal) (bias : EReal) : EReal := (∑ k : Fin 512, x k * w k) + bias

/-- The largest of four values laid out 2 x 2. -/
def pool4 (f : Fin 2 → Fin 2 → EReal) : EReal :=
  (Finset.univ : Finset (Fin 2 × Fin 2)).sup fun ae => f ae.1 ae.2

/-- The score of a query against key `m`. -/
def scoreOf (qv : Fin 64 → EReal) (K : Fin 1024 → Fin 64 → EReal) (m : Fin 1024) : EReal := ∑ d : Fin 64, qv d * K m d

/-- The unnormalized softmax weight: `exp (s_m - max_m' s_m')`. -/
def exOf (qv : Fin 64 → EReal) (K : Fin 1024 → Fin 64 → EReal) (m : Fin 1024) : EReal :=
  Ideal.exp (scoreOf qv K m - (Finset.univ : Finset (Fin 1024)).sup fun m' => scoreOf qv K m')

/-- The softmax weight. -/
def wgtOf (qv : Fin 64 → EReal) (K : Fin 1024 → Fin 64 → EReal) (m : Fin 1024) : EReal :=
  Ideal.div (exOf qv K m) (∑ m' : Fin 1024, exOf qv K m')

/-- The values mixed by the softmax weights: feature `e`. -/
def mixOf (qv : Fin 64 → EReal) (K : Fin 1024 → Fin 64 → EReal) (Hv : Fin 1024 → Fin 256 → EReal) (e : Fin 256) : EReal :=
  ∑ m : Fin 1024, wgtOf qv K m * Hv m e

/-- One output channel of a pixel: `gam · ((Σ_e mix_e · Wo_{e,ch}) + bo_ch) + x_ch`. -/
def attend (qv : Fin 64 → EReal) (K : Fin 1024 → Fin 64 → EReal) (Hv : Fin 1024 → Fin 256 → EReal)
    (Wo : Fin 256 → Fin 512 → EReal) (bo : Fin 512 → EReal) (gam : EReal) (xres : Fin 512 → EReal) (ch : Fin 512) : EReal :=
  gam * ((∑ e : Fin 256, mixOf qv K Hv e * Wo e ch) + bo ch) + xres ch

/-! ## The same over the argument arrays -/

/-- The image: batch, row, column, channel. -/
abbrev Img := (⟨4, ![16, 64, 64, 512]⟩ : Shape).Idx → EReal
/-- A `k x n` matrix and a vector of `n` entries. -/
abbrev Mat (k n : Nat) := (⟨2, ![k, n]⟩ : Shape).Idx → EReal
abbrev Vct (n : Nat) := (⟨1, ![n]⟩ : Shape).Idx → EReal

/-- Feature `d` of a per-pixel affine map of the channels. -/
def proj {n : Nat} (X : Img) (W : Mat 512 n) (B : Vct n) (b : Fin 16) (r w : Fin 64) (d : Fin n) : EReal :=
  affine (fun k => X (ix4 b r w k)) (fun k => W (ix2 k d)) (B (ix1 d))

/-- Row (or column) `2 p + a` of the image: the two rows a pooled row covers. -/
def fine (p : Fin 32) (a : Fin 2) : Fin 64 := ⟨2 * p.val + a.val, by omega⟩

/-- The map's feature `d` max-pooled over the 2 x 2 square of pixels at pooled position (p, q). -/
def pool {n : Nat} (X : Img) (W : Mat 512 n) (B : Vct n) (b : Fin 16) (p q : Fin 32) (d : Fin n) : EReal :=
  pool4 fun a e => proj X W B b (fine p a) (fine q e) d

/-- Pooled position `m = 32 p + q`: its row and column. -/
def prow (m : Fin 1024) : Fin 32 := ⟨m.val / 32, by omega⟩
def pcol (m : Fin 1024) : Fin 32 := ⟨m.val % 32, by omega⟩

/-- THE RESULT at every batch element, pixel and channel. -/
def G (X : Img) (Wf : Mat 512 64) (bf : Vct 64) (Wg : Mat 512 64) (bg : Vct 64) (Wh : Mat 512 256) (bh : Vct 256)
    (Wo : Mat 256 512) (bo : Vct 512) (gam : Vct 1) : Img := fun i =>
  attend (fun d => proj X Wg bg (i 0) (i 1) (i 2) d)
    (fun m d => pool X Wf bf (i 0) (prow m) (pcol m) d)
    (fun m e => pool X Wh bh (i 0) (prow m) (pcol m) e)
    (fun e ch => Wo (ix2 e ch)) (fun ch => bo (ix1 ch)) (gam (ix1 0))
    (fun ch => X (ix4 (i 0) (i 1) (i 2) ch)) (i 3)

/-! ## Two facts both sides use about the maximum -/

/-- The word both programs start a maximum from is minus infinity, the least extended real. -/
theorem ofBits_neg_inf : Ideal.ofBits .f32 0xFF800000#32 = (⊥ : EReal) := by
  simp [Ideal.ofBits, Ideal.ieee]

/-- A maximum folded from the least element is the supremum. -/
theorem fold_max_bot {ι : Type} (s : Finset ι) (f : ι → EReal) : s.fold max (⊥ : EReal) f = s.sup f := by
  classical
  induction s using Finset.induction_on with
  | empty => simp
  | insert a s ha ih => rw [Finset.fold_insert ha, Finset.sup_insert, ih]

end Cert.Spec

end
-- ==== Proof.PayMaps.lean ====
/-
  The fused per-pixel maps of one tile, read at an index.
  A tile holds 16 image rows of 64 pixels; the kernel lays its 1024 pixels out row-major (pixel n is image row n / 64,
  column n % 64), multiplies the 1024 x 512 matrix of their channels by the 512 x 384 matrix of the three maps' weights
  side by side, and adds the 384 biases to every row. At the extended reals nothing is rounded, so entry (n, j) is the
  affine form of pixel n's channels with column j of the weights and entry j of the biases.
-/
import proofs.«110549_j51281909514278_2_alg».proof.Proof.Gen.KernelIdeal.Skeleton
import proofs.«110549_j51281909514278_2_alg».proof.Proof.Spec
import Idealize.ShloMosaic.Lib.ValueLayout
import Idealize.ShloMosaic.PureOps.Ideal.Laws

noncomputable section

open scoped BigOperators

namespace Cert.KernelIdeal.PayValue

open Cert.KernelIdeal Cert.KernelIdeal.Gen Idealize.ShloMosaic Idealize.ShloMosaic.ValueIdx Cert.Spec

theorem mm5_lhs_nc (i : S1024x384.Idx) (q : dot_S1024x512_S512x384_S1024x384_1_0_0_1_n_n.contr.Idx) :
    (dot_S1024x512_S512x384_S1024x384_1_0_0_1_n_n.lhsIdx i q 0).val = (i 0).val := by
  unfold DotDims.lhsIdx
  rw [dif_neg (show ¬(0 : Fin S1024x512.rank) ∈ dot_S1024x512_S512x384_S1024x384_1_0_0_1_n_n.lhsBatch by decide), dif_pos (show (0 : Fin S1024x512.rank) ∈ dot_S1024x512_S512x384_S1024x384_1_0_0_1_n_n.lhsNonContracting by decide)]
  rfl
theorem mm5_rhs_nc (i : S1024x384.Idx) (q : dot_S1024x512_S512x384_S1024x384_1_0_0_1_n_n.contr.Idx) :
    (dot_S1024x512_S512x384_S1024x384_1_0_0_1_n_n.rhsIdx i q 1).val = (i 1).val := by
  unfold DotDims.rhsIdx
  rw [dif_neg (show ¬(1 : Fin S512x384.rank) ∈ dot_S1024x512_S512x384_S1024x384_1_0_0_1_n_n.rhsBatch by decide), dif_pos (show (1 : Fin S512x384.rank) ∈ dot_S1024x512_S512x384_S1024x384_1_0_0_1_n_n.rhsNonContracting by decide)]
  rfl
theorem mm5_lhs_c (i : S1024x384.Idx) (q : dot_S1024x512_S512x384_S1024x384_1_0_0_1_n_n.contr.Idx) :
    (dot_S1024x512_S512x384_S1024x384_1_0_0_1_n_n.lhsIdx i q 1).val = (q ⟨0, by decide⟩).val :=
  dot_S1024x512_S512x384_S1024x384_1_0_0_1_n_n.lhsIdx_val_of_single rfl i q
theorem mm5_rhs_c (i : S1024x384.Idx) (q : dot_S1024x512_S512x384_S1024x384_1_0_0_1_n_n.contr.Idx) :
    (dot_S1024x512_S512x384_S1024x384_1_0_0_1_n_n.rhsIdx i q 0).val = (q ⟨0, by decide⟩).val :=
  dot_S1024x512_S512x384_S1024x384_1_0_0_1_n_n.rhsIdx_val_of_single rfl i q

/-- The product into a zero accumulator read at (m, n): the sum over the 512 contracted coordinates. -/
theorem mm5_apply (L : FVec Ideal S1024x512 .bf16) (R : FVec Ideal S512x384 .bf16) (m : Fin 1024) (n : Fin 384) :
    matmul dot_S1024x512_S512x384_S1024x384_1_0_0_1_n_n none L R (constant (F := Ideal) S1024x384 .f32 0x00000000#32) (ix2 m n)
      = ∑ k : Fin 512, L (ix2 m k) * R (ix2 k n) := by
  refine (Ideal.matmul_constant_zero_apply dot_S1024x512_S512x384_S1024x384_1_0_0_1_n_n none L R (ix2 m n)).trans ?_
  rw [← Equiv.sum_comp (contrEquiv1 dot_S1024x512_S512x384_S1024x384_1_0_0_1_n_n 512 rfl rfl).symm]
  refine Finset.sum_congr rfl fun k _ => ?_
  have hk := contrEquiv1_symm_val dot_S1024x512_S512x384_S1024x384_1_0_0_1_n_n 512 rfl rfl k
  have el : dot_S1024x512_S512x384_S1024x384_1_0_0_1_n_n.lhsIdx (ix2 m n) ((contrEquiv1 dot_S1024x512_S512x384_S1024x384_1_0_0_1_n_n 512 rfl rfl).symm k) = ix2 m k := funext fun a => Fin.ext (by
    match a with
    | ⟨0, _⟩ => exact mm5_lhs_nc _ _
    | ⟨1, _⟩ => exact (mm5_lhs_c _ _).trans hk)
  have er : dot_S1024x512_S512x384_S1024x384_1_0_0_1_n_n.rhsIdx (ix2 m n) ((contrEquiv1 dot_S1024x512_S512x384_S1024x384_1_0_0_1_n_n 512 rfl rfl).symm k) = ix2 k n := funext fun a => Fin.ext (by
    match a with
    | ⟨1, _⟩ => exact mm5_rhs_nc _ _
    | ⟨0, _⟩ => exact (mm5_rhs_c _ _).trans hk)
  rw [el, er]

/-- The fused map of a tile read at pixel n (row-major over 16 image rows of 64 pixels) and column j: the affine
    form of that pixel's 512 channels with column j of the fused weights and bias. -/
theorem pay5_apply (W : Vec Ideal S512x384 .f32) (B : Vec Ideal S1x384 .f32) (Xt : Vec Ideal S1x16x64x512 .f32)
    (n : Fin 1024) (j : Fin 384) :
    k0_pay5 (k0_pay1 W) (k0_pay2 B) Xt (ix2 n j)
      = affine (fun k => Xt (ix4 0 ⟨n.val / 64, by omega⟩ ⟨n.val % 64, by omega⟩ k)) (fun k => W (ix2 k j)) (B (ix2 0 j)) := by
  unfold k0_pay5 k0_pay1 k0_pay2 affine
  refine (addf_apply _ _ (ix2 n j)).trans ?_
  refine congrArg₂ (· + ·) ?_ ?_
  · refine (mm5_apply _ _ n j).trans ?_
    refine Finset.sum_congr rfl fun k _ => ?_
    refine congrArg₂ (· * ·) ?_ ?_
    · refine (shapeCast_apply _ shapeCasts_S16x64x512_S1024x512 (ix2 n k)
        (ix3 (⟨n.val / 64, by omega⟩ : Fin 16) (⟨n.val % 64, by omega⟩ : Fin 64) k) ?_).trans ?_
      · rw [Shape.rowMajor_val_three, Shape.rowMajor_val_two]
        show (n.val / 64 * 64 + n.val % 64) * 512 + k.val = n.val * 512 + k.val
        omega
      · exact shapeCast_1abc_abc_apply Xt shapeCasts_S1x16x64x512_S16x64x512 _ _ _
    · exact congrFun (shapeCast_self W shapeCasts_S512x384_S512x384) (ix2 k j)
  · refine (broadcastTo_1b_ab_apply _ broadcasts_S1x384_S1024x384 n j).trans ?_
    exact congrFun (shapeCast_self B shapeCasts_S1x384_S1x384) (ix2 0 j)

/-- The fused map at the pixel of image row r and column w of the tile. -/
theorem pay5_px (W : Vec Ideal S512x384 .f32) (B : Vec Ideal S1x384 .f32) (Xt : Vec Ideal S1x16x64x512 .f32)
    (r : Fin 16) (w : Fin 64) (j : Fin 384) :
    k0_pay5 (k0_pay1 W) (k0_pay2 B) Xt (ix2 (⟨r.val * 64 + w.val, by omega⟩ : Fin 1024) j)
      = affine (fun k => Xt (ix4 0 r w k)) (fun k => W (ix2 k j)) (B (ix2 0 j)) := by
  have hr : (⟨(r.val * 64 + w.val) / 64, by omega⟩ : Fin 16) = r :=
    Fin.ext (by show (r.val * 64 + w.val) / 64 = r.val; omega)
  have hw : (⟨(r.val * 64 + w.val) % 64, by omega⟩ : Fin 64) = w :=
    Fin.ext (by show (r.val * 64 + w.val) % 64 = w.val; omega)
  refine (pay5_apply W B Xt _ j).trans ?_
  show affine (fun k => Xt (ix4 0 (⟨(r.val * 64 + w.val) / 64, _⟩ : Fin 16) (⟨(r.val * 64 + w.val) % 64, _⟩ : Fin 64) k)) _ _ = _
  rw [hr, hw]

/-- Columns 0 .. 63 of the fused map, regrouped by image row and column: entry (r, w, d) is the map's entry at
    pixel 64 r + w and column d. -/
theorem cols0_apply (X : FVec Ideal S1024x384 .f32) (r : Fin 16) (w : Fin 64) (d : Fin 64) :
    shapeCast S16x64x64 (extractStridedSlice S1024x64 ![0, 0] X slices_S1024x384_o0_0_S1024x64)
        shapeCasts_S1024x64_S16x64x64 (ix3 r w d)
      = X (ix2 (⟨r.val * 64 + w.val, by omega⟩ : Fin 1024) (⟨d.val, by omega⟩ : Fin 384)) := by
  refine (shapeCast_apply _ shapeCasts_S1024x64_S16x64x64 (ix3 r w d)
    (ix2 (⟨r.val * 64 + w.val, by omega⟩ : Fin 1024) d) ?_).trans ?_
  · rewrite [Shape.rowMajor_val_two, Shape.rowMajor_val_three]
    show (r.val * 64 + w.val) * 64 + d.val = (r.val * 64 + w.val) * 64 + d.val
    rfl
  · exact slice2_axis1_apply 0 X slices_S1024x384_o0_0_S1024x64 _ d _ (Nat.zero_add _).symm

/-- Columns 64 .. 127 of the fused map, regrouped by image row and column: entry (r, w, d) is the map's entry at
    pixel 64 r + w and column 64 + d. -/
theorem cols64_apply (X : FVec Ideal S1024x384 .f32) (r : Fin 16) (w : Fin 64) (d : Fin 64) :
    shapeCast S16x64x64 (extractStridedSlice S1024x64 ![0, 64] X slices_S1024x384_o0_64_S1024x64)
        shapeCasts_S1024x64_S16x64x64 (ix3 r w d)
      = X (ix2 (⟨r.val * 64 + w.val, by omega⟩ : Fin 1024) (⟨64 + d.val, by omega⟩ : Fin 384)) := by
  refine (shapeCast_apply _ shapeCasts_S1024x64_S16x64x64 (ix3 r w d)
    (ix2 (⟨r.val * 64 + w.val, by omega⟩ : Fin 1024) d) ?_).trans ?_
  · rewrite [Shape.rowMajor_val_two, Shape.rowMajor_val_three]
    show (r.val * 64 + w.val) * 64 + d.val = (r.val * 64 + w.val) * 64 + d.val
    rfl
  · exact slice2_axis1_apply 64 X slices_S1024x384_o0_64_S1024x64 _ d _ rfl

/-- Columns 128 .. 383 of the fused map, regrouped by image row and column: entry (r, w, d) is the map's entry at
    pixel 64 r + w and column 128 + d. -/
theorem cols128_apply (X : FVec Ideal S1024x384 .f32) (r : Fin 16) (w : Fin 64) (d : Fin 256) :
    shapeCast S16x64x256 (extractStridedSlice S1024x256 ![0, 128] X slices_S1024x384_o0_128_S1024x256)
        shapeCasts_S1024x256_S16x64x256 (ix3 r w d)
      = X (ix2 (⟨r.val * 64 + w.val, by omega⟩ : Fin 1024) (⟨128 + d.val, by omega⟩ : Fin 384)) := by
  refine (shapeCast_apply _ shapeCasts_S1024x256_S16x64x256 (ix3 r w d)
    (ix2 (⟨r.val * 64 + w.val, by omega⟩ : Fin 1024) d) ?_).trans ?_
  · rewrite [Shape.rowMajor_val_two, Shape.rowMajor_val_three]
    show (r.val * 64 + w.val) * 256 + d.val = (r.val * 64 + w.val) * 256 + d.val
    rfl
  · exact slice2_axis1_apply 128 X slices_S1024x384_o0_128_S1024x256 _ d _ rfl

end Cert.KernelIdeal.PayValue

end
-- ==== Proof.PayPool.lean ====
/-
  The 2 x 2 max-pooling of the key and value features of one tile, read at an index.
  The kernel regroups the 16 x 64 pixels of a tile as 8 x 2 x 32 x 2 (pooled row, row within the square, pooled column,
  column within the square) and takes the maximum over the two inner axes, one after the other, each from minus
  infinity. Minus infinity is the least extended real, so each maximum is a supremum over two entries, and the two
  together are the supremum over the four pixels of the square.
-/
import proofs.«110549_j51281909514278_2_alg».proof.Proof.Gen.KernelIdeal.Skeleton
import proofs.«110549_j51281909514278_2_alg».proof.Proof.Spec
import proofs.«110549_j51281909514278_2_alg».proof.Proof.PayMaps
import Idealize.ShloMosaic.Lib.ValueLayout
import Idealize.ShloMosaic.PureOps.Ideal.Laws

noncomputable section

open scoped BigOperators

namespace Cert.KernelIdeal.PayValue

open Cert.KernelIdeal Cert.KernelIdeal.Gen Idealize.ShloMosaic Idealize.ShloMosaic.ValueIdx Cert.Spec

/-- The maximum over the fourth axis (the two pixels of a pooled column) from minus infinity, read at an index: the
    larger of the two entries. -/
theorem maxAxis3_64_apply (Z : FVec Ideal S8x2x32x2x64 .f32) (p : Fin 8) (a : Fin 2) (q : Fin 32) (d : Fin 64) :
    multiReduction (F := Ideal) .maximumf [3] S8x2x32x64 Z 0xFF800000#32
        reduces_S8x2x32x2x64_S8x2x32x64 (.inl rfl) rfl (ix4 p a q d)
      = (Finset.univ : Finset (Fin 2)).sup fun e => Z (ix5 p a q e d) := by
  refine (Ideal.multiReduction_maximumf_single _ _ _ _ _ (ix4 p a q d)).trans ?_
  refine (congrArg (fun z : EReal => Finset.fold max z _ _) ofBits_neg_inf).trans ?_
  refine (fold_max_bot _ _).trans ?_
  refine Finset.sup_congr rfl fun (e : Fin 2) _ => ?_
  exact congrArg Z (funext fun ax => Fin.ext (by
    match ax with
    | ⟨0, _⟩ => rfl
    | ⟨1, _⟩ => rfl
    | ⟨2, _⟩ => rfl
    | ⟨3, _⟩ => rfl
    | ⟨4, _⟩ => rfl))

/-- The maximum over the second axis (the two image rows of a pooled row) from minus infinity, read at an index. -/
theorem maxAxis1_64_apply (Z : FVec Ideal S8x2x32x64 .f32) (p : Fin 8) (q : Fin 32) (d : Fin 64) :
    multiReduction (F := Ideal) .maximumf [1] S8x32x64 Z 0xFF800000#32
        reduces_S8x2x32x64_S8x32x64 (.inl rfl) rfl (ix3 p q d)
      = (Finset.univ : Finset (Fin 2)).sup fun a => Z (ix4 p a q d) := by
  refine (Ideal.multiReduction_maximumf_single _ _ _ _ _ (ix3 p q d)).trans ?_
  refine (congrArg (fun z : EReal => Finset.fold max z _ _) ofBits_neg_inf).trans ?_
  refine (fold_max_bot _ _).trans ?_
  refine Finset.sup_congr rfl fun (a : Fin 2) _ => ?_
  exact congrArg Z (funext fun ax => Fin.ext (by
    match ax with
    | ⟨0, _⟩ => rfl
    | ⟨1, _⟩ => rfl
    | ⟨2, _⟩ => rfl
    | ⟨3, _⟩ => rfl))

/-- Features regrouped by image row and column, then 2 x 2 max-pooled, axis by axis, from minus infinity: the largest
    of the four pixels of the square, at feature d (here over 64 features). -/
theorem pool64_apply (Y : FVec Ideal S16x64x64 .f32) (p : Fin 8) (q : Fin 32) (d : Fin 64) :
    multiReduction (F := Ideal) .maximumf [1] S8x32x64
        (multiReduction (F := Ideal) .maximumf [3] S8x2x32x64
          (shapeCast S8x2x32x2x64 Y shapeCasts_S16x64x64_S8x2x32x2x64) 0xFF800000#32
          reduces_S8x2x32x2x64_S8x2x32x64 (.inl rfl) rfl)
        0xFF800000#32 reduces_S8x2x32x64_S8x32x64 (.inl rfl) rfl (ix3 p q d)
      = pool4 fun a e => Y (ix3 (⟨2 * p.val + a.val, by omega⟩ : Fin 16) (⟨2 * q.val + e.val, by omega⟩ : Fin 64) d) := by
  refine (maxAxis1_64_apply _ p q d).trans ?_
  unfold pool4
  rw [← Finset.univ_product_univ, Finset.sup_product_left]
  refine Finset.sup_congr rfl fun (a : Fin 2) _ => ?_
  refine (maxAxis3_64_apply _ p a q d).trans ?_
  refine Finset.sup_congr rfl fun (e : Fin 2) _ => ?_
  refine shapeCast_apply Y shapeCasts_S16x64x64_S8x2x32x2x64 (ix5 p a q e d)
    (ix3 (⟨2 * p.val + a.val, by omega⟩ : Fin 16) (⟨2 * q.val + e.val, by omega⟩ : Fin 64) d) ?_
  rw [Shape.rowMajor_val_three, Shape.rowMajor_val_five]
  show ((2 * p.val + a.val) * 64 + (2 * q.val + e.val)) * 64 + d.val = ((((p.val * 2 + a.val) * 32 + q.val) * 2 + e.val) * 64 + d.val)
  omega

/-- The maximum over the fourth axis (the two pixels of a pooled column) from minus infinity, read at an index: the
    larger of the two entries. -/
theorem maxAxis3_256_apply (Z : FVec Ideal S8x2x32x2x256 .f32) (p : Fin 8) (a : Fin 2) (q : Fin 32) (d : Fin 256) :
    multiReduction (F := Ideal) .maximumf [3] S8x2x32x256 Z 0xFF800000#32
        reduces_S8x2x32x2x256_S8x2x32x256 (.inl rfl) rfl (ix4 p a q d)
      = (Finset.univ : Finset (Fin 2)).sup fun e => Z (ix5 p a q e d) := by
  refine (Ideal.multiReduction_maximumf_single _ _ _ _ _ (ix4 p a q d)).trans ?_
  refine (congrArg (fun z : EReal => Finset.fold max z _ _) ofBits_neg_inf).trans ?_
  refine (fold_max_bot _ _).trans ?_
  refine Finset.sup_congr rfl fun (e : Fin 2) _ => ?_
  exact congrArg Z (funext fun ax => Fin.ext (by
    match ax with
    | ⟨0, _⟩ => rfl
    | ⟨1, _⟩ => rfl
    | ⟨2, _⟩ => rfl
    | ⟨3, _⟩ => rfl
    | ⟨4, _⟩ => rfl))

/-- The maximum over the second axis (the two image rows of a pooled row) from minus infinity, read at an index. -/
theorem maxAxis1_256_apply (Z : FVec Ideal S8x2x32x256 .f32) (p : Fin 8) (q : Fin 32) (d : Fin 256) :
    multiReduction (F := Ideal) .maximumf [1] S8x32x256 Z 0xFF800000#32
        reduces_S8x2x32x256_S8x32x256 (.inl rfl) rfl (ix3 p q d)
      = (Finset.univ : Finset (Fin 2)).sup fun a => Z (ix4 p a q d) := by
  refine (Ideal.multiReduction_maximumf_single _ _ _ _ _ (ix3 p q d)).trans ?_
  refine (congrArg (fun z : EReal => Finset.fold max z _ _) ofBits_neg_inf).trans ?_
  refine (fold_max_bot _ _).trans ?_
  refine Finset.sup_congr rfl fun (a : Fin 2) _ => ?_
  exact congrArg Z (funext fun ax => Fin.ext (by
    match ax with
    | ⟨0, _⟩ => rfl
    | ⟨1, _⟩ => rfl
    | ⟨2, _⟩ => rfl
    | ⟨3, _⟩ => rfl))

/-- Features regrouped by image row and column, then 2 x 2 max-pooled, axis by axis, from minus infinity: the largest
    of the four pixels of the square, at feature d (here over 256 features). -/
theorem pool256_apply (Y : FVec Ideal S16x64x256 .f32) (p : Fin 8) (q : Fin 32) (d : Fin 256) :
    multiReduction (F := Ideal) .maximumf [1] S8x32x256
        (multiReduction (F := Ideal) .maximumf [3] S8x2x32x256
          (shapeCast S8x2x32x2x256 Y shapeCasts_S16x64x256_S8x2x32x2x256) 0xFF800000#32
          reduces_S8x2x32x2x256_S8x2x32x256 (.inl rfl) rfl)
        0xFF800000#32 reduces_S8x2x32x256_S8x32x256 (.inl rfl) rfl (ix3 p q d)
      = pool4 fun a e => Y (ix3 (⟨2 * p.val + a.val, by omega⟩ : Fin 16) (⟨2 * q.val + e.val, by omega⟩ : Fin 64) d) := by
  refine (maxAxis1_256_apply _ p q d).trans ?_
  unfold pool4
  rw [← Finset.univ_product_univ, Finset.sup_product_left]
  refine Finset.sup_congr rfl fun (a : Fin 2) _ => ?_
  refine (maxAxis3_256_apply _ p a q d).trans ?_
  refine Finset.sup_congr rfl fun (e : Fin 2) _ => ?_
  refine shapeCast_apply Y shapeCasts_S16x64x256_S8x2x32x2x256 (ix5 p a q e d)
    (ix3 (⟨2 * p.val + a.val, by omega⟩ : Fin 16) (⟨2 * q.val + e.val, by omega⟩ : Fin 64) d) ?_
  rw [Shape.rowMajor_val_three, Shape.rowMajor_val_five]
  show ((2 * p.val + a.val) * 64 + (2 * q.val + e.val)) * 256 + d.val = ((((p.val * 2 + a.val) * 32 + q.val) * 2 + e.val) * 256 + d.val)
  omega

/-- The pooled key features the kernel keeps for a tile: at pooled position (p, q) and feature d, the largest over the
    2 x 2 square of pixels of the affine form with column d of the fused weights and bias. -/
theorem pay6_apply (W : Vec Ideal S512x384 .f32) (B : Vec Ideal S1x384 .f32) (Xt : Vec Ideal S1x16x64x512 .f32)
    (p : Fin 8) (q : Fin 32) (d : Fin 64) :
    k0_pay6 (k0_pay1 W) (k0_pay2 B) Xt (ix3 p q d)
      = pool4 fun a e => affine
          (fun k => Xt (ix4 0 (⟨2 * p.val + a.val, by omega⟩ : Fin 16) (⟨2 * q.val + e.val, by omega⟩ : Fin 64) k))
          (fun k => W (ix2 k (⟨d.val, by omega⟩ : Fin 384)))
          (B (ix2 0 (⟨d.val, by omega⟩ : Fin 384))) := by
  unfold k0_pay6
  refine (congrFun (shapeCast_self _ shapeCasts_S8x32x64_S8x32x64) (ix3 p q d)).trans ?_
  refine (truncf_apply _ bitsLt_bf16_f32 (ix3 p q d)).trans ?_
  refine (pool64_apply _ p q d).trans ?_
  refine congrArg pool4 (funext fun a => funext fun e => ?_)
  refine (cols0_apply _ _ _ d).trans ?_
  exact pay5_px W B Xt _ _ _

/-- The pooled value features the kernel keeps for a tile: at pooled position (p, q) and feature e', the largest over the
    2 x 2 square of pixels of the affine form with column 128 + e' of the fused weights and bias. -/
theorem pay7_apply (W : Vec Ideal S512x384 .f32) (B : Vec Ideal S1x384 .f32) (Xt : Vec Ideal S1x16x64x512 .f32)
    (p : Fin 8) (q : Fin 32) (d : Fin 256) :
    k0_pay7 (k0_pay1 W) (k0_pay2 B) Xt (ix3 p q d)
      = pool4 fun a e => affine
          (fun k => Xt (ix4 0 (⟨2 * p.val + a.val, by omega⟩ : Fin 16) (⟨2 * q.val + e.val, by omega⟩ : Fin 64) k))
          (fun k => W (ix2 k (⟨128 + d.val, by omega⟩ : Fin 384)))
          (B (ix2 0 (⟨128 + d.val, by omega⟩ : Fin 384))) := by
  unfold k0_pay7
  refine (congrFun (shapeCast_self _ shapeCasts_S8x32x256_S8x32x256) (ix3 p q d)).trans ?_
  refine (truncf_apply _ bitsLt_bf16_f32 (ix3 p q d)).trans ?_
  refine (pool256_apply _ p q d).trans ?_
  refine congrArg pool4 (funext fun a => funext fun e => ?_)
  refine (cols128_apply _ _ _ d).trans ?_
  exact pay5_px W B Xt _ _ _

end Cert.KernelIdeal.PayValue

end
-- ==== Proof.PayQuery.lean ====
/-
  The query features of one tile, read at an index: columns 64 .. 127 of the fused map, regrouped by image row and
  column, kept un-pooled.
-/
import proofs.«110549_j51281909514278_2_alg».proof.Proof.Gen.KernelIdeal.Skeleton
import proofs.«110549_j51281909514278_2_alg».proof.Proof.Spec
import proofs.«110549_j51281909514278_2_alg».proof.Proof.PayMaps
import Idealize.ShloMosaic.Lib.ValueLayout
import Idealize.ShloMosaic.PureOps.Ideal.Laws

noncomputable section

open scoped BigOperators

namespace Cert.KernelIdeal.PayValue

open Cert.KernelIdeal Cert.KernelIdeal.Gen Idealize.ShloMosaic Idealize.ShloMosaic.ValueIdx Cert.Spec

/-- The query features the kernel keeps for a tile: at the pixel of image row r and column w and feature d, the affine
    form of the pixel's channels with column 64 + d of the fused weights and bias. -/
theorem pay3_pay8_apply (W : Vec Ideal S512x384 .f32) (B : Vec Ideal S1x384 .f32) (Xt : Vec Ideal S1x16x64x512 .f32)
    (r : Fin 16) (w : Fin 64) (d : Fin 64) :
    k0_pay3 (k0_pay8 (k0_pay1 W) (k0_pay2 B) Xt) (ix3 r w d)
      = affine (fun k => Xt (ix4 0 r w k)) (fun k => W (ix2 k (⟨64 + d.val, by omega⟩ : Fin 384)))
          (B (ix2 0 (⟨64 + d.val, by omega⟩ : Fin 384))) := by
  unfold k0_pay3 k0_pay8
  refine (congrFun (shapeCast_self _ shapeCasts_S16x64x64_S16x64x64) (ix3 r w d)).trans ?_
  refine (truncf_apply _ bitsLt_bf16_f32 (ix3 r w d)).trans ?_
  refine (cols64_apply _ r w d).trans ?_
  exact pay5_px W B Xt r w _

end Cert.KernelIdeal.PayValue

end
-- ==== Proof.PayDots.lean ====
/-
  The three matrix products of the attention tile, each read at an index as a finite sum over the contracted coordinate:
  scores (queries times pooled keys, the keys used transposed), the mix (weights times pooled values) and the output
  map (mix times the output weights). Each accumulates into zero, and at the extended reals nothing is rounded.
-/
import proofs.«110549_j51281909514278_2_alg».proof.Proof.Gen.KernelIdeal.Skeleton
import proofs.«110549_j51281909514278_2_alg».proof.Proof.Spec
import Idealize.ShloMosaic.Lib.ValueLayout
import Idealize.ShloMosaic.PureOps.Ideal.Laws

noncomputable section

open scoped BigOperators

namespace Cert.KernelIdeal.PayValue

open Cert.KernelIdeal Cert.KernelIdeal.Gen Idealize.ShloMosaic Idealize.ShloMosaic.ValueIdx Cert.Spec

theorem mm2_lhs_nc (i : S256x1024.Idx) (q : dot_S256x64_S1024x64_S256x1024_1_1_0_0_n_n.contr.Idx) :
    (dot_S256x64_S1024x64_S256x1024_1_1_0_0_n_n.lhsIdx i q 0).val = (i 0).val := by
  unfold DotDims.lhsIdx
  rw [dif_neg (show ¬(0 : Fin S256x64.rank) ∈ dot_S256x64_S1024x64_S256x1024_1_1_0_0_n_n.lhsBatch by decide), dif_pos (show (0 : Fin S256x64.rank) ∈ dot_S256x64_S1024x64_S256x1024_1_1_0_0_n_n.lhsNonContracting by decide)]
  rfl
theorem mm2_rhs_nc (i : S256x1024.Idx) (q : dot_S256x64_S1024x64_S256x1024_1_1_0_0_n_n.contr.Idx) :
    (dot_S256x64_S1024x64_S256x1024_1_1_0_0_n_n.rhsIdx i q 0).val = (i 1).val := by
  unfold DotDims.rhsIdx
  rw [dif_neg (show ¬(0 : Fin S1024x64.rank) ∈ dot_S256x64_S1024x64_S256x1024_1_1_0_0_n_n.rhsBatch by decide), dif_pos (show (0 : Fin S1024x64.rank) ∈ dot_S256x64_S1024x64_S256x1024_1_1_0_0_n_n.rhsNonContracting by decide)]
  rfl
theorem mm2_lhs_c (i : S256x1024.Idx) (q : dot_S256x64_S1024x64_S256x1024_1_1_0_0_n_n.contr.Idx) :
    (dot_S256x64_S1024x64_S256x1024_1_1_0_0_n_n.lhsIdx i q 1).val = (q ⟨0, by decide⟩).val :=
  dot_S256x64_S1024x64_S256x1024_1_1_0_0_n_n.lhsIdx_val_of_single rfl i q
theorem mm2_rhs_c (i : S256x1024.Idx) (q : dot_S256x64_S1024x64_S256x1024_1_1_0_0_n_n.contr.Idx) :
    (dot_S256x64_S1024x64_S256x1024_1_1_0_0_n_n.rhsIdx i q 1).val = (q ⟨0, by decide⟩).val :=
  dot_S256x64_S1024x64_S256x1024_1_1_0_0_n_n.rhsIdx_val_of_single rfl i q

/-- The product into a zero accumulator read at (m, n): the sum over the 64 contracted coordinates. -/
theorem mm2_apply (L : FVec Ideal S256x64 .bf16) (R : FVec Ideal S1024x64 .bf16) (m : Fin 256) (n : Fin 1024) :
    matmul dot_S256x64_S1024x64_S256x1024_1_1_0_0_n_n none L R (constant (F := Ideal) S256x1024 .f32 0x00000000#32) (ix2 m n)
      = ∑ k : Fin 64, L (ix2 m k) * R (ix2 n k) := by
  refine (Ideal.matmul_constant_zero_apply dot_S256x64_S1024x64_S256x1024_1_1_0_0_n_n none L R (ix2 m n)).trans ?_
  rw [← Equiv.sum_comp (contrEquiv1 dot_S256x64_S1024x64_S256x1024_1_1_0_0_n_n 64 rfl rfl).symm]
  refine Finset.sum_congr rfl fun k _ => ?_
  have hk := contrEquiv1_symm_val dot_S256x64_S1024x64_S256x1024_1_1_0_0_n_n 64 rfl rfl k
  have el : dot_S256x64_S1024x64_S256x1024_1_1_0_0_n_n.lhsIdx (ix2 m n) ((contrEquiv1 dot_S256x64_S1024x64_S256x1024_1_1_0_0_n_n 64 rfl rfl).symm k) = ix2 m k := funext fun a => Fin.ext (by
    match a with
    | ⟨0, _⟩ => exact mm2_lhs_nc _ _
    | ⟨1, _⟩ => exact (mm2_lhs_c _ _).trans hk)
  have er : dot_S256x64_S1024x64_S256x1024_1_1_0_0_n_n.rhsIdx (ix2 m n) ((contrEquiv1 dot_S256x64_S1024x64_S256x1024_1_1_0_0_n_n 64 rfl rfl).symm k) = ix2 n k := funext fun a => Fin.ext (by
    match a with
    | ⟨0, _⟩ => exact mm2_rhs_nc _ _
    | ⟨1, _⟩ => exact (mm2_rhs_c _ _).trans hk)
  rw [el, er]

theorem mm3_lhs_nc (i : S256x256.Idx) (q : dot_S256x1024_S1024x256_S256x256_1_0_0_1_n_n.contr.Idx) :
    (dot_S256x1024_S1024x256_S256x256_1_0_0_1_n_n.lhsIdx i q 0).val = (i 0).val := by
  unfold DotDims.lhsIdx
  rw [dif_neg (show ¬(0 : Fin S256x1024.rank) ∈ dot_S256x1024_S1024x256_S256x256_1_0_0_1_n_n.lhsBatch by decide), dif_pos (show (0 : Fin S256x1024.rank) ∈ dot_S256x1024_S1024x256_S256x256_1_0_0_1_n_n.lhsNonContracting by decide)]
  rfl
theorem mm3_rhs_nc (i : S256x256.Idx) (q : dot_S256x1024_S1024x256_S256x256_1_0_0_1_n_n.contr.Idx) :
    (dot_S256x1024_S1024x256_S256x256_1_0_0_1_n_n.rhsIdx i q 1).val = (i 1).val := by
  unfold DotDims.rhsIdx
  rw [dif_neg (show ¬(1 : Fin S1024x256.rank) ∈ dot_S256x1024_S1024x256_S256x256_1_0_0_1_n_n.rhsBatch by decide), dif_pos (show (1 : Fin S1024x256.rank) ∈ dot_S256x1024_S1024x256_S256x256_1_0_0_1_n_n.rhsNonContracting by decide)]
  rfl
theorem mm3_lhs_c (i : S256x256.Idx) (q : dot_S256x1024_S1024x256_S256x256_1_0_0_1_n_n.contr.Idx) :
    (dot_S256x1024_S1024x256_S256x256_1_0_0_1_n_n.lhsIdx i q 1).val = (q ⟨0, by decide⟩).val :=
  dot_S256x1024_S1024x256_S256x256_1_0_0_1_n_n.lhsIdx_val_of_single rfl i q
theorem mm3_rhs_c (i : S256x256.Idx) (q : dot_S256x1024_S1024x256_S256x256_1_0_0_1_n_n.contr.Idx) :
    (dot_S256x1024_S1024x256_S256x256_1_0_0_1_n_n.rhsIdx i q 0).val = (q ⟨0, by decide⟩).val :=
  dot_S256x1024_S1024x256_S256x256_1_0_0_1_n_n.rhsIdx_val_of_single rfl i q

/-- The product into a zero accumulator read at (m, n): the sum over the 1024 contracted coordinates. -/
theorem mm3_apply (L : FVec Ideal S256x1024 .bf16) (R : FVec Ideal S1024x256 .bf16) (m : Fin 256) (n : Fin 256) :
    matmul dot_S256x1024_S1024x256_S256x256_1_0_0_1_n_n none L R (constant (F := Ideal) S256x256 .f32 0x00000000#32) (ix2 m n)
      = ∑ k : Fin 1024, L (ix2 m k) * R (ix2 k n) := by
  refine (Ideal.matmul_constant_zero_apply dot_S256x1024_S1024x256_S256x256_1_0_0_1_n_n none L R (ix2 m n)).trans ?_
  rw [← Equiv.sum_comp (contrEquiv1 dot_S256x1024_S1024x256_S256x256_1_0_0_1_n_n 1024 rfl rfl).symm]
  refine Finset.sum_congr rfl fun k _ => ?_
  have hk := contrEquiv1_symm_val dot_S256x1024_S1024x256_S256x256_1_0_0_1_n_n 1024 rfl rfl k
  have el : dot_S256x1024_S1024x256_S256x256_1_0_0_1_n_n.lhsIdx (ix2 m n) ((contrEquiv1 dot_S256x1024_S1024x256_S256x256_1_0_0_1_n_n 1024 rfl rfl).symm k) = ix2 m k := funext fun a => Fin.ext (by
    match a with
    | ⟨0, _⟩ => exact mm3_lhs_nc _ _
    | ⟨1, _⟩ => exact (mm3_lhs_c _ _).trans hk)
  have er : dot_S256x1024_S1024x256_S256x256_1_0_0_1_n_n.rhsIdx (ix2 m n) ((contrEquiv1 dot_S256x1024_S1024x256_S256x256_1_0_0_1_n_n 1024 rfl rfl).symm k) = ix2 k n := funext fun a => Fin.ext (by
    match a with
    | ⟨1, _⟩ => exact mm3_rhs_nc _ _
    | ⟨0, _⟩ => exact (mm3_rhs_c _ _).trans hk)
  rw [el, er]

theorem mm4_lhs_nc (i : S256x512.Idx) (q : dot_S256x256_S256x512_S256x512_1_0_0_1_n_n.contr.Idx) :
    (dot_S256x256_S256x512_S256x512_1_0_0_1_n_n.lhsIdx i q 0).val = (i 0).val := by
  unfold DotDims.lhsIdx
  rw [dif_neg (show ¬(0 : Fin S256x256.rank) ∈ dot_S256x256_S256x512_S256x512_1_0_0_1_n_n.lhsBatch by decide), dif_pos (show (0 : Fin S256x256.rank) ∈ dot_S256x256_S256x512_S256x512_1_0_0_1_n_n.lhsNonContracting by decide)]
  rfl
theorem mm4_rhs_nc (i : S256x512.Idx) (q : dot_S256x256_S256x512_S256x512_1_0_0_1_n_n.contr.Idx) :
    (dot_S256x256_S256x512_S256x512_1_0_0_1_n_n.rhsIdx i q 1).val = (i 1).val := by
  unfold DotDims.rhsIdx
  rw [dif_neg (show ¬(1 : Fin S256x512.rank) ∈ dot_S256x256_S256x512_S256x512_1_0_0_1_n_n.rhsBatch by decide), dif_pos (show (1 : Fin S256x512.rank) ∈ dot_S256x256_S256x512_S256x512_1_0_0_1_n_n.rhsNonContracting by decide)]
  rfl
theorem mm4_lhs_c (i : S256x512.Idx) (q : dot_S256x256_S256x512_S256x512_1_0_0_1_n_n.contr.Idx) :
    (dot_S256x256_S256x512_S256x512_1_0_0_1_n_n.lhsIdx i q 1).val = (q ⟨0, by decide⟩).val :=
  dot_S256x256_S256x512_S256x512_1_0_0_1_n_n.lhsIdx_val_of_single rfl i q
theorem mm4_rhs_c (i : S256x512.Idx) (q : dot_S256x256_S256x512_S256x512_1_0_0_1_n_n.contr.Idx) :
    (dot_S256x256_S256x512_S256x512_1_0_0_1_n_n.rhsIdx i q 0).val = (q ⟨0, by decide⟩).val :=
  dot_S256x256_S256x512_S256x512_1_0_0_1_n_n.rhsIdx_val_of_single rfl i q

/-- The product into a zero accumulator read at (m, n): the sum over the 256 contracted coordinates. -/
theorem mm4_apply (L : FVec Ideal S256x256 .bf16) (R : FVec Ideal S256x512 .bf16) (m : Fin 256) (n : Fin 512) :
    matmul dot_S256x256_S256x512_S256x512_1_0_0_1_n_n none L R (constant (F := Ideal) S256x512 .f32 0x00000000#32) (ix2 m n)
      = ∑ k : Fin 256, L (ix2 m k) * R (ix2 k n) := by
  refine (Ideal.matmul_constant_zero_apply dot_S256x256_S256x512_S256x512_1_0_0_1_n_n none L R (ix2 m n)).trans ?_
  rw [← Equiv.sum_comp (contrEquiv1 dot_S256x256_S256x512_S256x512_1_0_0_1_n_n 256 rfl rfl).symm]
  refine Finset.sum_congr rfl fun k _ => ?_
  have hk := contrEquiv1_symm_val dot_S256x256_S256x512_S256x512_1_0_0_1_n_n 256 rfl rfl k
  have el : dot_S256x256_S256x512_S256x512_1_0_0_1_n_n.lhsIdx (ix2 m n) ((contrEquiv1 dot_S256x256_S256x512_S256x512_1_0_0_1_n_n 256 rfl rfl).symm k) = ix2 m k := funext fun a => Fin.ext (by
    match a with
    | ⟨0, _⟩ => exact mm4_lhs_nc _ _
    | ⟨1, _⟩ => exact (mm4_lhs_c _ _).trans hk)
  have er : dot_S256x256_S256x512_S256x512_1_0_0_1_n_n.rhsIdx (ix2 m n) ((contrEquiv1 dot_S256x256_S256x512_S256x512_1_0_0_1_n_n 256 rfl rfl).symm k) = ix2 k n := funext fun a => Fin.ext (by
    match a with
    | ⟨1, _⟩ => exact mm4_rhs_nc _ _
    | ⟨0, _⟩ => exact (mm4_rhs_c _ _).trans hk)
  rw [el, er]

end Cert.KernelIdeal.PayValue

end
-- ==== Proof.LibLayout.lean ====
/-
  Two reads of a broadcast at an index, over literal two-axis shapes.
  A column of shape [a, 1] broadcast along the second axis to [a, b] holds, at (p, c), the column's entry of row p: the
  second coordinate is forgotten. This is the companion of the row case (a [1, b] row broadcast to [a, b] holds at (p, c)
  the row's entry c), which the library states.
-/
import Idealize.ShloMosaic.Lib.ValueIdx
import Idealize.ShloMosaic.Lib.ValueLayout
import Idealize.ShloMosaic.Lib.Pipeline.Value

namespace Cert.LibLayout

open Idealize.ShloMosaic Idealize.ShloMosaic.ValueIdx

variable {α : Type}

/-- A column [a, 1] broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibLayout
-- ==== Proof.PayAttend.lean ====
/-
  The attention of one tile of four image rows, read at an index.
  For each of the tile's 256 pixels the kernel scores the pixel's query features against the 1024 pooled keys, takes the
  softmax of the scores along the row as exp (s - max s) / sum exp (s - max s) (the maximum from minus infinity, the sum
  from zero), mixes the pooled values by the weights, maps the mix to 512 channels, adds the output bias, scales by
  gamma and adds the pixel's own channels. At the extended reals no step rounds, the maximum from minus infinity is a
  supremum and each product into a zero accumulator is a finite sum, so the stored entry is the specification's
  attention output of that pixel.
-/
import proofs.«110549_j51281909514278_2_alg».proof.Proof.Gen.KernelIdeal.Skeleton
import proofs.«110549_j51281909514278_2_alg».proof.Proof.Spec
import proofs.«110549_j51281909514278_2_alg».proof.Proof.PayDots
import proofs.«110549_j51281909514278_2_alg».proof.Proof.LibLayout
import Idealize.ShloMosaic.Lib.ValueLayout
import Idealize.ShloMosaic.PureOps.Ideal.Laws

noncomputable section

open scoped BigOperators

namespace Cert.KernelIdeal.PayValue

open Cert.KernelIdeal Cert.KernelIdeal.Gen Idealize.ShloMosaic Idealize.ShloMosaic.ValueIdx Cert.Spec

/-! ## The tile's computation cut into stages

The payload is one chain of operations; the stages below name its intermediate matrices (each a function of the
operands it depends on), and `pay4_eq` says the payload is the chain of the stages, by unfolding. -/

/-- Scores of the tile's 256 pixels against the 1024 pooled positions. -/
def scores (K : Vec Ideal S32x32x64 .bf16) (Gq : Vec Ideal S4x64x64 .bf16) : FVec Ideal S256x1024 .f32 :=
  matmul (φ₁ := .bf16) (φ₂ := .bf16) dot_S256x64_S1024x64_S256x1024_1_1_0_0_n_n none (shapeCast S256x64 Gq shapeCasts_S4x64x64_S256x64)
    (shapeCast S1024x64 K shapeCasts_S32x32x64_S1024x64) (constant S256x1024 .f32 0x00000000#32)

/-- Each row's maximum, from minus infinity. -/
def rowMax (K : Vec Ideal S32x32x64 .bf16) (Gq : Vec Ideal S4x64x64 .bf16) : FVec Ideal S256 .f32 :=
  multiReduction .maximumf [1] S256 (scores K Gq) 0xFF800000#32 reduces_S256x1024_S256 (.inl rfl) rfl

/-- The exponentials of the scores less their row's maximum. -/
def expo (K : Vec Ideal S32x32x64 .bf16) (Gq : Vec Ideal S4x64x64 .bf16) : FVec Ideal S256x1024 .f32 :=
  exp (subf (scores K Gq)
    (broadcastTo S256x1024 (shapeCast S256x1 (rowMax K Gq) shapeCasts_S256_S256x1) broadcasts_S256x1_S256x1024))

/-- Each row's sum of exponentials, from zero. -/
def rowSum (K : Vec Ideal S32x32x64 .bf16) (Gq : Vec Ideal S4x64x64 .bf16) : FVec Ideal S256 .f32 :=
  multiReduction .add [1] S256 (expo K Gq) 0x00000000#32 reduces_S256x1024_S256 (.inl rfl) rfl

/-- The softmax weights. -/
def weights (K : Vec Ideal S32x32x64 .bf16) (Gq : Vec Ideal S4x64x64 .bf16) : FVec Ideal S256x1024 .f32 :=
  divf (expo K Gq)
    (broadcastTo S256x1024 (shapeCast S256x1 (rowSum K Gq) shapeCasts_S256_S256x1) broadcasts_S256x1_S256x1024)

/-- The pooled values mixed by the weights. -/
def mixed (K : Vec Ideal S32x32x64 .bf16) (H : Vec Ideal S32x32x256 .bf16) (Gq : Vec Ideal S4x64x64 .bf16) :
    FVec Ideal S256x256 .f32 :=
  matmul (φ₁ := .bf16) (φ₂ := .bf16) dot_S256x1024_S1024x256_S256x256_1_0_0_1_n_n none (truncf .bf16 (weights K Gq) bitsLt_bf16_f32)
    (shapeCast S1024x256 H shapeCasts_S32x32x256_S1024x256) (constant S256x256 .f32 0x00000000#32)

/-- The tile's result as a 256 x 512 matrix: gamma times the output map of the mix, plus the pixels. -/
def outRows (Wo : Vec Ideal S256x512 .f32) (Bo : Vec Ideal S1x512 .f32) (Gm : Vec Ideal S1x1 .f32)
    (K : Vec Ideal S32x32x64 .bf16) (H : Vec Ideal S32x32x256 .bf16) (Xq : Vec Ideal S1x4x64x512 .f32)
    (Gq : Vec Ideal S4x64x64 .bf16) : FVec Ideal S256x512 .f32 :=
  addf
    (mulf (broadcast S256x512 (extractAt ![0, 0] Gm inpos_S1x1_p0_0))
      (addf
        (matmul (φ₁ := .bf16) (φ₂ := .bf16) dot_S256x256_S256x512_S256x512_1_0_0_1_n_n none (truncf .bf16 (mixed K H Gq) bitsLt_bf16_f32)
          (truncf .bf16 Wo bitsLt_bf16_f32) (constant S256x512 .f32 0x00000000#32))
        (broadcastTo S256x512 (shapeCast S1x512 Bo shapeCasts_S1x512_S1x512) broadcasts_S1x512_S256x512)))
    (shapeCast S256x512 (shapeCast S4x64x512 Xq shapeCasts_S1x4x64x512_S4x64x512) shapeCasts_S4x64x512_S256x512)

/-- The payload is the chain of the stages, reshaped to the stored block. -/
theorem pay4_eq (Wo : Vec Ideal S256x512 .f32) (Bo : Vec Ideal S1x512 .f32) (Gm : Vec Ideal S1x1 .f32)
    (K : Vec Ideal S32x32x64 .bf16) (H : Vec Ideal S32x32x256 .bf16) (Xq : Vec Ideal S1x4x64x512 .f32)
    (Gq : Vec Ideal S4x64x64 .bf16) :
    k0_pay4 Wo Bo Gm K H Xq Gq
      = shapeCast S1x4x64x512 (shapeCast S4x64x512 (outRows Wo Bo Gm K H Xq Gq) shapeCasts_S256x512_S4x64x512)
          shapeCasts_S4x64x512_S1x4x64x512 := rfl

/-! ## Each stage read at an index -/

/-- A score: the inner product of the pixel's query features with the pooled position's key features. -/
theorem scores_apply (K : Vec Ideal S32x32x64 .bf16) (Gq : Vec Ideal S4x64x64 .bf16) (r : Fin 4) (w : Fin 64)
    (m : Fin 1024) :
    scores K Gq (ix2 (⟨r.val * 64 + w.val, by omega⟩ : Fin 256) m)
      = scoreOf (fun d => Gq (ix3 r w d)) (fun m d => K (ix3 (prow m) (pcol m) d)) m := by
  unfold scores scoreOf
  refine (mm2_apply _ _ _ m).trans ?_
  refine Finset.sum_congr rfl fun k _ => ?_
  refine congrArg₂ (· * ·) ?_ ?_
  · refine shapeCast_apply Gq shapeCasts_S4x64x64_S256x64 (ix2 (⟨r.val * 64 + w.val, by omega⟩ : Fin 256) k) (ix3 r w k) ?_
    rewrite [Shape.rowMajor_val_three, Shape.rowMajor_val_two]
    show (r.val * 64 + w.val) * 64 + k.val = (r.val * 64 + w.val) * 64 + k.val
    rfl
  · refine shapeCast_apply K shapeCasts_S32x32x64_S1024x64 (ix2 m k) (ix3 (prow m) (pcol m) k) ?_
    rewrite [Shape.rowMajor_val_three, Shape.rowMajor_val_two]
    show (m.val / 32 * 32 + m.val % 32) * 64 + k.val = m.val * 64 + k.val
    omega

/-- A row's maximum from minus infinity is the supremum of the row. -/
theorem rowMax_apply (K : Vec Ideal S32x32x64 .bf16) (Gq : Vec Ideal S4x64x64 .bf16) (i : Fin 256) :
    rowMax K Gq (ix1 i) = (Finset.univ : Finset (Fin 1024)).sup fun m => scores K Gq (ix2 i m) := by
  unfold rowMax
  refine (Ideal.multiReduction_maximumf_single _ _ _ _ _ (ix1 i)).trans ?_
  refine (congrArg (fun z : EReal => Finset.fold max z _ _) ofBits_neg_inf).trans ?_
  refine (fold_max_bot _ _).trans ?_
  refine Finset.sup_congr rfl fun (m : Fin 1024) _ => ?_
  exact congrArg (scores K Gq) (funext fun ax => Fin.ext (by
    match ax with
    | ⟨0, _⟩ => rfl
    | ⟨1, _⟩ => rfl))

/-- A vector of 256 row values, stood up as a column and repeated along the row: entry (i, m) is value i. -/
theorem column_apply (v : FVec Ideal S256 .f32) (i : Fin 256) (m : Fin 1024) :
    broadcastTo S256x1024 (shapeCast S256x1 v shapeCasts_S256_S256x1) broadcasts_S256x1_S256x1024 (ix2 i m) = v (ix1 i) := by
  refine (Cert.LibLayout.broadcastTo_a1_ab_apply _ broadcasts_S256x1_S256x1024 i m).trans ?_
  refine shapeCast_apply v shapeCasts_S256_S256x1 (ix2 i (0 : Fin 1)) (ix1 i) ?_
  rewrite [Shape.rowMajor_val_one, Shape.rowMajor_val_two]
  show i.val = i.val * 1 + 0
  omega

/-- An exponential: of the score less the supremum of its row. -/
theorem expo_apply (K : Vec Ideal S32x32x64 .bf16) (Gq : Vec Ideal S4x64x64 .bf16) (i : Fin 256) (m : Fin 1024) :
    expo K Gq (ix2 i m)
      = Ideal.exp (scores K Gq (ix2 i m) - (Finset.univ : Finset (Fin 1024)).sup fun m' => scores K Gq (ix2 i m')) := by
  unfold expo
  show Ideal.exp (scores K Gq (ix2 i m) - broadcastTo S256x1024 (shapeCast S256x1 (rowMax K Gq) shapeCasts_S256_S256x1)
    broadcasts_S256x1_S256x1024 (ix2 i m)) = _
  rw [column_apply, rowMax_apply]

/-- A row's sum from zero is the sum of the row. -/
theorem rowSum_apply (K : Vec Ideal S32x32x64 .bf16) (Gq : Vec Ideal S4x64x64 .bf16) (i : Fin 256) :
    rowSum K Gq (ix1 i) = ∑ m : Fin 1024, expo K Gq (ix2 i m) := by
  unfold rowSum
  refine (Ideal.multiReduction_add_single _ _ _ _ _ (ix1 i)).trans ?_
  refine Finset.sum_congr rfl fun (m : Fin 1024) _ => ?_
  exact congrArg (expo K Gq) (funext fun ax => Fin.ext (by
    match ax with
    | ⟨0, _⟩ => rfl
    | ⟨1, _⟩ => rfl))

/-- A weight: the exponential over its row's sum. -/
theorem weights_apply (K : Vec Ideal S32x32x64 .bf16) (Gq : Vec Ideal S4x64x64 .bf16) (i : Fin 256) (m : Fin 1024) :
    weights K Gq (ix2 i m) = Ideal.div (expo K Gq (ix2 i m)) (∑ m' : Fin 1024, expo K Gq (ix2 i m')) := by
  unfold weights
  show Ideal.div (expo K Gq (ix2 i m)) (broadcastTo S256x1024 (shapeCast S256x1 (rowSum K Gq) shapeCasts_S256_S256x1)
    broadcasts_S256x1_S256x1024 (ix2 i m)) = _
  rw [column_apply, rowSum_apply]

/-- The exponential at the pixel of row r and column w of the tile, in the specification's terms. -/
theorem expo_eq (K : Vec Ideal S32x32x64 .bf16) (Gq : Vec Ideal S4x64x64 .bf16) (r : Fin 4) (w : Fin 64) (m : Fin 1024) :
    expo K Gq (ix2 (⟨r.val * 64 + w.val, by omega⟩ : Fin 256) m)
      = exOf (fun d => Gq (ix3 r w d)) (fun m d => K (ix3 (prow m) (pcol m) d)) m := by
  rw [expo_apply]
  unfold exOf
  simp only [scores_apply]

/-- The weight there, in the specification's terms. -/
theorem weights_eq (K : Vec Ideal S32x32x64 .bf16) (Gq : Vec Ideal S4x64x64 .bf16) (r : Fin 4) (w : Fin 64) (m : Fin 1024) :
    weights K Gq (ix2 (⟨r.val * 64 + w.val, by omega⟩ : Fin 256) m)
      = wgtOf (fun d => Gq (ix3 r w d)) (fun m d => K (ix3 (prow m) (pcol m) d)) m := by
  rw [weights_apply]
  unfold wgtOf
  simp only [expo_eq]

/-- The mix there, in the specification's terms. -/
theorem mixed_eq (K : Vec Ideal S32x32x64 .bf16) (H : Vec Ideal S32x32x256 .bf16) (Gq : Vec Ideal S4x64x64 .bf16)
    (r : Fin 4) (w : Fin 64) (e : Fin 256) :
    mixed K H Gq (ix2 (⟨r.val * 64 + w.val, by omega⟩ : Fin 256) e)
      = mixOf (fun d => Gq (ix3 r w d)) (fun m d => K (ix3 (prow m) (pcol m) d))
          (fun m e => H (ix3 (prow m) (pcol m) e)) e := by
  unfold mixed mixOf
  refine (mm3_apply _ _ _ e).trans ?_
  refine Finset.sum_congr rfl fun m _ => ?_
  refine congrArg₂ (· * ·) ?_ ?_
  · exact weights_eq K Gq r w m
  · refine shapeCast_apply H shapeCasts_S32x32x256_S1024x256 (ix2 m e) (ix3 (prow m) (pcol m) e) ?_
    rewrite [Shape.rowMajor_val_three, Shape.rowMajor_val_two]
    show (m.val / 32 * 32 + m.val % 32) * 256 + e.val = m.val * 256 + e.val
    omega

/-- A row of the tile's result at the pixel of row r and column w: the specification's attention output there. -/
theorem outRows_apply (Wo : Vec Ideal S256x512 .f32) (Bo : Vec Ideal S1x512 .f32) (Gm : Vec Ideal S1x1 .f32)
    (K : Vec Ideal S32x32x64 .bf16) (H : Vec Ideal S32x32x256 .bf16) (Xq : Vec Ideal S1x4x64x512 .f32)
    (Gq : Vec Ideal S4x64x64 .bf16) (r : Fin 4) (w : Fin 64) (ch : Fin 512) :
    outRows Wo Bo Gm K H Xq Gq (ix2 (⟨r.val * 64 + w.val, by omega⟩ : Fin 256) ch)
      = attend (fun d => Gq (ix3 r w d)) (fun m d => K (ix3 (prow m) (pcol m) d))
          (fun m e => H (ix3 (prow m) (pcol m) e)) (fun e c => Wo (ix2 e c)) (fun c => Bo (ix2 0 c)) (Gm (ix2 0 0))
          (fun c => Xq (ix4 0 r w c)) ch := by
  unfold outRows attend
  refine (addf_apply _ _ _).trans ?_
  refine congrArg₂ (· + ·) ?_ ?_
  · refine (mulf_apply _ _ _).trans ?_
    refine congrArg₂ (· * ·) ?_ ?_
    · exact congrArg Gm (funext fun ax => Fin.ext (by
        match ax with
        | ⟨0, _⟩ => rfl
        | ⟨1, _⟩ => rfl))
    · refine (addf_apply _ _ _).trans ?_
      refine congrArg₂ (· + ·) ?_ ?_
      · refine (mm4_apply _ _ _ ch).trans ?_
        refine Finset.sum_congr rfl fun e _ => ?_
        exact congrArg (· * Wo (ix2 e ch)) (mixed_eq K H Gq r w e)
      · refine (broadcastTo_1b_ab_apply _ broadcasts_S1x512_S256x512 _ ch).trans ?_
        exact congrFun (shapeCast_self Bo shapeCasts_S1x512_S1x512) (ix2 0 ch)
  · refine (shapeCast_apply _ shapeCasts_S4x64x512_S256x512 (ix2 (⟨r.val * 64 + w.val, by omega⟩ : Fin 256) ch)
      (ix3 r w ch) ?_).trans ?_
    · rewrite [Shape.rowMajor_val_three, Shape.rowMajor_val_two]
      show (r.val * 64 + w.val) * 512 + ch.val = (r.val * 64 + w.val) * 512 + ch.val
      rfl
    · exact shapeCast_1abc_abc_apply Xq shapeCasts_S1x4x64x512_S4x64x512 r w ch

/-- The block the kernel stores for a tile of four image rows: at the pixel of row r and column w and channel ch, the
    specification's attention output of that pixel's query features against the pooled keys and values. -/
theorem pay4_apply (Wo : Vec Ideal S256x512 .f32) (Bo : Vec Ideal S1x512 .f32) (Gm : Vec Ideal S1x1 .f32)
    (K : Vec Ideal S32x32x64 .bf16) (H : Vec Ideal S32x32x256 .bf16) (Xq : Vec Ideal S1x4x64x512 .f32)
    (Gq : Vec Ideal S4x64x64 .bf16) (r : Fin 4) (w : Fin 64) (ch : Fin 512) :
    k0_pay4 Wo Bo Gm K H Xq Gq (ix4 0 r w ch)
      = attend (fun d => Gq (ix3 r w d)) (fun m d => K (ix3 (prow m) (pcol m) d))
          (fun m e => H (ix3 (prow m) (pcol m) e)) (fun e c => Wo (ix2 e c)) (fun c => Bo (ix2 0 c)) (Gm (ix2 0 0))
          (fun c => Xq (ix4 0 r w c)) ch := by
  rw [pay4_eq]
  refine (shapeCast_abc_1abc_apply _ shapeCasts_S4x64x512_S1x4x64x512 0 r w ch).trans ?_
  refine (shapeCast_apply _ shapeCasts_S256x512_S4x64x512 (ix3 r w ch)
    (ix2 (⟨r.val * 64 + w.val, by omega⟩ : Fin 256) ch) ?_).trans ?_
  · rewrite [Shape.rowMajor_val_two, Shape.rowMajor_val_three]
    show (r.val * 64 + w.val) * 512 + ch.val = (r.val * 64 + w.val) * 512 + ch.val
    rfl
  · exact outRows_apply Wo Bo Gm K H Xq Gq r w ch

end Cert.KernelIdeal.PayValue

end
-- ==== Proof.IdealPixel.lean ====
/-
  One grid point's output block at the extended reals, pixel by pixel, in terms of the point's six input blocks alone.

  Reading inside the slabs: the query scratch at pixel (r, w) is the query map of that pixel; the pooled-key and
  pooled-value scratches at pooled position (P, q) are the maps' features pooled over image rows 2P, 2P + 1 and columns
  2q, 2q + 1 (slab k = P / 8 of the scratch comes from image rows [16k, 16k + 16), and 16 (P / 8) + 2 (P % 8) = 2P);
  and the output block at pixel (r, w) is the attention of that pixel's query against all 1024 pooled positions.
-/
import proofs.«110549_j51281909514278_2_alg».proof.Proof.IdealReads
import proofs.«110549_j51281909514278_2_alg».proof.Proof.PayPool
import proofs.«110549_j51281909514278_2_alg».proof.Proof.PayQuery
import proofs.«110549_j51281909514278_2_alg».proof.Proof.PayAttend
import proofs.«110549_j51281909514278_2_alg».proof.Proof.Spec

set_option maxRecDepth 16384

noncomputable section

open scoped BigOperators

namespace Cert.KernelIdeal.Hand

open Cert.KernelIdeal Cert.KernelIdeal.Gen Cert.KernelIdeal.PayValue Cert.Spec
open Idealize.ShloMosaic Idealize.ShloMosaic.ValueIdx

/-- A load of image rows [16k, 16k + 16) at row `r'` of the slab is the image at row `16k + r'`. -/
theorem ld_img16 (x0 : Vec Ideal S1x64x64x512 .f32) (k : Fin k0_t1_loop.trips) (r' : Fin 16) (w : Fin 64) (c : Fin 512)
    (r : Fin 64) (hr : r.val = 16 * k.val + r'.val) :
    View.ld x0 (rImg16 k) (ix4 (0 : Fin 1) r' w c) = x0 (ix4 (0 : Fin 1) r w c) := by
  show x0 ((rImg16 k).idx (ix4 (0 : Fin 1) r' w c)) = _
  refine congrArg x0 (funext fun a => Fin.ext ?_)
  have e := off1_eq k
  match a with
  | ⟨0, _⟩ => show k0_off1 k 0 + 1 * 0 = 0; rw [e]; rfl
  | ⟨1, _⟩ => show k0_off1 k 1 + 1 * r'.val = r.val; rw [e]; show 16 * k.val + 1 * r'.val = r.val; omega
  | ⟨2, _⟩ => show k0_off1 k 2 + 1 * w.val = w.val; rw [e]; show 0 + 1 * w.val = w.val; omega
  | ⟨3, _⟩ => show k0_off1 k 3 + 1 * c.val = c.val; rw [e]; show 0 + 1 * c.val = c.val; omega

/-- A load of image rows [4k, 4k + 4) likewise. -/
theorem ld_img4 (x0 : Vec Ideal S1x64x64x512 .f32) (k : Fin k0_t2_loop.trips) (r' : Fin 4) (w : Fin 64) (c : Fin 512)
    (r : Fin 64) (hr : r.val = 4 * k.val + r'.val) :
    View.ld x0 (rImg4 k) (ix4 (0 : Fin 1) r' w c) = x0 (ix4 (0 : Fin 1) r w c) := by
  show x0 ((rImg4 k).idx (ix4 (0 : Fin 1) r' w c)) = _
  refine congrArg x0 (funext fun a => Fin.ext ?_)
  have e := off5_eq k
  match a with
  | ⟨0, _⟩ => show k0_off5 k 0 + 1 * 0 = 0; rw [e]; rfl
  | ⟨1, _⟩ => show k0_off5 k 1 + 1 * r'.val = r.val; rw [e]; show 4 * k.val + 1 * r'.val = r.val; omega
  | ⟨2, _⟩ => show k0_off5 k 2 + 1 * w.val = w.val; rw [e]; show 0 + 1 * w.val = w.val; omega
  | ⟨3, _⟩ => show k0_off5 k 3 + 1 * c.val = c.val; rw [e]; show 0 + 1 * c.val = c.val; omega

section
variable (x1 : Vec Ideal S512x384 .f32) (x2 : Vec Ideal S1x384 .f32) (x0 : Vec Ideal S1x64x64x512 .f32)

/-- The query scratch at pixel (r, w): the query map of that pixel (columns 64 … 127 of the fused weights). -/
theorem qry_pixel (r w : Fin 64) (d : Fin 64) :
    qryScr x1 x2 x0 (ix3 r w d)
      = affine (fun k => x0 (ix4 (0 : Fin 1) r w k)) (fun k => x1 (ix2 k (⟨64 + d.val, by omega⟩ : Fin 384)))
          (x2 (ix2 (0 : Fin 1) (⟨64 + d.val, by omega⟩ : Fin 384))) := by
  have hk : r.val / 16 < k0_t1_loop.trips := by rw [trips1]; omega
  have he : (rQry16 ⟨r.val / 16, hk⟩).emb (ix3 (⟨r.val % 16, by omega⟩ : Fin 16) w d) = ix3 r w d := by
    funext a; apply Fin.ext
    have e := off4_eq ⟨r.val / 16, hk⟩
    match a with
    | ⟨0, _⟩ => show k0_off4 ⟨r.val / 16, hk⟩ 0 + 1 * (r.val % 16) = r.val; rw [e]; show 16 * (r.val / 16) + 1 * (r.val % 16) = r.val; omega
    | ⟨1, _⟩ => show k0_off4 ⟨r.val / 16, hk⟩ 1 + 1 * w.val = w.val; rw [e]; show 0 + 1 * w.val = w.val; omega
    | ⟨2, _⟩ => show k0_off4 ⟨r.val / 16, hk⟩ 2 + 1 * d.val = d.val; rw [e]; show 0 + 1 * d.val = d.val; omega
  refine (congrArg (qryScr x1 x2 x0) he.symm).trans ?_
  refine (qryScr_emb x1 x2 x0 _ _).trans ?_
  refine (pay3_pay8_apply x1 x2 _ _ w d).trans ?_
  refine congrArg (fun f => affine f _ _) (funext fun k => ?_)
  exact ld_img16 x0 _ _ w k r (by show r.val = 16 * (r.val / 16) + r.val % 16; omega)

/-- The pooled-key scratch at pooled position (P, q): the key map (columns 0 … 63) pooled over the 2 x 2 square. -/
theorem key_pixel (P q : Fin 32) (d : Fin 64) :
    keyScr x1 x2 x0 (ix3 P q d)
      = pool4 fun a e => affine (fun k => x0 (ix4 (0 : Fin 1) (fine P a) (fine q e) k))
          (fun k => x1 (ix2 k (⟨d.val, by omega⟩ : Fin 384))) (x2 (ix2 (0 : Fin 1) (⟨d.val, by omega⟩ : Fin 384))) := by
  have hk : P.val / 8 < k0_t1_loop.trips := by rw [trips1]; omega
  have he : (rKey ⟨P.val / 8, hk⟩).emb (ix3 (⟨P.val % 8, by omega⟩ : Fin 8) q d) = ix3 P q d := by
    funext a; apply Fin.ext
    have e := off2_eq ⟨P.val / 8, hk⟩
    match a with
    | ⟨0, _⟩ => show k0_off2 ⟨P.val / 8, hk⟩ 0 + 1 * (P.val % 8) = P.val; rw [e]; show 8 * (P.val / 8) + 1 * (P.val % 8) = P.val; omega
    | ⟨1, _⟩ => show k0_off2 ⟨P.val / 8, hk⟩ 1 + 1 * q.val = q.val; rw [e]; show 0 + 1 * q.val = q.val; omega
    | ⟨2, _⟩ => show k0_off2 ⟨P.val / 8, hk⟩ 2 + 1 * d.val = d.val; rw [e]; show 0 + 1 * d.val = d.val; omega
  refine (congrArg (keyScr x1 x2 x0) he.symm).trans ?_
  refine (keyScr_emb x1 x2 x0 _ _).trans ?_
  refine (pay6_apply x1 x2 _ _ q d).trans ?_
  refine congrArg pool4 (funext fun a => funext fun e => ?_)
  refine congrArg (fun f => affine f _ _) (funext fun k => ?_)
  exact ld_img16 x0 _ _ _ k (fine P a) (by show 2 * P.val + a.val = 16 * (P.val / 8) + (2 * (P.val % 8) + a.val); omega)

/-- The pooled-value scratch at pooled position (P, q): the value map (columns 128 … 383) pooled over the square. -/
theorem val_pixel (P q : Fin 32) (d : Fin 256) :
    valScr x1 x2 x0 (ix3 P q d)
      = pool4 fun a e => affine (fun k => x0 (ix4 (0 : Fin 1) (fine P a) (fine q e) k))
          (fun k => x1 (ix2 k (⟨128 + d.val, by omega⟩ : Fin 384))) (x2 (ix2 (0 : Fin 1) (⟨128 + d.val, by omega⟩ : Fin 384))) := by
  have hk : P.val / 8 < k0_t1_loop.trips := by rw [trips1]; omega
  have he : (rVal ⟨P.val / 8, hk⟩).emb (ix3 (⟨P.val % 8, by omega⟩ : Fin 8) q d) = ix3 P q d := by
    funext a; apply Fin.ext
    have e := off3_eq ⟨P.val / 8, hk⟩
    match a with
    | ⟨0, _⟩ => show k0_off3 ⟨P.val / 8, hk⟩ 0 + 1 * (P.val % 8) = P.val; rw [e]; show 8 * (P.val / 8) + 1 * (P.val % 8) = P.val; omega
    | ⟨1, _⟩ => show k0_off3 ⟨P.val / 8, hk⟩ 1 + 1 * q.val = q.val; rw [e]; show 0 + 1 * q.val = q.val; omega
    | ⟨2, _⟩ => show k0_off3 ⟨P.val / 8, hk⟩ 2 + 1 * d.val = d.val; rw [e]; show 0 + 1 * d.val = d.val; omega
  refine (congrArg (valScr x1 x2 x0) he.symm).trans ?_
  refine (valScr_emb x1 x2 x0 _ _).trans ?_
  refine (pay7_apply x1 x2 _ _ q d).trans ?_
  refine congrArg pool4 (funext fun a => funext fun e => ?_)
  refine congrArg (fun f => affine f _ _) (funext fun k => ?_)
  exact ld_img16 x0 _ _ _ k (fine P a) (by show 2 * P.val + a.val = 16 * (P.val / 8) + (2 * (P.val % 8) + a.val); omega)
end

/-- THE BLOCK, pixel by pixel: channel `ch` of pixel (r, w) of the output block is the attention of that pixel. -/
theorem outBlk_pixel (x0 : Vec Ideal S1x64x64x512 .f32) (x1 : Vec Ideal S512x384 .f32) (x2 : Vec Ideal S1x384 .f32)
    (x3 : Vec Ideal S256x512 .f32) (x4 : Vec Ideal S1x512 .f32) (x5 : Vec Ideal S1x1 .f32) (r w : Fin 64) (ch : Fin 512) :
    outBlk x0 x1 x2 x3 x4 x5 (ix4 (0 : Fin 1) r w ch)
      = attend
          (fun d => affine (fun k => x0 (ix4 (0 : Fin 1) r w k)) (fun k => x1 (ix2 k (⟨64 + d.val, by omega⟩ : Fin 384)))
            (x2 (ix2 (0 : Fin 1) (⟨64 + d.val, by omega⟩ : Fin 384))))
          (fun m d => pool4 fun a e => affine (fun k => x0 (ix4 (0 : Fin 1) (fine (prow m) a) (fine (pcol m) e) k))
            (fun k => x1 (ix2 k (⟨d.val, by omega⟩ : Fin 384))) (x2 (ix2 (0 : Fin 1) (⟨d.val, by omega⟩ : Fin 384))))
          (fun m d => pool4 fun a e => affine (fun k => x0 (ix4 (0 : Fin 1) (fine (prow m) a) (fine (pcol m) e) k))
            (fun k => x1 (ix2 k (⟨128 + d.val, by omega⟩ : Fin 384))) (x2 (ix2 (0 : Fin 1) (⟨128 + d.val, by omega⟩ : Fin 384))))
          (fun e c => x3 (ix2 e c)) (fun c => x4 (ix2 (0 : Fin 1) c)) (x5 (ix2 (0 : Fin 1) (0 : Fin 1)))
          (fun c => x0 (ix4 (0 : Fin 1) r w c)) ch := by
  have hk : r.val / 4 < k0_t2_loop.trips := by rw [trips2]; omega
  have he : (rImg4 ⟨r.val / 4, hk⟩).emb (ix4 (0 : Fin 1) (⟨r.val % 4, by omega⟩ : Fin 4) w ch) = ix4 (0 : Fin 1) r w ch := by
    funext a; apply Fin.ext
    have e := off5_eq ⟨r.val / 4, hk⟩
    match a with
    | ⟨0, _⟩ => show k0_off5 ⟨r.val / 4, hk⟩ 0 + 1 * 0 = 0; rw [e]; rfl
    | ⟨1, _⟩ => show k0_off5 ⟨r.val / 4, hk⟩ 1 + 1 * (r.val % 4) = r.val; rw [e]; show 4 * (r.val / 4) + 1 * (r.val % 4) = r.val; omega
    | ⟨2, _⟩ => show k0_off5 ⟨r.val / 4, hk⟩ 2 + 1 * w.val = w.val; rw [e]; show 0 + 1 * w.val = w.val; omega
    | ⟨3, _⟩ => show k0_off5 ⟨r.val / 4, hk⟩ 3 + 1 * ch.val = ch.val; rw [e]; show 0 + 1 * ch.val = ch.val; omega
  refine (congrArg (outBlk x0 x1 x2 x3 x4 x5) he.symm).trans ?_
  refine (outBlk_emb x0 x1 x2 x3 x4 x5 _ _).trans ?_
  refine (pay4_apply x3 x4 x5 _ _ _ _ _ w ch).trans ?_
  have hq : (fun d : Fin 64 => View.ld (qryScr x1 x2 x0) (rQry4 ⟨r.val / 4, hk⟩) (ix3 (⟨r.val % 4, by omega⟩ : Fin 4) w d))
      = fun d => affine (fun k => x0 (ix4 (0 : Fin 1) r w k)) (fun k => x1 (ix2 k (⟨64 + d.val, by omega⟩ : Fin 384)))
            (x2 (ix2 (0 : Fin 1) (⟨64 + d.val, by omega⟩ : Fin 384))) := by
    funext d
    refine Eq.trans ?_ (qry_pixel x1 x2 x0 r w d)
    show qryScr x1 x2 x0 ((rQry4 ⟨r.val / 4, hk⟩).idx (ix3 (⟨r.val % 4, by omega⟩ : Fin 4) w d)) = _
    refine congrArg (qryScr x1 x2 x0) (funext fun a => Fin.ext ?_)
    have e := off6_eq ⟨r.val / 4, hk⟩
    match a with
    | ⟨0, _⟩ => show k0_off6 ⟨r.val / 4, hk⟩ 0 + 1 * (r.val % 4) = r.val; rw [e]; show 4 * (r.val / 4) + 1 * (r.val % 4) = r.val; omega
    | ⟨1, _⟩ => show k0_off6 ⟨r.val / 4, hk⟩ 1 + 1 * w.val = w.val; rw [e]; show 0 + 1 * w.val = w.val; omega
    | ⟨2, _⟩ => show k0_off6 ⟨r.val / 4, hk⟩ 2 + 1 * d.val = d.val; rw [e]; show 0 + 1 * d.val = d.val; omega
  have hK : (fun (m : Fin 1024) (d : Fin 64) => keyScr x1 x2 x0 (ix3 (prow m) (pcol m) d))
      = fun m d => pool4 fun a e => affine (fun k => x0 (ix4 (0 : Fin 1) (fine (prow m) a) (fine (pcol m) e) k))
            (fun k => x1 (ix2 k (⟨d.val, by omega⟩ : Fin 384))) (x2 (ix2 (0 : Fin 1) (⟨d.val, by omega⟩ : Fin 384))) :=
    funext fun m => funext fun d => key_pixel x1 x2 x0 (prow m) (pcol m) d
  have hH : (fun (m : Fin 1024) (d : Fin 256) => valScr x1 x2 x0 (ix3 (prow m) (pcol m) d))
      = fun m d => pool4 fun a e => affine (fun k => x0 (ix4 (0 : Fin 1) (fine (prow m) a) (fine (pcol m) e) k))
            (fun k => x1 (ix2 k (⟨128 + d.val, by omega⟩ : Fin 384))) (x2 (ix2 (0 : Fin 1) (⟨128 + d.val, by omega⟩ : Fin 384))) :=
    funext fun m => funext fun d => val_pixel x1 x2 x0 (prow m) (pcol m) d
  have hX : (fun c : Fin 512 => View.ld x0 (rImg4 ⟨r.val / 4, hk⟩) (ix4 (0 : Fin 1) (⟨r.val % 4, by omega⟩ : Fin 4) w c))
      = fun c => x0 (ix4 (0 : Fin 1) r w c) :=
    funext fun c => ld_img4 x0 _ _ w c r (by show r.val = 4 * (r.val / 4) + r.val % 4; omega)
  rw [hq, hK, hH, hX]

end Cert.KernelIdeal.Hand

end
-- ==== Proof.IdealInputs.lean ====
/-
  The kernel's input blocks at the extended reals, read back to the ten argument arrays. The image window's block at
  grid point `t` is batch element `t` of the image; the five parameter windows hold their whole arrays at every
  point. Two of those arrays are host results: the fused weights `[Wf | Wg | Wh]` (a concatenation along the columns:
  columns 0–63, 64–127, 128–383) and the fused bias `[bf ; bg ; bh]` viewed as one row; the output bias and gamma are
  viewed as 1 x 512 and 1 x 1. Each element of a block is therefore one element of one argument array.
-/
import proofs.«110549_j51281909514278_2_alg».proof.Proof.IdealEntry
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-! ## The host results the windows read -/

/-- The fused weights: the three weight matrices side by side. -/
theorem V_main_v0 (c : Dev nD) : (V m c main_v0 : S512x384.Idx → EReal)
    = concatenate S512x384 1 [⟨S512x64, m ((c : Thread nD τ).loc main_arg1)⟩, ⟨S512x64, m ((c : Thread nD τ).loc main_arg3)⟩,
        ⟨S512x256, m ((c : Thread nD τ).loc main_arg5)⟩] concatenates_S512x64_S512x64_S512x256_S512x384_d1 := by
  dsimp only [V, Gen.hostOps0]
  after_results
  rfl

/-- The fused bias, viewed as one row: the three bias vectors end to end. -/
theorem V_main_v2 (c : Dev nD) : (V m c main_v2 : S1x384.Idx → EReal)
    = shapeCast S1x384 (concatenate S384 0 [⟨S64, m ((c : Thread nD τ).loc main_arg2)⟩, ⟨S64, m ((c : Thread nD τ).loc main_arg4)⟩,
        ⟨S256, m ((c : Thread nD τ).loc main_arg6)⟩] concatenates_S64_S64_S256_S384_d0) shapeCasts_S384_S1x384 := by
  dsimp only [V, Gen.hostOps0]
  after_results
  dsimp only
  repeat (rw [StableHlo.nary_result_ne]; rotate_left; decide)
  rfl

/-- The output bias viewed as one row. -/
theorem V_main_v3 (c : Dev nD) : (V m c main_v3 : S1x512.Idx → EReal)
    = shapeCast S1x512 (m ((c : Thread nD τ).loc main_arg8)) shapeCasts_S512_S1x512 := by
  dsimp only [V, Gen.hostOps0]
  after_results
  rfl

/-- Gamma viewed as 1 x 1. -/
theorem V_main_v4 (c : Dev nD) : (V m c main_v4 : S1x1.Idx → EReal)
    = shapeCast S1x1 (m ((c : Thread nD τ).loc main_arg9)) shapeCasts_S1_S1x1 := by
  dsimp only [V, Gen.hostOps0]
  after_results
  rfl

/-! ## Where the windows' blocks sit -/

/-- The grid has 16 points. -/
theorem t_lt (t : Fin cfg0.N) : t.val < 16 := by
  have h := t.isLt
  have e : cfg0.N = 16 := N_0
  omega

/-- The image window's block index is the grid point on the batch axis and zero on the others; the parameter windows'
    block indices are zero throughout. -/
theorem idx_facts : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

/-- The image block at point `t` is batch element `t` of the image. -/
theorem iblk0_apply (c : Dev nD) (t : Fin cfg0.N) (r w : Fin 64) (k : Fin 512) :
    (iblk m c 0 t : S1x64x64x512.Idx → EReal) (ix4 0 r w k)
      = (m ((c : Thread nD τ).loc main_arg0) : S16x64x64x512.Idx → EReal) (ix4 ⟨t.val, t_lt t⟩ r w k) := by
  obtain ⟨⟨h0, h1, h2, h3⟩, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 1 + 1 * 0 = t.val; rw [h0]; omega
  | ⟨1, _⟩ => show win0_0.index t 1 * 64 + 1 * r.val = r.val; rw [h1]; omega
  | ⟨2, _⟩ => show win0_0.index t 2 * 64 + 1 * w.val = w.val; rw [h2]; omega
  | ⟨3, _⟩ => show win0_0.index t 3 * 512 + 1 * k.val = k.val; rw [h3]; omega

/-- The fused-weights block is the whole fused-weights array. -/
theorem iblk1_whole (c : Dev nD) (t : Fin cfg0.N) (k : Fin 512) (j : Fin 384) :
    (iblk m c 1 t : S512x384.Idx → EReal) (ix2 k j) = (V m c main_v0 : S512x384.Idx → EReal) (ix2 k j) := by
  obtain ⟨-, ⟨h0, h1⟩, -⟩ := idx_facts t
  unfold iblk
  rw [View.read_apply]
  show V m c main_v0 _ = V m c main_v0 _
  congr 1
  funext a
  apply Fin.ext
  match a with
  | ⟨0, _⟩ => show win0_1.index t 0 * 512 + 1 * k.val = k.val; rw [h0]; omega
  | ⟨1, _⟩ => show win0_1.index t 1 * 384 + 1 * j.val = j.val; rw [h1]; omega

/-- The fused-bias block is the whole fused-bias row. -/
theorem iblk2_whole (c : Dev nD) (t : Fin cfg0.N) (j : Fin 384) :
    (iblk m c 2 t : S1x384.Idx → EReal) (ix2 0 j) = (V m c main_v2 : S1x384.Idx → EReal) (ix2 0 j) := by
  obtain ⟨-, -, ⟨h0, h1⟩, -⟩ := idx_facts t
  unfold iblk
  rw [View.read_apply]
  show V m c main_v2 _ = V m c main_v2 _
  congr 1
  funext a
  apply Fin.ext
  match a with
  | ⟨0, _⟩ => show win0_2.index t 0 * 1 + 1 * 0 = 0; rw [h0]
  | ⟨1, _⟩ => show win0_2.index t 1 * 384 + 1 * j.val = j.val; rw [h1]; omega

/-- The `Wo` block is the whole of `Wo`. -/
theorem iblk3_apply (c : Dev nD) (t : Fin cfg0.N) (e : Fin 256) (ch : Fin 512) :
    (iblk m c 3 t : S256x512.Idx → EReal) (ix2 e ch) = (m ((c : Thread nD τ).loc main_arg7) : S256x512.Idx → EReal) (ix2 e ch) := by
  obtain ⟨-, -, -, ⟨h0, h1⟩, -⟩ := idx_facts t
  unfold iblk
  rw [View.read_apply]
  show V m c main_arg7 _ = m (c.tc.loc main_arg7) _
  rw [V_main_arg7]
  congr 1
  funext a
  apply Fin.ext
  match a with
  | ⟨0, _⟩ => show win0_3.index t 0 * 256 + 1 * e.val = e.val; rw [h0]; omega
  | ⟨1, _⟩ => show win0_3.index t 1 * 512 + 1 * ch.val = ch.val; rw [h1]; omega

/-- The output-bias block is the whole output-bias row. -/
theorem iblk4_whole (c : Dev nD) (t : Fin cfg0.N) (ch : Fin 512) :
    (iblk m c 4 t : S1x512.Idx → EReal) (ix2 0 ch) = (V m c main_v3 : S1x512.Idx → EReal) (ix2 0 ch) := by
  obtain ⟨-, -, -, -, ⟨h0, h1⟩, -⟩ := idx_facts t
  unfold iblk
  rw [View.read_apply]
  show V m c main_v3 _ = V m c main_v3 _
  congr 1
  funext a
  apply Fin.ext
  match a with
  | ⟨0, _⟩ => show win0_4.index t 0 * 1 + 1 * 0 = 0; rw [h0]
  | ⟨1, _⟩ => show win0_4.index t 1 * 512 + 1 * ch.val = ch.val; rw [h1]; omega

/-- The gamma block is the whole 1 x 1 array. -/
theorem iblk5_whole (c : Dev nD) (t : Fin cfg0.N) :
    (iblk m c 5 t : S1x1.Idx → EReal) (ix2 0 0) = (V m c main_v4 : S1x1.Idx → EReal) (ix2 0 0) := by
  obtain ⟨-, -, -, -, -, ⟨h0, h1⟩⟩ := idx_facts t
  unfold iblk
  rw [View.read_apply]
  show V m c main_v4 _ = V m c main_v4 _
  congr 1
  funext a
  apply Fin.ext
  match a with
  | ⟨0, _⟩ => show win0_5.index t 0 * 1 + 1 * 0 = 0; rw [h0]
  | ⟨1, _⟩ => show win0_5.index t 1 * 1 + 1 * 0 = 0; rw [h1]

/-! ## Each block element as an element of an argument array -/

/-- Columns 0–63 of the fused weights are `Wf`. -/
theorem iblk1_key (c : Dev nD) (t : Fin cfg0.N) (k : Fin 512) (d : Fin 64) :
    (iblk m c 1 t : S512x384.Idx → EReal) (ix2 k ⟨d.val, by have := d.isLt; omega⟩)
      = (m ((c : Thread nD τ).loc main_arg1) : S512x64.Idx → EReal) (ix2 k d) := by
  rw [iblk1_whole, V_main_v0]
  exact concatenate_apply_piece (t := S512x384) 1 _ _ _ 0 (by show (0 : Nat) < 3; decide)
    S512x64 _ rfl rfl 0 rfl (ix2 k d)
    (fun b hb => by match b with | ⟨0, _⟩ => rfl | ⟨1, _⟩ => exact absurd (Fin.ext rfl) hb) (by show 0 + d.val = d.val; omega)

/-- Columns 64–127 of the fused weights are `Wg`. -/
theorem iblk1_query (c : Dev nD) (t : Fin cfg0.N) (k : Fin 512) (d : Fin 64) :
    (iblk m c 1 t : S512x384.Idx → EReal) (ix2 k ⟨64 + d.val, by have := d.isLt; omega⟩)
      = (m ((c : Thread nD τ).loc main_arg3) : S512x64.Idx → EReal) (ix2 k d) := by
  rw [iblk1_whole, V_main_v0]
  exact concatenate_apply_piece (t := S512x384) 1 _ _ _ 1 (by show (1 : Nat) < 3; decide)
    S512x64 _ rfl rfl 64 rfl (ix2 k d)
    (fun b hb => by match b with | ⟨0, _⟩ => rfl | ⟨1, _⟩ => exact absurd (Fin.ext rfl) hb) (by show 64 + d.val = 64 + d.val; omega)

/-- Columns 128–383 of the fused weights are `Wh`. -/
theorem iblk1_value (c : Dev nD) (t : Fin cfg0.N) (k : Fin 512) (e : Fin 256) :
    (iblk m c 1 t : S512x384.Idx → EReal) (ix2 k ⟨128 + e.val, by have := e.isLt; omega⟩)
      = (m ((c : Thread nD τ).loc main_arg5) : S512x256.Idx → EReal) (ix2 k e) := by
  rw [iblk1_whole, V_main_v0]
  exact concatenate_apply_piece (t := S512x384) 1 _ _ _ 2 (by show (2 : Nat) < 3; decide)
    S512x256 _ rfl rfl 128 rfl (ix2 k e)
    (fun b hb => by match b with | ⟨0, _⟩ => rfl | ⟨1, _⟩ => exact absurd (Fin.ext rfl) hb) (by show 128 + e.val = 128 + e.val; omega)

/-- Entries 0–63 of the fused bias are `bf`. -/
theorem iblk2_key (c : Dev nD) (t : Fin cfg0.N) (d : Fin 64) :
    (iblk m c 2 t : S1x384.Idx → EReal) (ix2 0 ⟨d.val, by have := d.isLt; omega⟩)
      = (m ((c : Thread nD τ).loc main_arg2) : S64.Idx → EReal) (ix1 d) := by
  rw [iblk2_whole, V_main_v2]
  refine (shapeCast_apply _ shapeCasts_S384_S1x384 (ix2 0 ⟨d.val, by have := d.isLt; omega⟩)
    (ix1 ⟨d.val, by have := d.isLt; omega⟩) (by
      rw [Shape.rowMajor_val_one, Shape.rowMajor_val_two]
      show d.val = 0 * 384 + (d.val); omega)).trans ?_
  exact concatenate_apply_piece (t := S384) 0 _ _ _ 0 (by show (0 : Nat) < 3; decide)
    S64 _ rfl rfl 0 rfl (ix1 d)
    (fun b hb => by match b with | ⟨0, _⟩ => exact absurd (Fin.ext rfl) hb) (by show 0 + d.val = d.val; omega)

/-- Entries 64–127 of the fused bias are `bg`. -/
theorem iblk2_query (c : Dev nD) (t : Fin cfg0.N) (d : Fin 64) :
    (iblk m c 2 t : S1x384.Idx → EReal) (ix2 0 ⟨64 + d.val, by have := d.isLt; omega⟩)
      = (m ((c : Thread nD τ).loc main_arg4) : S64.Idx → EReal) (ix1 d) := by
  rw [iblk2_whole, V_main_v2]
  refine (shapeCast_apply _ shapeCasts_S384_S1x384 (ix2 0 ⟨64 + d.val, by have := d.isLt; omega⟩)
    (ix1 ⟨64 + d.val, by have := d.isLt; omega⟩) (by
      rw [Shape.rowMajor_val_one, Shape.rowMajor_val_two]
      show 64 + d.val = 0 * 384 + (64 + d.val); omega)).trans ?_
  exact concatenate_apply_piece (t := S384) 0 _ _ _ 1 (by show (1 : Nat) < 3; decide)
    S64 _ rfl rfl 64 rfl (ix1 d)
    (fun b hb => by match b with | ⟨0, _⟩ => exact absurd (Fin.ext rfl) hb) (by show 64 + d.val = 64 + d.val; omega)

/-- Entries 128–383 of the fused bias are `bh`. -/
theorem iblk2_value (c : Dev nD) (t : Fin cfg0.N) (e : Fin 256) :
    (iblk m c 2 t : S1x384.Idx → EReal) (ix2 0 ⟨128 + e.val, by have := e.isLt; omega⟩)
      = (m ((c : Thread nD τ).loc main_arg6) : S256.Idx → EReal) (ix1 e) := by
  rw [iblk2_whole, V_main_v2]
  refine (shapeCast_apply _ shapeCasts_S384_S1x384 (ix2 0 ⟨128 + e.val, by have := e.isLt; omega⟩)
    (ix1 ⟨128 + e.val, by have := e.isLt; omega⟩) (by
      rw [Shape.rowMajor_val_one, Shape.rowMajor_val_two]
      show 128 + e.val = 0 * 384 + (128 + e.val); omega)).trans ?_
  exact concatenate_apply_piece (t := S384) 0 _ _ _ 2 (by show (2 : Nat) < 3; decide)
    S256 _ rfl rfl 128 rfl (ix1 e)
    (fun b hb => by match b with | ⟨0, _⟩ => exact absurd (Fin.ext rfl) hb) (by show 128 + e.val = 128 + e.val; omega)

/-- The output-bias row is `bo`. -/
theorem iblk4_apply (c : Dev nD) (t : Fin cfg0.N) (ch : Fin 512) :
    (iblk m c 4 t : S1x512.Idx → EReal) (ix2 0 ch) = (m ((c : Thread nD τ).loc main_arg8) : S512.Idx → EReal) (ix1 ch) := by
  rw [iblk4_whole, V_main_v3]
  exact shapeCast_apply _ shapeCasts_S512_S1x512 (ix2 0 ch) (ix1 ch) (by
    rw [Shape.rowMajor_val_one, Shape.rowMajor_val_two]
    show ch.val = 0 * 512 + ch.val; omega)

/-- The 1 x 1 block is gamma. -/
theorem iblk5_apply (c : Dev nD) (t : Fin cfg0.N) :
    (iblk m c 5 t : S1x1.Idx → EReal) (ix2 0 0) = (m ((c : Thread nD τ).loc main_arg9) : S1.Idx → EReal) (ix1 0) := by
  rw [iblk5_whole, V_main_v4]
  exact shapeCast_apply _ shapeCasts_S1_S1x1 (ix2 0 0) (ix1 0) (by
    rw [Shape.rowMajor_val_one, Shape.rowMajor_val_two]
    rfl)

end Cert.KernelIdeal.Hand

end
-- ==== Proof.IdealArray.lean ====
/-
  The output array after the run, at the extended reals: `Cert.Spec.G` of the ten argument arrays.

  Grid point `t` writes back the output block of batch element `t`; read pixel by pixel (the point's output block is the
  attention of each pixel, its input blocks are batch element `t` of the image, the three weight matrices side by side,
  the three biases end to end, `Wo`, the output bias and gamma) it is block `t` of `G`. The 16 blocks tile the array,
  so the array ends as `G`, and the run's post can be restated with it.
-/
import proofs.«110549_j51281909514278_2_alg».proof.Proof.IdealFrame
import proofs.«110549_j51281909514278_2_alg».proof.Proof.IdealPixel
import proofs.«110549_j51281909514278_2_alg».proof.Proof.IdealInputs
import proofs.«110549_j51281909514278_2_alg».proof.Proof.Spec
import Idealize.ShloMosaic.Lib.Pipeline.Value

set_option maxRecDepth 16384

noncomputable section

open scoped BigOperators

namespace Cert.KernelIdeal.Hand

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The result as a function of core `c`'s argument arrays at launch. -/
abbrev GArr (c : Dev nD) : S16x64x64x512.Idx → EReal :=
  Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- The output window's block index at grid point `t` is (t, 0, 0, 0). -/
theorem idx6 : ∀ t : Fin cfg0.N, win0_6.index t = ![t.val, 0, 0, 0] :=
  (by decide +kernel : ∀ t : Fin grid0.N, win0_6.index t = ![t.val, 0, 0, 0])

/-- What grid point `t` writes back is block `t` of `G`. -/
theorem flushed_eq (c : Dev nD) (t : Fin cfg0.N) :
    (dats m 0 c).flushed 6 t = ((cfg0.win 6).blk t).view.read (Elt Ideal) (GArr m c) := by
  show (cfg0.win 6).cut (grid0.coords t) ((dats m 0 c).after 6 t) = _
  rw [after6]
  funext j
  obtain ⟨j0, r, w, ch, rfl⟩ : ∃ (j0 : Fin 1) (r : Fin 64) (w : Fin 64) (ch : Fin 512), j = ix4 j0 r w ch :=
    ⟨j 0, j 1, j 2, j 3, eq_ix4 j⟩
  obtain rfl : j0 = 0 := Subsingleton.elim _ _
  have ht : t.val < 16 := lt_of_lt_of_eq t.isLt (show cfg0.N = 16 from N_0)
  have hemb : ((cfg0.win 6).blk t).view.emb (ix4 (0 : Fin 1) r w ch) = ix4 (⟨t.val, ht⟩ : Fin 16) r w ch := by
    funext a; apply Fin.ext
    have e := idx6 t
    match a with
    | ⟨0, _⟩ => show win0_6.index t 0 * 1 + 1 * 0 = t.val; rw [e]; show t.val * 1 + 1 * 0 = t.val; omega
    | ⟨1, _⟩ => show win0_6.index t 1 * 64 + 1 * r.val = r.val; rw [e]; show 0 * 64 + 1 * r.val = r.val; omega
    | ⟨2, _⟩ => show win0_6.index t 2 * 64 + 1 * w.val = w.val; rw [e]; show 0 * 64 + 1 * w.val = w.val; omega
    | ⟨3, _⟩ => show win0_6.index t 3 * 512 + 1 * ch.val = ch.val; rw [e]; show 0 * 512 + 1 * ch.val = ch.val; omega
  show outBlk (iblk m c 0 t) (iblk m c 1 t) (iblk m c 2 t) (iblk m c 3 t) (iblk m c 4 t) (iblk m c 5 t) (ix4 (0 : Fin 1) r w ch)
    = GArr m c (((cfg0.win 6).blk t).view.emb (ix4 (0 : Fin 1) r w ch))
  rw [hemb, outBlk_pixel]
  simp only [iblk0_apply, iblk1_key, iblk1_query, iblk1_value, iblk2_key, iblk2_query, iblk2_value, iblk3_apply, iblk4_apply, iblk5_apply]
  rfl

/-- An index of the output array is in grid point `t`'s block iff each coordinate is in the block's range on its axis. -/
theorem mem_blk6 (t : Fin cfg0.N) (i : S16x64x64x512.Idx) :
    i ∈ ((cfg0.win 6).blk t).view.set ↔ ∀ a : Fin 4, win0_6.index t a * S1x64x64x512.size a ≤ (i a).val
      ∧ (i a).val < win0_6.index t a * S1x64x64x512.size a + S1x64x64x512.size a := by
  show i ∈ ((View.whole main_v5).slice (win0_6.rect t)).set ↔ _
  rw [View.set_slice_whole, Rect.mem_set_unit]
  exact Iff.rfl

/-- Every index of the output array is in the block of the grid point of its batch element. -/
theorem cover6 (i : S16x64x64x512.Idx) :
    ∃ t : Fin cfg0.N, (cfg0.win 6).flush t = true ∧ i ∈ ((cfg0.win 6).blk t).view.set := by
  have hN : cfg0.N = 16 := N_0
  have ht : (i 0).val < cfg0.N := by rw [hN]; exact (i 0).isLt
  refine ⟨⟨(i 0).val, ht⟩, flush0_6 _, ?_⟩
  rw [mem_blk6]
  intro a
  have e := idx6 ⟨(i 0).val, ht⟩
  match a with
  | ⟨0, _⟩ => show win0_6.index ⟨(i 0).val, ht⟩ 0 * 1 ≤ (i 0).val ∧ (i 0).val < win0_6.index ⟨(i 0).val, ht⟩ 0 * 1 + 1; rw [e]; show (i 0).val * 1 ≤ (i 0).val ∧ (i 0).val < (i 0).val * 1 + 1; omega
  | ⟨1, _⟩ => show win0_6.index ⟨(i 0).val, ht⟩ 1 * 64 ≤ (i 1).val ∧ (i 1).val < win0_6.index ⟨(i 0).val, ht⟩ 1 * 64 + 64; rw [e]; show 0 * 64 ≤ (i 1).val ∧ (i 1).val < 0 * 64 + 64; have h1 : (i 1).val < 64 := (i 1).isLt; omega
  | ⟨2, _⟩ => show win0_6.index ⟨(i 0).val, ht⟩ 2 * 64 ≤ (i 2).val ∧ (i 2).val < win0_6.index ⟨(i 0).val, ht⟩ 2 * 64 + 64; rw [e]; show 0 * 64 ≤ (i 2).val ∧ (i 2).val < 0 * 64 + 64; have h2 : (i 2).val < 64 := (i 2).isLt; omega
  | ⟨3, _⟩ => show win0_6.index ⟨(i 0).val, ht⟩ 3 * 512 ≤ (i 3).val ∧ (i 3).val < win0_6.index ⟨(i 0).val, ht⟩ 3 * 512 + 512; rw [e]; show 0 * 512 ≤ (i 3).val ∧ (i 3).val < 0 * 512 + 512; have h3 : (i 3).val < 512 := (i 3).isLt; omega

/-- The output array after the run is `G` of the argument arrays. -/
theorem final6 (c : Dev nD) : (dats m 0 c).arrAt 6 cfg0.N = GArr m c :=
  (dats m 0 c).arrAt_eq_of_cover 6 (GArr m c) (fun t _ => flushed_eq m c t) cover6

/-- THE RUN, READ: every weakly fair execution of the idealized kernel's @main terminates without a fault, with the
    result array at `G` of the argument arrays and the ten arguments as launched. -/
theorem run : θ_run defs (onTc (τ := τ) (main (F := Ideal))) ⟨m, fun _ => 0, ρ⟩ (fun r => ∀ c : Dev nD,
      r.2.mem ((c.tc : Thread nD τ).loc main_v5) = GArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨((h c).1 6).trans (final6 m c),
    ((h c).1 0).trans ((((dats m) 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).1 3).trans ((((dats m) 0 c).arrAt_in 3 rfl _).trans ((A_eq m c 3).trans (V_main_arg7 m c))),
    ((h c).2 main_arg8 (Pipeline.mem_restRefs_of main_arg8 (by decide) (by decide))).trans (V_main_arg8 m c),
    ((h c).2 main_arg9 (Pipeline.mem_restRefs_of main_arg9 (by decide) (by decide))).trans (V_main_arg9 m c)⟩) (run_main m ρ)

end Cert.KernelIdeal.Hand

end
-- ==== Proof.RefMaps.lean ====
/-
  The three per-pixel affine maps of the reference program, read at one element: each is a contraction of the
  pixel's 512 channels with a weight matrix plus a bias broadcast along the batch and the two pixel axes, which
  is `Cert.Spec.proj` at that pixel and feature. The query map is then flattened over the pixels: pixel
  `n = 64 r + w` of the flat array is pixel `(r, w)` of the image.
-/
import proofs.«110549_j51281909514278_2_alg».proof.Proof.Gen.ReferenceIdeal.Read
import proofs.«110549_j51281909514278_2_alg».proof.Proof.Spec

noncomputable section

open scoped BigOperators

namespace Cert.ReferenceIdeal.RefValue

open Cert.ReferenceIdeal Cert.ReferenceIdeal.Read Idealize.ShloMosaic Idealize.ShloMosaic.ValueIdx

/-- The key map at batch `b`, pixel `(r, w)`, feature `d`. -/
theorem keyMap_apply (x0 : (⟨S16x64x64x512, .f32⟩ : BufTy).Contents (Elt Ideal)) (x1 : (⟨S512x64, .f32⟩ : BufTy).Contents (Elt Ideal)) (x2 : (⟨S64, .f32⟩ : BufTy).Contents (Elt Ideal))
    (b : Fin 16) (r w : Fin 64) (d : Fin 64) :
    val_main_v3 (F := Ideal) x0 x1 x2 (ix4 b r w d) = Cert.Spec.proj x0 x1 x2 b r w d := by
  have el : ∀ k : Fin 512, lidx_main_v0 (ix4 b r w d) k = ix4 b r w k := fun k => funext fun a => Fin.ext (by
    match a with | ⟨0, _⟩ => rfl | ⟨1, _⟩ => rfl | ⟨2, _⟩ => rfl | ⟨3, _⟩ => rfl)
  have er : ∀ k : Fin 512, ridx_main_v0 (ix4 b r w d) k = ix2 k d := fun k => funext fun a => Fin.ext (by
    match a with | ⟨0, _⟩ => rfl | ⟨1, _⟩ => rfl)
  have eb : idx_main_v1 (idx_main_v2 (ix4 b r w d)) = ix1 d := funext fun a => Fin.ext (by
    match a with | ⟨0, _⟩ => rfl)
  rw [val_main_v3_apply, val_main_v0_apply, val_main_v2_apply, val_main_v1_apply]
  simp only [el, er, eb, Ideal.addf_def]
  rfl

/-- The query map at batch `b`, pixel `(r, w)`, feature `d`. -/
theorem queryMap_apply (x0 : (⟨S16x64x64x512, .f32⟩ : BufTy).Contents (Elt Ideal)) (x3 : (⟨S512x64, .f32⟩ : BufTy).Contents (Elt Ideal)) (x4 : (⟨S64, .f32⟩ : BufTy).Contents (Elt Ideal))
    (b : Fin 16) (r w : Fin 64) (d : Fin 64) :
    val_main_v10 (F := Ideal) x0 x3 x4 (ix4 b r w d) = Cert.Spec.proj x0 x3 x4 b r w d := by
  have el : ∀ k : Fin 512, lidx_main_v7 (ix4 b r w d) k = ix4 b r w k := fun k => funext fun a => Fin.ext (by
    match a with | ⟨0, _⟩ => rfl | ⟨1, _⟩ => rfl | ⟨2, _⟩ => rfl | ⟨3, _⟩ => rfl)
  have er : ∀ k : Fin 512, ridx_main_v7 (ix4 b r w d) k = ix2 k d := fun k => funext fun a => Fin.ext (by
    match a with | ⟨0, _⟩ => rfl | ⟨1, _⟩ => rfl)
  have eb : idx_main_v8 (idx_main_v9 (ix4 b r w d)) = ix1 d := funext fun a => Fin.ext (by
    match a with | ⟨0, _⟩ => rfl)
  rw [val_main_v10_apply, val_main_v7_apply, val_main_v9_apply, val_main_v8_apply]
  simp only [el, er, eb, Ideal.addf_def]
  rfl

/-- The value map at batch `b`, pixel `(r, w)`, feature `e`. -/
theorem valueMap_apply (x0 : (⟨S16x64x64x512, .f32⟩ : BufTy).Contents (Elt Ideal)) (x5 : (⟨S512x256, .f32⟩ : BufTy).Contents (Elt Ideal)) (x6 : (⟨S256, .f32⟩ : BufTy).Contents (Elt Ideal))
    (b : Fin 16) (r w : Fin 64) (d : Fin 256) :
    val_main_v15 (F := Ideal) x0 x5 x6 (ix4 b r w d) = Cert.Spec.proj x0 x5 x6 b r w d := by
  have el : ∀ k : Fin 512, lidx_main_v12 (ix4 b r w d) k = ix4 b r w k := fun k => funext fun a => Fin.ext (by
    match a with | ⟨0, _⟩ => rfl | ⟨1, _⟩ => rfl | ⟨2, _⟩ => rfl | ⟨3, _⟩ => rfl)
  have er : ∀ k : Fin 512, ridx_main_v12 (ix4 b r w d) k = ix2 k d := fun k => funext fun a => Fin.ext (by
    match a with | ⟨0, _⟩ => rfl | ⟨1, _⟩ => rfl)
  have eb : idx_main_v13 (idx_main_v14 (ix4 b r w d)) = ix1 d := funext fun a => Fin.ext (by
    match a with | ⟨0, _⟩ => rfl)
  rw [val_main_v15_apply, val_main_v12_apply, val_main_v14_apply, val_main_v13_apply]
  simp only [el, er, eb, Ideal.addf_def]
  rfl

/-- Row and column of flat pixel `n = 64 r + w`. -/
def qrow (n : Fin 4096) : Fin 64 := ⟨n.val / 64, by omega⟩
def qcol (n : Fin 4096) : Fin 64 := ⟨n.val % 64, by omega⟩

/-- The query map over the flattened pixels. -/
theorem queryFlat_apply (x0 : (⟨S16x64x64x512, .f32⟩ : BufTy).Contents (Elt Ideal)) (x3 : (⟨S512x64, .f32⟩ : BufTy).Contents (Elt Ideal)) (x4 : (⟨S64, .f32⟩ : BufTy).Contents (Elt Ideal))
    (b : Fin 16) (n : Fin 4096) (d : Fin 64) :
    val_main_v11 (F := Ideal) x0 x3 x4 (ix3 b n d) = Cert.Spec.proj x0 x3 x4 b (qrow n) (qcol n) d := by
  have e : idx_main_v11 (ix3 b n d) = ix4 b (qrow n) (qcol n) d := funext fun a => Fin.ext (by
    have hb := b.isLt; have hn := n.isLt; have hd := d.isLt
    match a with
    | ⟨0, _⟩ => show ((b.val * 4096 + n.val) * 64 + d.val) / 262144 = b.val; omega
    | ⟨1, _⟩ => show ((b.val * 4096 + n.val) * 64 + d.val) / 4096 % 64 = n.val / 64; omega
    | ⟨2, _⟩ => show ((b.val * 4096 + n.val) * 64 + d.val) / 64 % 64 = n.val % 64; omega
    | ⟨3, _⟩ => show ((b.val * 4096 + n.val) * 64 + d.val) % 64 = d.val; omega)
  rw [val_main_v11_apply, e]
  exact queryMap_apply x0 x3 x4 b (qrow n) (qcol n) d

end Cert.ReferenceIdeal.RefValue

end
-- ==== Proof.RefPool.lean ====
/-
  The 2 x 2 max-pool of the key and value maps in the reference program: a reshape that splits each pixel axis
  `64 = 32 · 2`, a maximum over the two new axes of size 2 folded from minus infinity, and a reshape that
  flattens the 32 x 32 pooled positions. Read at one element it is `Cert.Spec.pool`: the supremum of the map over
  the four pixels `(2 p + a, 2 q + e)`.
-/
import proofs.«110549_j51281909514278_2_alg».proof.Proof.RefMaps
import Idealize.ShloMosaic.Lib.ValueIdxRank6
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The key map, pooled -/

/-- The reshape to rank 6 splits each pixel axis `64 = 32 · 2`: element `(b, p, a, q, e, d)` of the rank-6 array is
    the map at pixel `(2 p + a, 2 q + e)`, the two positions being one row-major position. -/
theorem keySplit_apply (x0 : (⟨S16x64x64x512, .f32⟩ : BufTy).Contents (Elt Ideal)) (x1 : (⟨S512x64, .f32⟩ : BufTy).Contents (Elt Ideal)) (x2 : (⟨S64, .f32⟩ : BufTy).Contents (Elt Ideal))
    (b : Fin 16) (p : Fin 32) (a : Fin 2) (q : Fin 32) (e : Fin 2) (d : Fin 64) :
    val_main_v4 (F := Ideal) x0 x1 x2 (ix6 b p a q e d)
      = val_main_v3 (F := Ideal) x0 x1 x2 (ix4 b (Cert.Spec.fine p a) (Cert.Spec.fine q e) d) := by
  unfold val_main_v4
  generalize val_main_v3 (F := Ideal) x0 x1 x2 = y
  exact shapeCast_apply y shapeCasts_S16x64x64x64_S16x32x2x32x2x64 (ix6 b p a q e d) (ix4 b (Cert.Spec.fine p a) (Cert.Spec.fine q e) d)
    (by rewrite [Shape.rowMajor_val_four, Shape.rowMajor_val_six]
        show ((b.val * 64 + (2 * p.val + a.val)) * 64 + (2 * q.val + e.val)) * 64 + d.val
          = ((((b.val * 32 + p.val) * 2 + a.val) * 32 + q.val) * 2 + e.val) * 64 + d.val
        omega)

/-- The indices of the rank-6 array that drop to `(b, p, q, d)` when axes 2 and 4 are removed are the four
    `(b, p, a, q, e, d)`: the supremum over them is the supremum over `(a, e)`. -/
theorem key_sup_fiber (h : S16x32x2x32x2x64.ReducesTo [2, 4] S16x32x32x64) (Y : S16x32x2x32x2x64.Idx → EReal)
    (b : Fin 16) (p q : Fin 32) (d : Fin 64) :
    (Finset.univ.filter fun i => h.drop i = ix4 b p q d).sup Y
      = (Finset.univ : Finset (Fin 2 × Fin 2)).sup fun ae => Y (ix6 b p ae.1 q ae.2 d) := by
  apply le_antisymm
  · refine Finset.sup_le fun i hi => ?_
    have hj := (Finset.mem_filter.1 hi).2
    obtain ⟨a, e, rfl⟩ : ∃ a e : Fin 2, i = ix6 b p a q e d := by
      refine ⟨i 2, i 4, ?_⟩
      funext c
      refine Fin.ext ?_
      match c with
      | ⟨0, _⟩ => exact (h.drop_apply_val_of_eq i 0 0).symm.trans (congrArg (fun j : S16x32x32x64.Idx => (j 0).val) hj)
      | ⟨1, _⟩ => exact (h.drop_apply_val_of_eq i 1 1).symm.trans (congrArg (fun j : S16x32x32x64.Idx => (j 1).val) hj)
      | ⟨2, _⟩ => rfl
      | ⟨3, _⟩ => exact (h.drop_apply_val_of_eq i 2 3).symm.trans (congrArg (fun j : S16x32x32x64.Idx => (j 2).val) hj)
      | ⟨4, _⟩ => rfl
      | ⟨5, _⟩ => exact (h.drop_apply_val_of_eq i 3 5).symm.trans (congrArg (fun j : S16x32x32x64.Idx => (j 3).val) hj)
    exact Finset.le_sup (f := fun ae : Fin 2 × Fin 2 => Y (ix6 b p ae.1 q ae.2 d)) (Finset.mem_univ (a, e))
  · refine Finset.sup_le fun ae _ => ?_
    refine Finset.le_sup (f := Y) (Finset.mem_filter.2 ⟨Finset.mem_univ _, ?_⟩)
    funext c
    refine Fin.ext ?_
    match c with
    | ⟨0, _⟩ => exact h.drop_apply_val_of_eq _ 0 0
    | ⟨1, _⟩ => exact h.drop_apply_val_of_eq _ 1 1
    | ⟨2, _⟩ => exact h.drop_apply_val_of_eq _ 2 3
    | ⟨3, _⟩ => exact h.drop_apply_val_of_eq _ 3 5

/-- The maximum over axes 2 and 4, folded from minus infinity, is the largest of the four values of the square. -/
theorem keyMax_apply (x0 : (⟨S16x64x64x512, .f32⟩ : BufTy).Contents (Elt Ideal)) (x1 : (⟨S512x64, .f32⟩ : BufTy).Contents (Elt Ideal)) (x2 : (⟨S64, .f32⟩ : BufTy).Contents (Elt Ideal))
    (b : Fin 16) (p q : Fin 32) (d : Fin 64) :
    val_main_v5 (F := Ideal) x0 x1 x2 (ix4 b p q d)
      = Cert.Spec.pool4 fun a e => val_main_v4 (F := Ideal) x0 x1 x2 (ix6 b p a q e d) := by
  unfold val_main_v5
  generalize val_main_v4 (F := Ideal) x0 x1 x2 = y
  rw [Host.reduce_eq_fold]
  show (Finset.univ.filter fun i => reducesTo_S16x32x2x32x2x64_S16x32x32x64_d2_4.drop i = ix4 b p q d).fold max
      (Ideal.ofBits .f32 0xFF800000#32) y = _
  rw [Cert.Spec.ofBits_neg_inf, Cert.Spec.fold_max_bot, key_sup_fiber]
  rfl

/-- The pooled key map over the flattened pooled positions: position `m = 32 p + q`. -/
theorem keyPool_apply (x0 : (⟨S16x64x64x512, .f32⟩ : BufTy).Contents (Elt Ideal)) (x1 : (⟨S512x64, .f32⟩ : BufTy).Contents (Elt Ideal)) (x2 : (⟨S64, .f32⟩ : BufTy).Contents (Elt Ideal))
    (b : Fin 16) (m : Fin 1024) (d : Fin 64) :
    val_main_v6 (F := Ideal) x0 x1 x2 (ix3 b m d)
      = Cert.Spec.pool x0 x1 x2 b (Cert.Spec.prow m) (Cert.Spec.pcol m) d := by
  have e : idx_main_v6 (ix3 b m d) = ix4 b (Cert.Spec.prow m) (Cert.Spec.pcol m) d := funext fun a => Fin.ext (by
    have hb := b.isLt; have hm := m.isLt; have hd := d.isLt
    match a with
    | ⟨0, _⟩ => show ((b.val * 1024 + m.val) * 64 + d.val) / 65536 = b.val; omega
    | ⟨1, _⟩ => show ((b.val * 1024 + m.val) * 64 + d.val) / 2048 % 32 = m.val / 32; omega
    | ⟨2, _⟩ => show ((b.val * 1024 + m.val) * 64 + d.val) / 64 % 32 = m.val % 32; omega
    | ⟨3, _⟩ => show ((b.val * 1024 + m.val) * 64 + d.val) % 64 = d.val; omega)
  rw [val_main_v6_apply, e, keyMax_apply]
  unfold Cert.Spec.pool
  refine congrArg Cert.Spec.pool4 (funext fun a => funext fun e' => ?_)
  rw [keySplit_apply]
  exact keyMap_apply x0 x1 x2 b _ _ d

/-! ## The value map, pooled -/

/-- The reshape to rank 6 splits each pixel axis `64 = 32 · 2`: element `(b, p, a, q, e, d)` of the rank-6 array is
    the map at pixel `(2 p + a, 2 q + e)`, the two positions being one row-major position. -/
theorem valueSplit_apply (x0 : (⟨S16x64x64x512, .f32⟩ : BufTy).Contents (Elt Ideal)) (x5 : (⟨S512x256, .f32⟩ : BufTy).Contents (Elt Ideal)) (x6 : (⟨S256, .f32⟩ : BufTy).Contents (Elt Ideal))
    (b : Fin 16) (p : Fin 32) (a : Fin 2) (q : Fin 32) (e : Fin 2) (d : Fin 256) :
    val_main_v16 (F := Ideal) x0 x5 x6 (ix6 b p a q e d)
      = val_main_v15 (F := Ideal) x0 x5 x6 (ix4 b (Cert.Spec.fine p a) (Cert.Spec.fine q e) d) := by
  unfold val_main_v16
  generalize val_main_v15 (F := Ideal) x0 x5 x6 = y
  exact shapeCast_apply y shapeCasts_S16x64x64x256_S16x32x2x32x2x256 (ix6 b p a q e d) (ix4 b (Cert.Spec.fine p a) (Cert.Spec.fine q e) d)
    (by rewrite [Shape.rowMajor_val_four, Shape.rowMajor_val_six]
        show ((b.val * 64 + (2 * p.val + a.val)) * 64 + (2 * q.val + e.val)) * 256 + d.val
          = ((((b.val * 32 + p.val) * 2 + a.val) * 32 + q.val) * 2 + e.val) * 256 + d.val
        omega)

/-- The indices of the rank-6 array that drop to `(b, p, q, d)` when axes 2 and 4 are removed are the four
    `(b, p, a, q, e, d)`: the supremum over them is the supremum over `(a, e)`. -/
theorem value_sup_fiber (h : S16x32x2x32x2x256.ReducesTo [2, 4] S16x32x32x256) (Y : S16x32x2x32x2x256.Idx → EReal)
    (b : Fin 16) (p q : Fin 32) (d : Fin 256) :
    (Finset.univ.filter fun i => h.drop i = ix4 b p q d).sup Y
      = (Finset.univ : Finset (Fin 2 × Fin 2)).sup fun ae => Y (ix6 b p ae.1 q ae.2 d) := by
  apply le_antisymm
  · refine Finset.sup_le fun i hi => ?_
    have hj := (Finset.mem_filter.1 hi).2
    obtain ⟨a, e, rfl⟩ : ∃ a e : Fin 2, i = ix6 b p a q e d := by
      refine ⟨i 2, i 4, ?_⟩
      funext c
      refine Fin.ext ?_
      match c with
      | ⟨0, _⟩ => exact (h.drop_apply_val_of_eq i 0 0).symm.trans (congrArg (fun j : S16x32x32x256.Idx => (j 0).val) hj)
      | ⟨1, _⟩ => exact (h.drop_apply_val_of_eq i 1 1).symm.trans (congrArg (fun j : S16x32x32x256.Idx => (j 1).val) hj)
      | ⟨2, _⟩ => rfl
      | ⟨3, _⟩ => exact (h.drop_apply_val_of_eq i 2 3).symm.trans (congrArg (fun j : S16x32x32x256.Idx => (j 2).val) hj)
      | ⟨4, _⟩ => rfl
      | ⟨5, _⟩ => exact (h.drop_apply_val_of_eq i 3 5).symm.trans (congrArg (fun j : S16x32x32x256.Idx => (j 3).val) hj)
    exact Finset.le_sup (f := fun ae : Fin 2 × Fin 2 => Y (ix6 b p ae.1 q ae.2 d)) (Finset.mem_univ (a, e))
  · refine Finset.sup_le fun ae _ => ?_
    refine Finset.le_sup (f := Y) (Finset.mem_filter.2 ⟨Finset.mem_univ _, ?_⟩)
    funext c
    refine Fin.ext ?_
    match c with
    | ⟨0, _⟩ => exact h.drop_apply_val_of_eq _ 0 0
    | ⟨1, _⟩ => exact h.drop_apply_val_of_eq _ 1 1
    | ⟨2, _⟩ => exact h.drop_apply_val_of_eq _ 2 3
    | ⟨3, _⟩ => exact h.drop_apply_val_of_eq _ 3 5

/-- The maximum over axes 2 and 4, folded from minus infinity, is the largest of the four values of the square. -/
theorem valueMax_apply (x0 : (⟨S16x64x64x512, .f32⟩ : BufTy).Contents (Elt Ideal)) (x5 : (⟨S512x256, .f32⟩ : BufTy).Contents (Elt Ideal)) (x6 : (⟨S256, .f32⟩ : BufTy).Contents (Elt Ideal))
    (b : Fin 16) (p q : Fin 32) (d : Fin 256) :
    val_main_v17 (F := Ideal) x0 x5 x6 (ix4 b p q d)
      = Cert.Spec.pool4 fun a e => val_main_v16 (F := Ideal) x0 x5 x6 (ix6 b p a q e d) := by
  unfold val_main_v17
  generalize val_main_v16 (F := Ideal) x0 x5 x6 = y
  rw [Host.reduce_eq_fold]
  show (Finset.univ.filter fun i => reducesTo_S16x32x2x32x2x256_S16x32x32x256_d2_4.drop i = ix4 b p q d).fold max
      (Ideal.ofBits .f32 0xFF800000#32) y = _
  rw [Cert.Spec.ofBits_neg_inf, Cert.Spec.fold_max_bot, value_sup_fiber]
  rfl

/-- The pooled value map over the flattened pooled positions: position `m = 32 p + q`. -/
theorem valuePool_apply (x0 : (⟨S16x64x64x512, .f32⟩ : BufTy).Contents (Elt Ideal)) (x5 : (⟨S512x256, .f32⟩ : BufTy).Contents (Elt Ideal)) (x6 : (⟨S256, .f32⟩ : BufTy).Contents (Elt Ideal))
    (b : Fin 16) (m : Fin 1024) (d : Fin 256) :
    val_main_v18 (F := Ideal) x0 x5 x6 (ix3 b m d)
      = Cert.Spec.pool x0 x5 x6 b (Cert.Spec.prow m) (Cert.Spec.pcol m) d := by
  have e : idx_main_v18 (ix3 b m d) = ix4 b (Cert.Spec.prow m) (Cert.Spec.pcol m) d := funext fun a => Fin.ext (by
    have hb := b.isLt; have hm := m.isLt; have hd := d.isLt
    match a with
    | ⟨0, _⟩ => show ((b.val * 1024 + m.val) * 256 + d.val) / 262144 = b.val; omega
    | ⟨1, _⟩ => show ((b.val * 1024 + m.val) * 256 + d.val) / 8192 % 32 = m.val / 32; omega
    | ⟨2, _⟩ => show ((b.val * 1024 + m.val) * 256 + d.val) / 256 % 32 = m.val % 32; omega
    | ⟨3, _⟩ => show ((b.val * 1024 + m.val) * 256 + d.val) % 256 = d.val; omega)
  rw [val_main_v18_apply, e, valueMax_apply]
  unfold Cert.Spec.pool
  refine congrArg Cert.Spec.pool4 (funext fun a => funext fun e' => ?_)
  rw [valueSplit_apply]
  exact valueMap_apply x0 x5 x6 b _ _ d

end Cert.ReferenceIdeal.RefValue

end
-- ==== Proof.RefSoftmax.lean ====
/-
  The attention weights of the reference program, read at one element. For batch `b` and flat pixel `n` the scores
  are the inner products of the pixel's query with the 1024 pooled keys; the softmax is spelled out as a
  maximum over the pooled positions folded from minus infinity (joined once more with minus infinity, which changes
  nothing), a subtraction, an exponential, a sum from zero and a division. Over the query `qOf` and the pooled keys
  `kOf` these are `Cert.Spec.scoreOf`, `exOf` and `wgtOf`.
-/
import proofs.«110549_j51281909514278_2_alg».proof.Proof.Gen.ReferenceIdeal.Read
import proofs.«110549_j51281909514278_2_alg».proof.Proof.Spec
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx

/-- The query of flat pixel `n` of batch `b`, as the reference holds it. -/
def qOf (x0 : (⟨S16x64x64x512, .f32⟩ : BufTy).Contents (Elt Ideal)) (x3 : (⟨S512x64, .f32⟩ : BufTy).Contents (Elt Ideal)) (x4 : (⟨S64, .f32⟩ : BufTy).Contents (Elt Ideal)) (b : Fin 16) (n : Fin 4096) : Fin 64 → EReal :=
  fun d => val_main_v11 (F := Ideal) x0 x3 x4 (ix3 b n d)

/-- The pooled keys of batch `b`, as the reference holds them. -/
def kOf (x0 : (⟨S16x64x64x512, .f32⟩ : BufTy).Contents (Elt Ideal)) (x1 : (⟨S512x64, .f32⟩ : BufTy).Contents (Elt Ideal)) (x2 : (⟨S64, .f32⟩ : BufTy).Contents (Elt Ideal)) (b : Fin 16) : Fin 1024 → Fin 64 → EReal :=
  fun m d => val_main_v6 (F := Ideal) x0 x1 x2 (ix3 b m d)

/-- The score of pixel `n` against pooled position `m`. -/
theorem score_apply (x0 : (⟨S16x64x64x512, .f32⟩ : BufTy).Contents (Elt Ideal)) (x1 : (⟨S512x64, .f32⟩ : BufTy).Contents (Elt Ideal)) (x2 : (⟨S64, .f32⟩ : BufTy).Contents (Elt Ideal)) (x3 : (⟨S512x64, .f32⟩ : BufTy).Contents (Elt Ideal)) (x4 : (⟨S64, .f32⟩ : BufTy).Contents (Elt Ideal)) (b : Fin 16) (n : Fin 4096) (m : Fin 1024) :
    val_main_v19 (F := Ideal) x0 x1 x2 x3 x4 (ix3 b n m)
      = Cert.Spec.scoreOf (qOf x0 x3 x4 b n) (kOf x0 x1 x2 b) m := by
  have el : ∀ k : Fin 64, lidx_main_v19 (ix3 b n m) k = ix3 b n k := fun k => funext fun a => Fin.ext (by match a with | ⟨0, _⟩ => rfl | ⟨1, _⟩ => rfl | ⟨2, _⟩ => rfl)
  have er : ∀ k : Fin 64, ridx_main_v19 (ix3 b n m) k = ix3 b m k := fun k => funext fun a => Fin.ext (by match a with | ⟨0, _⟩ => rfl | ⟨1, _⟩ => rfl | ⟨2, _⟩ => rfl)
  rw [val_main_v19_apply]
  simp only [el, er]
  rfl

/-- The indices of the score array that drop to `(b, n)` when the last axis is removed are the `(b, n, m)`: the
    supremum over them is the supremum over `m`. -/
theorem sup_row (h : S16x4096x1024.ReducesTo [2] S16x4096) (Y : S16x4096x1024.Idx → EReal) (b : Fin 16) (n : Fin 4096) :
    (Finset.univ.filter fun i => h.drop i = ix2 b n).sup Y
      = (Finset.univ : Finset (Fin 1024)).sup fun m => Y (ix3 b n m) := by
  apply le_antisymm
  · refine Finset.sup_le fun i hi => ?_
    have hj := (Finset.mem_filter.1 hi).2
    obtain ⟨m, rfl⟩ : ∃ m : Fin 1024, i = ix3 b n m := by
      refine ⟨i 2, ?_⟩
      funext c
      refine Fin.ext ?_
      match c with
      | ⟨0, _⟩ => exact (h.drop_apply_val_of_eq i 0 0).symm.trans (congrArg (fun j : S16x4096.Idx => (j 0).val) hj)
      | ⟨1, _⟩ => exact (h.drop_apply_val_of_eq i 1 1).symm.trans (congrArg (fun j : S16x4096.Idx => (j 1).val) hj)
      | ⟨2, _⟩ => rfl
    exact Finset.le_sup (f := fun m : Fin 1024 => Y (ix3 b n m)) (Finset.mem_univ m)
  · refine Finset.sup_le fun m _ => ?_
    refine Finset.le_sup (f := Y) (Finset.mem_filter.2 ⟨Finset.mem_univ _, ?_⟩)
    funext c
    refine Fin.ext ?_
    match c with
    | ⟨0, _⟩ => exact h.drop_apply_val_of_eq _ 0 0
    | ⟨1, _⟩ => exact h.drop_apply_val_of_eq _ 1 1

/-- The largest score of pixel `n`: the maximum over the pooled positions folded from minus infinity. -/
theorem rowMax_apply (x0 : (⟨S16x64x64x512, .f32⟩ : BufTy).Contents (Elt Ideal)) (x1 : (⟨S512x64, .f32⟩ : BufTy).Contents (Elt Ideal)) (x2 : (⟨S64, .f32⟩ : BufTy).Contents (Elt Ideal)) (x3 : (⟨S512x64, .f32⟩ : BufTy).Contents (Elt Ideal)) (x4 : (⟨S64, .f32⟩ : BufTy).Contents (Elt Ideal)) (b : Fin 16) (n : Fin 4096) :
    val_main_v20 (F := Ideal) x0 x1 x2 x3 x4 (ix2 b n)
      = (Finset.univ : Finset (Fin 1024)).sup fun m' => Cert.Spec.scoreOf (qOf x0 x3 x4 b n) (kOf x0 x1 x2 b) m' := by
  have hs : ∀ m' : Fin 1024, Cert.Spec.scoreOf (qOf x0 x3 x4 b n) (kOf x0 x1 x2 b) m'
      = val_main_v19 (F := Ideal) x0 x1 x2 x3 x4 (ix3 b n m') := fun m' => (score_apply x0 x1 x2 x3 x4 b n m').symm
  simp only [hs]
  unfold val_main_v20
  generalize val_main_v19 (F := Ideal) x0 x1 x2 x3 x4 = y
  rw [Host.reduce_eq_fold]
  show (Finset.univ.filter fun i => reducesTo_S16x4096x1024_S16x4096_d2.drop i = ix2 b n).fold max
      (Ideal.ofBits .f32 0xFF800000#32) y = _
  rw [Cert.Spec.ofBits_neg_inf, Cert.Spec.fold_max_bot, sup_row]

/-- The unnormalized weight: the exponential of the score less the largest score. The reference joins the largest
    score with a broadcast minus infinity first, which leaves it as it is. -/
theorem ex_apply (x0 : (⟨S16x64x64x512, .f32⟩ : BufTy).Contents (Elt Ideal)) (x1 : (⟨S512x64, .f32⟩ : BufTy).Contents (Elt Ideal)) (x2 : (⟨S64, .f32⟩ : BufTy).Contents (Elt Ideal)) (x3 : (⟨S512x64, .f32⟩ : BufTy).Contents (Elt Ideal)) (x4 : (⟨S64, .f32⟩ : BufTy).Contents (Elt Ideal)) (b : Fin 16) (n : Fin 4096) (m : Fin 1024) :
    val_main_v26 (F := Ideal) x0 x1 x2 x3 x4 (ix3 b n m)
      = Cert.Spec.exOf (qOf x0 x3 x4 b n) (kOf x0 x1 x2 b) m := by
  have e : idx_main_v23 (idx_main_v24 (ix3 b n m)) = ix2 b n := funext fun a => Fin.ext (by match a with | ⟨0, _⟩ => rfl | ⟨1, _⟩ => rfl)
  rw [val_main_v26_apply, val_main_v25_apply, val_main_v24_apply, val_main_v23_apply, e, val_main_v22_apply,
    val_main_v21_apply, val_main_cst_2_apply, rowMax_apply, score_apply]
  simp only [Ideal.ofBits_def, Cert.Spec.ofBits_neg_inf, Ideal.maximumf_def, max_bot_left, Ideal.subf_def,
    Ideal.hostUnary_exp_def]
  rfl

/-- The sum of the unnormalized weights of pixel `n`, started from zero. -/
theorem exSum_apply (x0 : (⟨S16x64x64x512, .f32⟩ : BufTy).Contents (Elt Ideal)) (x1 : (⟨S512x64, .f32⟩ : BufTy).Contents (Elt Ideal)) (x2 : (⟨S64, .f32⟩ : BufTy).Contents (Elt Ideal)) (x3 : (⟨S512x64, .f32⟩ : BufTy).Contents (Elt Ideal)) (x4 : (⟨S64, .f32⟩ : BufTy).Contents (Elt Ideal)) (b : Fin 16) (n : Fin 4096) :
    val_main_v27 (F := Ideal) x0 x1 x2 x3 x4 (ix2 b n)
      = ∑ m' : Fin 1024, Cert.Spec.exOf (qOf x0 x3 x4 b n) (kOf x0 x1 x2 b) m' := by
  have e : ∀ k : Fin 1024, idx_main_v27 (ix2 b n) k = ix3 b n k := fun k => funext fun a => Fin.ext (by match a with | ⟨0, _⟩ => rfl | ⟨1, _⟩ => rfl | ⟨2, _⟩ => rfl)
  rw [val_main_v27_apply, val_main_cst_3_apply]
  simp only [e, ex_apply, Ideal.ofBits_def, Ideal.ofBits_zero_f32, zero_add]

/-- The softmax weight of pooled position `m` for pixel `n`. -/
theorem wgt_apply (x0 : (⟨S16x64x64x512, .f32⟩ : BufTy).Contents (Elt Ideal)) (x1 : (⟨S512x64, .f32⟩ : BufTy).Contents (Elt Ideal)) (x2 : (⟨S64, .f32⟩ : BufTy).Contents (Elt Ideal)) (x3 : (⟨S512x64, .f32⟩ : BufTy).Contents (Elt Ideal)) (x4 : (⟨S64, .f32⟩ : BufTy).Contents (Elt Ideal)) (b : Fin 16) (n : Fin 4096) (m : Fin 1024) :
    val_main_v30 (F := Ideal) x0 x1 x2 x3 x4 (ix3 b n m)
      = Cert.Spec.wgtOf (qOf x0 x3 x4 b n) (kOf x0 x1 x2 b) m := by
  have e : idx_main_v28 (idx_main_v29 (ix3 b n m)) = ix2 b n := funext fun a => Fin.ext (by match a with | ⟨0, _⟩ => rfl | ⟨1, _⟩ => rfl)
  rw [val_main_v30_apply, val_main_v29_apply, val_main_v28_apply, e, exSum_apply, ex_apply]
  rfl

end Cert.ReferenceIdeal.RefValue

end
-- ==== Proof.RefIsSpec.lean ====
/-
  The reference program's result is the specification `Cert.Spec.G`. The pooled values are mixed by the softmax
  weights (a contraction over the 1024 pooled positions), the flat pixels are unflattened (`n = 64 r + w`), the mix
  is mapped to 512 channels through Wo and bo, scaled by gamma and added to the pixel's own channels:
  `Cert.Spec.attend` over the reference's query, pooled keys and pooled values, which the earlier modules identify
  with `Cert.Spec.proj` and `Cert.Spec.pool` of the arguments.
-/
import proofs.«110549_j51281909514278_2_alg».proof.Proof.RefPool
import proofs.«110549_j51281909514278_2_alg».proof.Proof.RefSoftmax

noncomputable section

open scoped BigOperators

namespace Cert.ReferenceIdeal.RefValue

open Cert.ReferenceIdeal Cert.ReferenceIdeal.Gen Cert.ReferenceIdeal.Read Idealize.ShloMosaic Idealize.ShloMosaic.ValueIdx

/-- The pooled values of batch `b`, as the reference holds them. -/
def hOf (x0 : (⟨S16x64x64x512, .f32⟩ : BufTy).Contents (Elt Ideal)) (x5 : (⟨S512x256, .f32⟩ : BufTy).Contents (Elt Ideal)) (x6 : (⟨S256, .f32⟩ : BufTy).Contents (Elt Ideal)) (b : Fin 16) : Fin 1024 → Fin 256 → EReal :=
  fun m e => val_main_v18 (F := Ideal) x0 x5 x6 (ix3 b m e)

/-- Feature `e` of the pooled values mixed by the softmax weights of pixel `n`. -/
theorem mix_apply (x0 : (⟨S16x64x64x512, .f32⟩ : BufTy).Contents (Elt Ideal)) (x1 : (⟨S512x64, .f32⟩ : BufTy).Contents (Elt Ideal)) (x2 : (⟨S64, .f32⟩ : BufTy).Contents (Elt Ideal)) (x3 : (⟨S512x64, .f32⟩ : BufTy).Contents (Elt Ideal)) (x4 : (⟨S64, .f32⟩ : BufTy).Contents (Elt Ideal)) (x5 : (⟨S512x256, .f32⟩ : BufTy).Contents (Elt Ideal)) (x6 : (⟨S256, .f32⟩ : BufTy).Contents (Elt Ideal)) (b : Fin 16) (n : Fin 4096) (e : Fin 256) :
    val_main_v31 (F := Ideal) x0 x1 x2 x3 x4 x5 x6 (ix3 b n e)
      = Cert.Spec.mixOf (qOf x0 x3 x4 b n) (kOf x0 x1 x2 b) (hOf x0 x5 x6 b) e := by
  have el : ∀ k : Fin 1024, lidx_main_v31 (ix3 b n e) k = ix3 b n k := fun k => funext fun a => Fin.ext (by match a with | ⟨0, _⟩ => rfl | ⟨1, _⟩ => rfl | ⟨2, _⟩ => rfl)
  have er : ∀ k : Fin 1024, ridx_main_v31 (ix3 b n e) k = ix3 b k e := fun k => funext fun a => Fin.ext (by match a with | ⟨0, _⟩ => rfl | ⟨1, _⟩ => rfl | ⟨2, _⟩ => rfl)
  rw [val_main_v31_apply]
  simp only [el, er, wgt_apply]
  rfl

/-- Flat pixel `64 r + w`. -/
def pix (r w : Fin 64) : Fin 4096 := ⟨r.val * 64 + w.val, by omega⟩

/-- The reference's result at batch `b`, pixel `(r, w)`, channel `ch`. -/
theorem out_apply (x0 : (⟨S16x64x64x512, .f32⟩ : BufTy).Contents (Elt Ideal)) (x1 : (⟨S512x64, .f32⟩ : BufTy).Contents (Elt Ideal)) (x2 : (⟨S64, .f32⟩ : BufTy).Contents (Elt Ideal)) (x3 : (⟨S512x64, .f32⟩ : BufTy).Contents (Elt Ideal)) (x4 : (⟨S64, .f32⟩ : BufTy).Contents (Elt Ideal)) (x5 : (⟨S512x256, .f32⟩ : BufTy).Contents (Elt Ideal)) (x6 : (⟨S256, .f32⟩ : BufTy).Contents (Elt Ideal)) (x7 : (⟨S256x512, .f32⟩ : BufTy).Contents (Elt Ideal)) (x8 : (⟨S512, .f32⟩ : BufTy).Contents (Elt Ideal)) (x9 : (⟨S1, .f32⟩ : BufTy).Contents (Elt Ideal)) (b : Fin 16) (r w : Fin 64) (ch : Fin 512) :
    val_main_v40 (F := Ideal) x0 x1 x2 x3 x4 x5 x6 x7 x8 x9 (ix4 b r w ch)
      = Cert.Spec.attend (qOf x0 x3 x4 b (pix r w)) (kOf x0 x1 x2 b) (hOf x0 x5 x6 b)
          (fun e c => x7 (ix2 e c)) (fun c => x8 (ix1 c)) (x9 (ix1 0)) (fun c => x0 (ix4 b r w c)) ch := by
  have el : ∀ k : Fin 256, lidx_main_v33 (ix4 b r w ch) k = ix4 b r w k := fun k => funext fun a => Fin.ext (by match a with | ⟨0, _⟩ => rfl | ⟨1, _⟩ => rfl | ⟨2, _⟩ => rfl | ⟨3, _⟩ => rfl)
  have er : ∀ k : Fin 256, ridx_main_v33 (ix4 b r w ch) k = ix2 k ch := fun k => funext fun a => Fin.ext (by match a with | ⟨0, _⟩ => rfl | ⟨1, _⟩ => rfl)
  have eu : ∀ k : Fin 256, idx_main_v32 (ix4 b r w k) = ix3 b (pix r w) k := fun k => funext fun a => Fin.ext (by
    have hb := b.isLt; have hr := r.isLt; have hw := w.isLt; have hk := k.isLt
    match a with
    | ⟨0, _⟩ => show (((b.val * 64 + r.val) * 64 + w.val) * 256 + k.val) / 1048576 = b.val; omega
    | ⟨1, _⟩ => show (((b.val * 64 + r.val) * 64 + w.val) * 256 + k.val) / 256 % 4096 = r.val * 64 + w.val; omega
    | ⟨2, _⟩ => show (((b.val * 64 + r.val) * 64 + w.val) * 256 + k.val) % 256 = k.val; omega)
  have eb : idx_main_v34 (idx_main_v35 (ix4 b r w ch)) = ix1 ch := funext fun a => Fin.ext (by match a with | ⟨0, _⟩ => rfl)
  have eg : idx_main_v37 (idx_main_v38 (ix4 b r w ch)) = ix1 0 := funext fun a => Fin.ext (by match a with | ⟨0, _⟩ => rfl)
  rw [val_main_v40_apply, val_main_v39_apply, val_main_v38_apply, val_main_v37_apply, val_main_v36_apply,
    val_main_v35_apply, val_main_v34_apply, val_main_v33_apply]
  simp only [el, er, eb, eg, val_main_v32_apply, eu, mix_apply, Ideal.addf_def, Ideal.mulf_def]
  rfl

/-- THE REFERENCE SIDE: the reference program's result, read at the extended reals, is `Cert.Spec.G` of the ten
    argument arrays. -/
theorem ref_eq (x0 : (⟨S16x64x64x512, .f32⟩ : BufTy).Contents (Elt Ideal)) (x1 : (⟨S512x64, .f32⟩ : BufTy).Contents (Elt Ideal)) (x2 : (⟨S64, .f32⟩ : BufTy).Contents (Elt Ideal)) (x3 : (⟨S512x64, .f32⟩ : BufTy).Contents (Elt Ideal)) (x4 : (⟨S64, .f32⟩ : BufTy).Contents (Elt Ideal)) (x5 : (⟨S512x256, .f32⟩ : BufTy).Contents (Elt Ideal)) (x6 : (⟨S256, .f32⟩ : BufTy).Contents (Elt Ideal)) (x7 : (⟨S256x512, .f32⟩ : BufTy).Contents (Elt Ideal)) (x8 : (⟨S512, .f32⟩ : BufTy).Contents (Elt Ideal)) (x9 : (⟨S1, .f32⟩ : BufTy).Contents (Elt Ideal)) :
    Cert.ReferenceIdeal.Read.val_main_v40 (F := Ideal) x0 x1 x2 x3 x4 x5 x6 x7 x8 x9 = Cert.Spec.G x0 x1 x2 x3 x4 x5 x6 x7 x8 x9 := by
  funext i
  obtain ⟨b, r, w, ch, rfl⟩ : ∃ (b : Fin 16) (r w : Fin 64) (ch : Fin 512), i = ix4 b r w ch :=
    ⟨i 0, i 1, i 2, i 3, eq_ix4 i⟩
  have hq : qOf x0 x3 x4 b (pix r w) = fun d => Cert.Spec.proj x0 x3 x4 b r w d := funext fun d => by
    have e1 : qrow (pix r w) = r := Fin.ext (by have := w.isLt; show (r.val * 64 + w.val) / 64 = r.val; omega)
    have e2 : qcol (pix r w) = w := Fin.ext (by have := w.isLt; show (r.val * 64 + w.val) % 64 = w.val; omega)
    show val_main_v11 (F := Ideal) x0 x3 x4 (ix3 b (pix r w) d) = _
    rw [queryFlat_apply, e1, e2]
  have hk : kOf x0 x1 x2 b = fun m d => Cert.Spec.pool x0 x1 x2 b (Cert.Spec.prow m) (Cert.Spec.pcol m) d :=
    funext fun m => funext fun d => keyPool_apply x0 x1 x2 b m d
  have hh : hOf x0 x5 x6 b = fun m e => Cert.Spec.pool x0 x5 x6 b (Cert.Spec.prow m) (Cert.Spec.pcol m) e :=
    funext fun m => funext fun e => valuePool_apply x0 x5 x6 b m e
  rw [out_apply, hq, hk, hh]
  rfl

end Cert.ReferenceIdeal.RefValue

end
-- ==== Proof.lean ====
/-
  The certificate of a fused attention kernel against its jnp reference: `Cert.Claim`.

  The kernel handles one batch element per grid point: from the 64 x 64 x 512 image of that element it computes, for every
  pixel, three affine maps of the channels in ONE matrix product over the concatenated weights (key, query and value
  features), max-pools the key and value features over 2 x 2 pixel squares into two scratch buffers, keeps the query
  features in a third, and then, 256 pixels at a time, forms the softmax over the 1024 pooled positions of the
  query-key scores, mixes the pooled values by it, maps the result back to 512 channels, scales it by gamma and adds the
  pixels back. The reference computes the same on whole arrays with three separate products and one two-axis pooling.

  The three frames: the word-level kernel and its idealization run to the end without a fault and leave their ten
  argument arrays as launched (`Cert.Kernel.Hand.frame`, `Cert.KernelIdeal.Hand.frame`: the body's run on whole staging
  buffers through both loops, launched over the 16 grid points after the host's five layout lines); the reference is a
  straight line of host operations, whose run with its result dropped is its frame. The idealization rewrote nothing,
  so `preserves` has no conjunct. `algebraic`: over the extended reals both results are the one function `Cert.Spec.G`
  of the argument arrays — no law beyond re-indexing sums and suprema is used, so the precondition is never opened.
-/
import proofs.«110549_j51281909514278_2_alg».proof.Defs
import proofs.«110549_j51281909514278_2_alg».proof.Proof.Gen.Kernel
import proofs.«110549_j51281909514278_2_alg».proof.Proof.Gen.KernelIdeal
import proofs.«110549_j51281909514278_2_alg».proof.Proof.Gen.ReferenceIdeal
import proofs.«110549_j51281909514278_2_alg».proof.Proof.Gen.Pre_finite_inputs
import proofs.«110549_j51281909514278_2_alg».proof.Proof.Gen.ReferenceIdeal.Run
import proofs.«110549_j51281909514278_2_alg».proof.Proof.Gen.ReferenceIdeal.Read
import proofs.«110549_j51281909514278_2_alg».proof.Proof.BitsFrame
import proofs.«110549_j51281909514278_2_alg».proof.Proof.IdealFrame
import proofs.«110549_j51281909514278_2_alg».proof.Proof.IdealArray
import proofs.«110549_j51281909514278_2_alg».proof.Proof.RefIsSpec
import Idealize.ShloMosaic.Adequacy
import Idealize.ShloMosaic.Init

noncomputable section

namespace Cert.Proof

open Idealize.ShloMosaic Idealize.SL.Sem

theorem frame_kernel : Cert.frame_Kernel := fun m ρ _ => Cert.Kernel.Hand.frame m ρ
theorem frame_ideal : Cert.frame_KernelIdeal := fun m ρ _ => Cert.KernelIdeal.Hand.frame m ρ
theorem frame_reference : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' _ hagree
  refine ⟨fun c => Cert.KernelIdeal.Hand.GArr m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, Cert.ReferenceIdeal.RefValue.ref_eq]
  obtain ⟨a0, a1, a2, a3, a4, a5, a6, a7, a8, a9⟩ := hagree c
  rw [a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
